-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2x4096x4096 : Shape := ⟨3, ![2, 4096, 4096]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S32x16 .f32) (main_arg5 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S4096x128 .f32) (main_arg1 : FVec F S2x4096x4096 .f32) (main_arg2 : FVec F S128x32 .f32) (main_arg3 : FVec F S32 .f32) (main_arg4 : FVec F S32x16 .f32) (main_arg5 : FVec F S16 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S4096x128 : Shape := ⟨2, ![4096, 128]⟩
abbrev S2x4096x4096 : Shape := ⟨3, ![2, 4096, 4096]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S4136x32 : Shape := ⟨2, ![4136, 32]⟩
abbrev S4096x16 : Shape := ⟨2, ![4096, 16]⟩
abbrev S4096x32 : Shape := ⟨2, ![4096, 32]⟩
abbrev S32x32 : Shape := ⟨2, ![32, 32]⟩
abbrev S6x32 : Shape := ⟨2, ![6, 32]⟩
abbrev S1x512x4096 : Shape := ⟨3, ![1, 512, 4096]⟩
abbrev S512x16 : Shape := ⟨2, ![512, 16]⟩
abbrev S512x4096 : Shape := ⟨2, ![512, 4096]⟩
abbrev S512x32 : Shape := ⟨2, ![512, 32]⟩

abbrev nBuf : Space → Nat
  | .hbm => 10
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S2x4096x4096, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x32, .f32⟩
  | .hbm, ⟨7, _⟩ => ⟨S1x16, .f32⟩
  | .hbm, ⟨8, _⟩ => ⟨S4136x32, .f32⟩
  | .hbm, ⟨9, _⟩ => ⟨S4096x16, .f32⟩
  | .local _ .vmem, ⟨0, _⟩ => ⟨S4096x128, .f32⟩
  | .local _ .vmem, ⟨1, _⟩ => ⟨S128x32, .f32⟩
  | .local _ .vmem, ⟨2, _⟩ => ⟨S1x32, .f32⟩
  | .local _ .vmem, ⟨3, _⟩ => ⟨S32x16, .f32⟩
  | .local _ .vmem, ⟨4, _⟩ => ⟨S1x16, .f32⟩
  | .local _ .vmem, ⟨5, _⟩ => ⟨S4136x32, .f32⟩
  | .local _ .vmem, ⟨6, _⟩ => ⟨S1x512x4096, .f32⟩
  | .local _ .vmem, ⟨7, _⟩ => ⟨S1x512x4096, .f32⟩
  | .local _ .vmem, ⟨8, _⟩ => ⟨S4136x32, .f32⟩
  | .local _ .vmem, ⟨9, _⟩ => ⟨S512x16, .f32⟩
  | .local _ .vmem, ⟨10, _⟩ => ⟨S512x16, .f32⟩
  | .local _ .vmem, ⟨11, _⟩ => ⟨S4096x32, .f32⟩
  | .local _ .vmem, ⟨12, _⟩ => ⟨S4096x32, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4136x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 8], ![false, false]⟩

def k1_cond3 (i : grid1.Coords) : BitVec 1 :=
  let arg0 : BitVec 32 := BitVec.ofNat 32 (i 0).val
  let c0_i32_8 : BitVec 32 := 0#32
  let v14 : BitVec 1 := Scalar.cmpi .eq arg0 c0_i32_8
  let v15 : BitVec 32 := Scalar.extui v14
  let c0_i32_9 : BitVec 32 := 0#32
  let v16 : BitVec 1 := Scalar.cmpi .ne v15 c0_i32_9
  v16

def k1_off1 (i : grid1.Coords) : Fin 2 → Nat :=
  let arg1 : BitVec 32 := BitVec.ofNat 32 (i 1).val
  let c512_i32 : BitVec 32 := 512#32
  let v26 : BitVec 32 := Scalar.muli arg1 c512_i32
  let v27 : Index := Scalar.indexCast v26
  let c0_14 : Index := 0#32
  ![v27.toNat, 0]
def k1_cond4 (i : grid1.Coords) : BitVec 1 :=
  let arg0 : BitVec 32 := BitVec.ofNat 32 (i 0).val
  let c1_i32_10 : BitVec 32 := 1#32
  let v17 : BitVec 1 := Scalar.cmpi .eq arg0 c1_i32_10
  let v18 : BitVec 32 := Scalar.extui v17
  let c0_i32_11 : BitVec 32 := 0#32
  let v19 : BitVec 1 := Scalar.cmpi .ne v18 c0_i32_11
  v19

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4136x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S32_S1x32 : S32.ShapeCasts S1x32
  shapeCasts_S16_S1x16 : S16.ShapeCasts S1x16
  inb_S4096x128_S4096x128_0_0 : ∀ a, (![0, 0] : Fin 2 → Nat) a + S4096x128.size a ≤ S4096x128.size a
  h_S4096x128 : 0 < S4096x128.numel
  inb_S128x32_S128x32_0_0 : ∀ a, (![0, 0] : Fin 2 → Nat) a + S128x32.size a ≤ S128x32.size a
  h_S128x32 : 0 < S128x32.numel
  inb_S4136x32_S4096x32_0_0 : ∀ a, (![0, 0] : Fin 2 → Nat) a + S4096x32.size a ≤ S4136x32.size a
  h_S4096x32 : 0 < S4096x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S4136x32_S1x32_4096_0 : ∀ a, (![4096, 0] : Fin 2 → Nat) a + S1x32.size a ≤ S4136x32.size a
  inb_S1x16_S1x16_0_0 : ∀ a, (![0, 0] : Fin 2 → Nat) a + S1x16.size a ≤ S1x16.size a
  h_S1x16 : 0 < S1x16.numel
  shapeCasts_S1x16_S1x16 : S1x16.ShapeCasts S1x16
  concatenates_S1x16_S1x16_S1x32_d1 : Shape.Concatenates [S1x16, S1x16] S1x32 1
  inb_S4136x32_S1x32_4097_0 : ∀ a, (![4097, 0] : Fin 2 → Nat) a + S1x32.size a ≤ S4136x32.size a
  inb_S32x16_S32x16_0_0 : ∀ a, (![0, 0] : Fin 2 → Nat) a + S32x16.size a ≤ S32x16.size a
  h_S32x16 : 0 < S32x16.numel
  concatenates_S32x16_S32x16_S32x32_d1 : Shape.Concatenates [S32x16, S32x16] S32x32 1
  inb_S4136x32_S32x32_4104_0 : ∀ a, (![4104, 0] : Fin 2 → Nat) a + S32x32.size a ≤ S4136x32.size a
  h_S32x32 : 0 < S32x32.numel
  inb_S4136x32_S6x32_4098_0 : ∀ a, (![4098, 0] : Fin 2 → Nat) a + S6x32.size a ≤ S4136x32.size a
  h_S6x32 : 0 < S6x32.numel
  shapeCasts_S4096x32_S4096x32 : S4096x32.ShapeCasts S4096x32
  inb_S4096x32_S4096x32_0_0 : ∀ a, (![0, 0] : Fin 2 → Nat) a + S4096x32.size a ≤ S4096x32.size a
  shapeCasts_S32x32_S32x32 : S32x32.ShapeCasts S32x32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  broadcasts_S1x32_S512x32 : S1x32.Broadcasts S512x32
  h_S512x32 : 0 < S512x32.numel
  shapeCasts_S512x32_S512x32 : S512x32.ShapeCasts S512x32
  slices_S512x32_o0_0_S512x16 : S512x32.Slices ![0, 0] S512x16
  inb_S4136x32_S1x16_4097_0 : ∀ a, (![4097, 0] : Fin 2 → Nat) a + S1x16.size a ≤ S4136x32.size a
  broadcasts_S1x16_S512x16 : S1x16.Broadcasts S512x16
  inb_S512x16_S512x16_0_0 : ∀ a, (![0, 0] : Fin 2 → Nat) a + S512x16.size a ≤ S512x16.size a
  h_S512x16 : 0 < S512x16.numel
  dot_S4096x128_S128x32_S4096x32_1_0_0_1_n_n_wf : DotDims.WF S4096x128 S128x32 S4096x32 [1] [0] [0] [1] [] []
  dot_S4096x32_S32x32_S4096x32_1_0_0_1_n_n_wf : DotDims.WF S4096x32 S32x32 S4096x32 [1] [0] [0] [1] [] []
  dot_S512x4096_S4096x32_S512x32_1_0_0_1_n_n_wf : DotDims.WF S512x4096 S4096x32 S512x32 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hrank1 : 0 < grid1.rank
  k1_off1_inb : ∀ i : grid1.Coords, ∀ (k1_h3 : k1_cond3 i = 1#1), ∀ a, (k1_off1 i) a + S512x32.size a ≤ S4096x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S2x4096x4096.size a
  hwx1_0 : ∀ i : grid1.Coords, EltTy.bits .f32 = 32 ∨ (Rect.block (s := S2x4096x4096) S1x512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4136x32.size a ≤ S4136x32.size a
  hwx1_1 : ∀ i : grid1.Coords, EltTy.bits .f32 = 32 ∨ (Rect.block (s := S4136x32) S4136x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x16.size a ≤ S4096x16.size a
  hwx1_2 : ∀ i : grid1.Coords, EltTy.bits .f32 = 32 ∨ (Rect.block (s := S4096x16) S512x16.size (cc1_transform_2 i) (hinb1_2 i)).WholeWords (EltTy.packing .f32)

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v0) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_call0_v1) false false (stage0_4 0) (sem0_4 0) (Memref.isWhole_whole _) (hstage0_4 0)

abbrev win0_5 : Pipeline.Window sig grid0 :=
  Pipeline.Window.whole (Memref.whole main_call0_v2) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S4136x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond4 i == 1#1) | ⟨_ + 3, h⟩ => absurd h (Nat.not_lt.2 (Nat.le_add_left _ _))

class Facts : Prop extends Facts₀ where

variable [Facts]
-- ==== ReferenceIdeal.lean ====
abbrev S4096x128 : Shape := ⟨2, ![4096, 128]⟩
abbrev S2x4096x4096 : Shape := ⟨3, ![2, 4096, 4096]⟩
abbrev S128x32 : Shape := ⟨2, ![128, 32]⟩
abbrev S32 : Shape := ⟨1, ![32]⟩
abbrev S32x16 : Shape := ⟨2, ![32, 16]⟩
abbrev S16 : Shape := ⟨1, ![16]⟩
abbrev S4096x32 : Shape := ⟨2, ![4096, 32]⟩
abbrev S1x4096x4096 : Shape := ⟨3, ![1, 4096, 4096]⟩
abbrev S4096x4096 : Shape := ⟨2, ![4096, 4096]⟩
abbrev S1x32 : Shape := ⟨2, ![1, 32]⟩
abbrev S_ : Shape := ⟨0, ![]⟩
abbrev S4096x16 : Shape := ⟨2, ![4096, 16]⟩
abbrev S1x16 : Shape := ⟨2, ![1, 16]⟩

abbrev nBuf : Space → Nat
  | .hbm => 39
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2x4096x4096, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S4096x32, .f32⟩
  | .hbm, ⟨7, _⟩ => ⟨S1x4096x4096, .f32⟩
  | .hbm, ⟨8, _⟩ => ⟨S4096x4096, .f32⟩
  | .hbm, ⟨9, _⟩ => ⟨S4096x32, .f32⟩
  | .hbm, ⟨10, _⟩ => ⟨S1x32, .f32⟩
  | .hbm, ⟨11, _⟩ => ⟨S4096x32, .f32⟩
  | .hbm, ⟨12, _⟩ => ⟨S4096x32, .f32⟩
  | .hbm, ⟨13, _⟩ => ⟨S_, .f32⟩
  | .hbm, ⟨14, _⟩ => ⟨S4096x32, .f32⟩
  | .hbm, ⟨15, _⟩ => ⟨S4096x32, .f32⟩
  | .hbm, ⟨16, _⟩ => ⟨S4096x16, .f32⟩
  | .hbm, ⟨17, _⟩ => ⟨S1x4096x4096, .f32⟩
  | .hbm, ⟨18, _⟩ => ⟨S4096x4096, .f32⟩
  | .hbm, ⟨19, _⟩ => ⟨S4096x16, .f32⟩
  | .hbm, ⟨20, _⟩ => ⟨S1x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S_, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S4096x16, .i1⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_v0 : Ref sig .tc := ⟨.hbm, 23, rfl⟩
abbrev main_call1_call0_cst : Ref sig .tc := ⟨.hbm, 24, rfl⟩
abbrev main_call1_call0_v0 : Ref sig .tc := ⟨.hbm, 25, rfl⟩
abbrev main_call1_call0_v1 : Ref sig .tc := ⟨.hbm, 26, rfl⟩
abbrev main_call1_call0_v2 : Ref sig .tc := ⟨.hbm, 27, rfl⟩
abbrev main_call1_call0_v3 : Ref sig .tc := ⟨.hbm, 28, rfl⟩
abbrev main_call1_call0_v4 : Ref sig .tc := ⟨.hbm, 29, rfl⟩
abbrev main_call1_call0_v5 : Ref sig .tc := ⟨.hbm, 30, rfl⟩
abbrev main_call1_call0_v6 : Ref sig .tc := ⟨.hbm, 31, rfl⟩
abbrev main_call1_call0_v7 : Ref sig .tc := ⟨.hbm, 32, rfl⟩
abbrev main_call1_call0_v8 : Ref sig .tc := ⟨.hbm, 33, rfl⟩
abbrev main_call1_call0_v9 : Ref sig .tc := ⟨.hbm, 34, rfl⟩
abbrev main_call1_call0_v10 : Ref sig .tc := ⟨.hbm, 35, rfl⟩
abbrev main_call1_call0_v11 : Ref sig .tc := ⟨.hbm, 36, rfl⟩
abbrev main_call1_v1 : Ref sig .tc := ⟨.hbm, 37, rfl⟩
abbrev main_v15 : Ref sig .tc := ⟨.hbm, 38, rfl⟩

abbrev nD : Nat := 1
abbrev τ : Topo := Topo.v7x

variable {F : FTy → Type} [FloatOps F]

class Facts₀ : Prop where
  slices_S2x4096x4096_S1x4096x4096_0_0_0 : S2x4096x4096.Slices ![0, 0, 0] S1x4096x4096
  shapeCasts_S1x4096x4096_S4096x4096 : S1x4096x4096.ShapeCasts S4096x4096
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  slices_S2x4096x4096_S1x4096x4096_1_0_0 : S2x4096x4096.Slices ![1, 0, 0] S1x4096x4096
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x16 : S_.BroadcastsInDim S4096x16 (![] : Fin 0 → Fin S4096x16.rank)
  dot_S4096x128_S128x32_S4096x32_1_0_0_1_n_n_wf : DotDims.WF S4096x128 S128x32 S4096x32 [1] [0] [0] [1] [] []
  dot_S4096x4096_S4096x32_S4096x32_1_0_0_1_n_n_wf : DotDims.WF S4096x4096 S4096x32 S4096x32 [1] [0] [0] [1] [] []
  dot_S4096x32_S32x16_S4096x16_1_0_0_1_n_n_wf : DotDims.WF S4096x32 S32x16 S4096x16 [1] [0] [0] [1] [] []
  dot_S4096x4096_S4096x16_S4096x16_1_0_0_1_n_n_wf : DotDims.WF S4096x4096 S4096x16 S4096x16 [1] [0] [0] [1] [] []

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf

class Facts : Prop extends Facts₀ where

variable [Facts]
-- ==== Proof.BitsReg0.lean ====
/- The first pallas_call of @main (the gridless packing kernel), at a parameter `V` — the TensorCore's buffer
   contents when the region is entered —, generic in the float instance: each window's block at the one grid point,
   what the body leaves in the output window's staging buffer as a closed function of the five input blocks (its five
   stores laid over one another), the body's triple, the pipeline's proof data and the body obligation. -/
import proofs.«182081_g1666447311259_cont_sun_c4_429_14_alg».proof.Proof.Gen.Kernel.Launch
import proofs.«182081_g1666447311259_cont_sun_c4_429_14_alg».proof.Proof.Gen.Kernel.Skeleton
import proofs.«182081_g1666447311259_cont_sun_c4_429_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): the window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): the window is uncut and
    never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): the window is uncut and
    never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): the window is uncut and
    never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): the window is uncut and
    never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4096x128 := Rect.unit (s := S4096x128) ![0, 0] S4096x128.size inb_S4096x128_S4096x128_0_0
abbrev r0_1 : Rect S128x32 := Rect.unit (s := S128x32) ![0, 0] S128x32.size inb_S128x32_S128x32_0_0
abbrev r0_2 : Rect S4136x32 := Rect.unit (s := S4136x32) ![0, 0] S4096x32.size inb_S4136x32_S4096x32_0_0
abbrev r0_3 : Rect S1x32 := Rect.unit (s := S1x32) ![0, 0] S1x32.size inb_S1x32_S1x32_0_0
abbrev r0_4 : Rect S4136x32 := Rect.unit (s := S4136x32) ![4096, 0] S1x32.size inb_S4136x32_S1x32_4096_0
abbrev r0_5 : Rect S1x16 := Rect.unit (s := S1x16) ![0, 0] S1x16.size inb_S1x16_S1x16_0_0
abbrev r0_6 : Rect S4136x32 := Rect.unit (s := S4136x32) ![4097, 0] S1x32.size inb_S4136x32_S1x32_4097_0
abbrev r0_7 : Rect S32x16 := Rect.unit (s := S32x16) ![0, 0] S32x16.size inb_S32x16_S32x16_0_0
abbrev r0_8 : Rect S4136x32 := Rect.unit (s := S4136x32) ![4104, 0] S32x32.size inb_S4136x32_S32x32_4104_0
abbrev r0_9 : Rect S4136x32 := Rect.unit (s := S4136x32) ![4098, 0] S6x32.size inb_S4136x32_S6x32_4098_0

/-! ## What the body leaves in the output window's buffer -/

/-- Window 5's staging buffer after the body, from the input windows' blocks: its 5 stores as pieces, last
    first. Rows 4098..4103 hold zero, rows 4104..4135 the second weight beside zeros, row 4097 the second bias
    beside zeros, row 4096 the first bias, rows 0..4095 the product of the features and the first weight. -/
def out0_5 (x0 : Vec F S4096x128 .f32) (x1 : Vec F S128x32 .f32) (x2 : Vec F S1x32 .f32) (x3 : Vec F S32x16 .f32) (x4 : Vec F S1x16 .f32) : Vec F S4136x32 .f32 :=
  View.canon [⟨r0_9, k0_pay5⟩,
    ⟨r0_8, k0_pay4 (View.ld x3 r0_7)⟩,
    ⟨r0_6, k0_pay3 (View.ld x4 r0_5)⟩,
    ⟨r0_4, k0_pay2 (View.ld x2 r0_3)⟩,
    ⟨r0_2, k0_pay1 (View.ld x0 r0_0) (View.ld x1 r0_1)⟩]

/-- Its stores are of several sizes; cut into single rows of 32 they tile the buffer (checked by evaluation),
    so they cover it. -/
theorem cover0_5 (p0 : Vec F S6x32 .f32) (p1 : Vec F S32x32 .f32) (p2 : Vec F S1x32 .f32) (p3 : Vec F S1x32 .f32) (p4 : Vec F S4096x32 .f32) (y : S4136x32.Idx) :
    ∃ pc ∈ ([⟨r0_9, p0⟩, ⟨r0_8, p1⟩, ⟨r0_6, p2⟩, ⟨r0_4, p3⟩, ⟨r0_2, p4⟩] : List (View.Piece (Elt F) S4136x32 .f32)), y ∈ pc.1.set :=
  View.cover_of_tiledBy [⟨r0_9, p0⟩, ⟨r0_8, p1⟩, ⟨r0_6, p2⟩, ⟨r0_4, p3⟩, ⟨r0_2, p4⟩] ![1, 32] (by sl_kernel_rfl) y

/-! ## The body's triple -/

set_option maxHeartbeats 1000000 in
/-- The kernel body on whole staging memrefs, the inputs' at read contents `xW` and the output's at anything, runs to
    the continuation holding the inputs' as they were and the output's at `out0_5` of the inputs'. Each store is
    preceded by a load of the same rectangle of the output buffer whose value nothing reads. -/
theorem sound_kernel0 (c : Dev nD) (E : Set ℕ) (arg0 : Memref sig .tc .vmem S4096x128 .f32) (harg0 : arg0.IsWhole) (arg1 : Memref sig .tc .vmem S128x32 .f32) (harg1 : arg1.IsWhole) (arg2 : Memref sig .tc .vmem S1x32 .f32) (harg2 : arg2.IsWhole) (arg3 : Memref sig .tc .vmem S32x16 .f32) (harg3 : arg3.IsWhole) (arg4 : Memref sig .tc .vmem S1x16 .f32) (harg4 : arg4.IsWhole) (arg5 : Memref sig .tc .vmem S4136x32 .f32) (harg5 : arg5.IsWhole)
    (x0 : Vec F S4096x128 .f32) (x1 : Vec F S128x32 .f32) (x2 : Vec F S1x32 .f32) (x3 : Vec F S32x16 .f32) (x4 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__pack_kernel arg0 harg0 arg1 harg1 arg2 harg2 arg3 harg3 arg4 harg4 arg5 harg5) K := by
  simp only [cc0__pack_kernel_eq_skeleton]; unfold cc0__pack_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _ _ _ _ _)

/-! ## The pipeline's proof data -/

/-- The proof data of this pipeline on core `c`: the arrays as the region finds them (`V`); after the body at
    point `t` each input's buffer at its block and the output's at `out0_5` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsReg1Runs.lean ====
/-
  The second kernel's body, run once per control case.  The grid is (phase, tile) = (2, 8).  The body keeps two
  scratch arrays between grid points: a "selector" [4096, 32] that every point multiplies its tile of adjacency
  rows with, and the hidden layer [4096, 32], filled 512 rows per point during phase 0.  Four cases:
    A  (phase 0, tile 0): the selector is filled from the packed array's first 4096 rows; then rows 0..511 of the
       hidden layer are stored;
    B  (phase 0, tile > 0): rows 512·tile .. 512·tile+511 of the hidden layer are stored;
    C  (phase 1, tile 0): the selector is overwritten with the hidden layer times the padded second weights; then
       the output tile is stored;
    D  (phase 1, tile > 0): the output tile is stored.
  Each run states what every buffer holds afterwards as a function of what it held before.
-/
import proofs.«182081_g1666447311259_cont_sun_c4_429_14_alg».proof.Proof.Gen.Kernel.Launch
import proofs.«182081_g1666447311259_cont_sun_c4_429_14_alg».proof.Proof.Gen.Kernel.Skeleton
import proofs.«182081_g1666447311259_cont_sun_c4_429_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, as the body computes them from the grid point -/

abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
abbrev cond2 (i : grid1.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
abbrev cond3 (i : grid1.Coords) : Prop := k1_cond3 i = 1#1
abbrev cond4 (i : grid1.Coords) : Prop := k1_cond4 i = 1#1

/-- Filling the selector from the packed array happens at the first point only; -/
theorem hcond1 : ∀ t : Fin cfg1.N, cond1 (grid1.coords t) ↔ t.val = 0 :=
  (by decide +kernel : ∀ t : Fin grid1.N, cond1 (grid1.coords t) ↔ t.val = 0)
/-- overwriting it with the second layer's support at the first point of phase 1 only; -/
theorem hcond2 : ∀ t : Fin cfg1.N, cond2 (grid1.coords t) ↔ t.val = 8 :=
  (by decide +kernel : ∀ t : Fin grid1.N, cond2 (grid1.coords t) ↔ t.val = 8)
/-- the hidden layer is stored during phase 0; -/
theorem hcond3 : ∀ t : Fin cfg1.N, cond3 (grid1.coords t) ↔ t.val < 8 :=
  (by decide +kernel : ∀ t : Fin grid1.N, cond3 (grid1.coords t) ↔ t.val < 8)
/-- the output during phase 1. -/
theorem hcond4 : ∀ t : Fin cfg1.N, cond4 (grid1.coords t) ↔ 8 ≤ t.val :=
  (by decide +kernel : ∀ t : Fin grid1.N, cond4 (grid1.coords t) ↔ 8 ≤ t.val)

/-! ## The rectangles the body reads and writes through -/

abbrev rAdj : Rect S1x512x4096 := Rect.unit (s := S1x512x4096) ![0, 0, 0] S1x512x4096.size inb_S1x512x4096_S1x512x4096_0_0_0
abbrev rSel : Rect S4096x32 := Rect.unit (s := S4096x32) ![0, 0] S4096x32.size inb_S4096x32_S4096x32_0_0
abbrev rPkS1 : Rect S4136x32 := Rect.unit (s := S4136x32) ![0, 0] S4096x32.size inb_S4136x32_S4096x32_0_0
abbrev rPkB1 : Rect S4136x32 := Rect.unit (s := S4136x32) ![4096, 0] S1x32.size inb_S4136x32_S1x32_4096_0
abbrev rPkB2 : Rect S4136x32 := Rect.unit (s := S4136x32) ![4097, 0] S1x16.size inb_S4136x32_S1x16_4097_0
abbrev rPkW2 : Rect S4136x32 := Rect.unit (s := S4136x32) ![4104, 0] S32x32.size inb_S4136x32_S32x32_4104_0
abbrev rOut : Rect S512x16 := Rect.unit (s := S512x16) ![0, 0] S512x16.size inb_S512x16_S512x16_0_0
/-- The 512 rows of the hidden layer the point stores. -/
abbrev rHid (i : grid1.Coords) (h : cond3 i) : Rect S4096x32 := Rect.unit (s := S4096x32) (k1_off1 i) S512x32.size (k1_off1_inb i h)

/-! ## One store over given contents -/

/-- Contents read after one store through a rectangle: the payload under the rectangle, what was there elsewhere. -/
theorem read_writes_one {sg : RefSig} {κ : Kind} {sp : Space} {s : Shape} {e : EltTy} {Val : EltTy → Type}
    (v : View sg κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, r.overlay_emb]
  · rw [r.overlay_of_not_mem _ _ hy]
    exact View.read_writes_apply_of_forall_not_mem v f y [⟨r, w⟩] (fun q hq => by
      rw [List.mem_singleton] at hq; subst hq; exact hy)

/-- A store through the whole shape's rectangle leaves its payload. -/
theorem cover_sel (p0 : rSel.shape.Idx → Elt F .f32) (y : S4096x32.Idx) :
    ∃ pc ∈ ([⟨rSel, p0⟩] : List (View.Piece (Elt F) S4096x32 .f32)), y ∈ pc.1.set :=
  View.cover_of_tiled [⟨rSel, p0⟩] S4096x32.size (by rfl) y
theorem cover_out (p0 : rOut.shape.Idx → Elt F .f32) (y : S512x16.Idx) :
    ∃ pc ∈ ([⟨rOut, p0⟩] : List (View.Piece (Elt F) S512x16 .f32)), y ∈ pc.1.set :=
  View.cover_of_tiled [⟨rOut, p0⟩] S512x16.size (by rfl) y

/-! ## What the cases leave -/

/-- The selector as case A fills it: the packed array's first 4096 rows. -/
def selA (pk : Vec F S4136x32 .f32) : Vec F S4096x32 .f32 := View.canon [⟨rSel, k1_pay1 (View.ld pk rPkS1)⟩]
/-- The selector as case C fills it: the hidden layer times the padded second weights. -/
def selC (pk : Vec F S4136x32 .f32) (hb : Vec F S4096x32 .f32) : Vec F S4096x32 .f32 :=
  View.canon [⟨rSel, k1_pay2 (View.ld hb rSel) (View.ld pk rPkW2)⟩]
/-- The 512 rows of the hidden layer a phase-0 point computes from its adjacency tile and the selector. -/
def hidTile (x : Vec F S1x512x4096 .f32) (pk : Vec F S4136x32 .f32) (sel : Vec F S4096x32 .f32) : FVec F S512x32 .f32 :=
  k1_pay4 (View.ld x rAdj) (View.ld sel rSel) (View.ld pk rPkB1)
/-- The output tile a phase-1 point computes. -/
def outTile (x : Vec F S1x512x4096 .f32) (pk : Vec F S4136x32 .f32) (sel : Vec F S4096x32 .f32) : Vec F S512x16 .f32 :=
  View.canon [⟨rOut, k1_pay5 (View.ld x rAdj) (View.ld sel rSel) (View.ld pk rPkB2)⟩]

set_option maxHeartbeats 1000000 in
/-- Case D: only the output tile is stored. -/
theorem runD (c : Dev nD) (E : Set ℕ) (i : grid1.Coords) (arg2 : Memref sig .tc .vmem S1x512x4096 .f32) (harg2 : arg2.IsWhole)
    (arg3 : Memref sig .tc .vmem S4136x32 .f32) (harg3 : arg3.IsWhole) (arg4 : Memref sig .tc .vmem S512x16 .f32) (harg4 : arg4.IsWhole)
    (arg5 : Memref sig .tc .vmem S4096x32 .f32) (harg5 : arg5.IsWhole) (arg6 : Memref sig .tc .vmem S4096x32 .f32) (harg6 : arg6.IsWhole)
    (hc1 : ¬cond1 i) (hc2 : ¬cond2 i) (hc3 : ¬cond3 i) (hc4 : cond4 i)
    (x : Vec F S1x512x4096 .f32) (pk : Vec F S4136x32 .f32) (sel hb : Vec F S4096x32 .f32) (K : PUnit → sProp 𝕄) :
    iprop(owns (c : Thread nD τ) arg2 fullShare x ∗ owns (c : Thread nD τ) arg3 fullShare pk ∗ (∃ d, owns (c : Thread nD τ) arg4 fullShare d)
        ∗ owns (c : Thread nD τ) arg5 fullShare sel ∗ owns (c : Thread nD τ) arg6 fullShare hb
        ∗ (iprop(owns (c : Thread nD τ) arg2 fullShare x ∗ owns (c : Thread nD τ) arg3 fullShare pk ∗ owns (c : Thread nD τ) arg4 fullShare (outTile x pk sel)
            ∗ owns (c : Thread nD τ) arg5 fullShare sel ∗ owns (c : Thread nD τ) arg6 fullShare hb) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f2, %hf2, H2⟩, ⟨%f3, %hf3, H3⟩, ⟨%d4, %f4, -, H4⟩, ⟨%f5, %hf5, H5⟩, ⟨%f6, %hf6, H6⟩, Hk⟩
  subst hf2 hf3 hf5 hf6
  sl_exec (disch := first | exact hc1 | exact hc2 | exact hc3 | exact hc4)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_out _)
  isplitl [H5]
  · iexists f5; isplitr; · ipureintro; rfl
    iexact H5
  iexists f6; isplitr; · ipureintro; rfl
  iexact H6

set_option maxHeartbeats 1000000 in
/-- Case B: the point's 512 rows of the hidden layer are stored over what the scratch held. -/
theorem runB (c : Dev nD) (E : Set ℕ) (i : grid1.Coords) (arg2 : Memref sig .tc .vmem S1x512x4096 .f32) (harg2 : arg2.IsWhole)
    (arg3 : Memref sig .tc .vmem S4136x32 .f32) (harg3 : arg3.IsWhole) (arg4 : Memref sig .tc .vmem S512x16 .f32) (harg4 : arg4.IsWhole)
    (arg5 : Memref sig .tc .vmem S4096x32 .f32) (harg5 : arg5.IsWhole) (arg6 : Memref sig .tc .vmem S4096x32 .f32) (harg6 : arg6.IsWhole)
    (hc1 : ¬cond1 i) (hc2 : ¬cond2 i) (hc3 : cond3 i) (hc4 : ¬cond4 i)
    (x : Vec F S1x512x4096 .f32) (pk : Vec F S4136x32 .f32) (d4 : Vec F S512x16 .f32) (sel hb : Vec F S4096x32 .f32) (K : PUnit → sProp 𝕄) :
    iprop(owns (c : Thread nD τ) arg2 fullShare x ∗ owns (c : Thread nD τ) arg3 fullShare pk ∗ owns (c : Thread nD τ) arg4 fullShare d4
        ∗ owns (c : Thread nD τ) arg5 fullShare sel ∗ owns (c : Thread nD τ) arg6 fullShare hb
        ∗ (iprop(owns (c : Thread nD τ) arg2 fullShare x ∗ owns (c : Thread nD τ) arg3 fullShare pk ∗ owns (c : Thread nD τ) arg4 fullShare d4
            ∗ owns (c : Thread nD τ) arg5 fullShare sel ∗ owns (c : Thread nD τ) arg6 fullShare ((rHid i hc3).overlay hb (hidTile x pk sel))) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2 hf3 hf4 hf5 hf6
  sl_exec (disch := first | exact hc1 | exact hc2 | exact hc3 | exact hc4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact read_writes_one _ _ _ _

set_option maxHeartbeats 1000000 in
/-- Case A: the selector is filled from the packed array, then rows 0..511 of the hidden layer are stored. -/
theorem runA (c : Dev nD) (E : Set ℕ) (i : grid1.Coords) (arg2 : Memref sig .tc .vmem S1x512x4096 .f32) (harg2 : arg2.IsWhole)
    (arg3 : Memref sig .tc .vmem S4136x32 .f32) (harg3 : arg3.IsWhole) (arg4 : Memref sig .tc .vmem S512x16 .f32) (harg4 : arg4.IsWhole)
    (arg5 : Memref sig .tc .vmem S4096x32 .f32) (harg5 : arg5.IsWhole) (arg6 : Memref sig .tc .vmem S4096x32 .f32) (harg6 : arg6.IsWhole)
    (hc1 : cond1 i) (hc2 : ¬cond2 i) (hc3 : cond3 i) (hc4 : ¬cond4 i)
    (x : Vec F S1x512x4096 .f32) (pk : Vec F S4136x32 .f32) (d4 : Vec F S512x16 .f32) (hb : Vec F S4096x32 .f32) (K : PUnit → sProp 𝕄) :
    iprop(owns (c : Thread nD τ) arg2 fullShare x ∗ owns (c : Thread nD τ) arg3 fullShare pk ∗ owns (c : Thread nD τ) arg4 fullShare d4
        ∗ (∃ d, owns (c : Thread nD τ) arg5 fullShare d) ∗ owns (c : Thread nD τ) arg6 fullShare hb
        ∗ (iprop(owns (c : Thread nD τ) arg2 fullShare x ∗ owns (c : Thread nD τ) arg3 fullShare pk ∗ owns (c : Thread nD τ) arg4 fullShare d4
            ∗ owns (c : Thread nD τ) arg5 fullShare (selA pk) ∗ owns (c : Thread nD τ) arg6 fullShare ((rHid i hc3).overlay hb (hidTile x pk (selA pk)))) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2 hf3 hf4 hf6
  sl_exec (disch := first | exact hc1 | exact hc2 | exact hc3 | exact hc4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_sel _)
  iexists _; isplitr
  swap; · iexact H6
  ipureintro
  rw [read_writes_one]
  unfold hidTile selA
  sl_unfold_run_names
  rw [View.readCov_eq_canon_ld _ _ _ (cover_sel _)]
  rfl

set_option maxHeartbeats 1000000 in
/-- Case C: the selector is overwritten with the hidden layer times the padded second weights, then the output
    tile is stored. -/
theorem runC (c : Dev nD) (E : Set ℕ) (i : grid1.Coords) (arg2 : Memref sig .tc .vmem S1x512x4096 .f32) (harg2 : arg2.IsWhole)
    (arg3 : Memref sig .tc .vmem S4136x32 .f32) (harg3 : arg3.IsWhole) (arg4 : Memref sig .tc .vmem S512x16 .f32) (harg4 : arg4.IsWhole)
    (arg5 : Memref sig .tc .vmem S4096x32 .f32) (harg5 : arg5.IsWhole) (arg6 : Memref sig .tc .vmem S4096x32 .f32) (harg6 : arg6.IsWhole)
    (hc1 : ¬cond1 i) (hc2 : cond2 i) (hc3 : ¬cond3 i) (hc4 : cond4 i)
    (x : Vec F S1x512x4096 .f32) (pk : Vec F S4136x32 .f32) (sel hb : Vec F S4096x32 .f32) (K : PUnit → sProp 𝕄) :
    iprop(owns (c : Thread nD τ) arg2 fullShare x ∗ owns (c : Thread nD τ) arg3 fullShare pk ∗ (∃ d, owns (c : Thread nD τ) arg4 fullShare d)
        ∗ owns (c : Thread nD τ) arg5 fullShare sel ∗ owns (c : Thread nD τ) arg6 fullShare hb
        ∗ (iprop(owns (c : Thread nD τ) arg2 fullShare x ∗ owns (c : Thread nD τ) arg3 fullShare pk ∗ owns (c : Thread nD τ) arg4 fullShare (outTile x pk (selC pk hb))
            ∗ owns (c : Thread nD τ) arg5 fullShare (selC pk hb) ∗ owns (c : Thread nD τ) arg6 fullShare hb) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f2, %hf2, H2⟩, ⟨%f3, %hf3, H3⟩, ⟨%d4, %f4, -, H4⟩, ⟨%f5, %hf5, H5⟩, ⟨%f6, %hf6, H6⟩, Hk⟩
  subst hf2 hf3 hf5 hf6
  sl_exec (disch := first | exact hc1 | exact hc2 | exact hc3 | exact hc4)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_out _)]
    unfold outTile selC
    sl_unfold_run_names
    rw [View.readCov_eq_canon_ld _ _ _ (cover_sel _)]
    rfl
  isplitl [H5]
  · iexists _; isplitr
    swap; · iexact H5
    ipureintro
    exact View.read_writes_eq_canon _ _ _ (cover_sel _)
  iexists f6; isplitr; · ipureintro; rfl
  iexact H6

end Cert.Kernel.Hand

end
-- ==== Proof.BitsReg1.lean ====
/-
  The second kernel as a pipeline: what its three windows' staging buffers and its two scratch arrays hold at every
  one of the sixteen grid points, and the body's obligation at each point.

  The selector scratch holds, after point 0 and through point 8, the first layer's support s₁ (the packed array's
  first 4096 rows); from point 9 on the second layer's padded support s₂ = hidden · W₂.  The hidden-layer scratch is
  filled 512 rows per point during the eight points of phase 0: before point n its rows below 512·n are the rows the
  earlier points computed, the rest is whatever the scratch held when the region was entered — so the invariant
  names its contents only on the rows already stored, and once all eight tiles are in, the scratch is one function
  of the arrays (the eight tiles laid side by side).
-/
import proofs.«182081_g1666447311259_cont_sun_c4_429_14_alg».proof.Proof.Gen.Kernel.Launch
import proofs.«182081_g1666447311259_cont_sun_c4_429_14_alg».proof.Proof.Gen.Kernel.Skeleton
import proofs.«182081_g1666447311259_cont_sun_c4_429_14_alg».proof.Proof.Gen.Kernel.Points
import proofs.«182081_g1666447311259_cont_sun_c4_429_14_alg».proof.Proof.BitsReg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.WritesUnit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile of point `t`: 512 rows of one of the two matrices. -/
abbrev adjAt (c : Dev nD) (t : Fin cfg1.N) : Vec F S1x512x4096 .f32 := iblk1 V c 0 t
/-- The packed array as point `t` sees it (the whole array at every point). -/
abbrev pkAt (c : Dev nD) (t : Fin cfg1.N) : Vec F S4136x32 .f32 := iblk1 V c 1 t

/-! ## Where the output window is idle, and the stored rows' offset -/

theorem live1_0 : ∀ i, cfg1.idle 0 i = false := fun _ => rfl
theorem live1_1 : ∀ i, cfg1.idle 1 i = false := fun _ => rfl
/-- During phase 0 the body stores nothing into the output window, and the pipeline does not write it back. -/
theorem idle1_2 : ∀ t : Fin cfg1.N, t.val < 8 → cfg1.idle 2 (grid1.coords t) = true :=
  (by decide +kernel : ∀ t : Fin grid1.N, t.val < 8 → cfg1.idle 2 (grid1.coords t) = true)
theorem noFlush1_2 : ∀ t : Fin cfg1.N, t.val < 8 → (cfg1.win 2).flush t = false :=
  (by decide +kernel : ∀ t : Fin grid1.N, t.val < 8 → win1_2.flush t = false)
/-- During phase 1 it is live. -/
theorem live1_2 : ∀ t : Fin cfg1.N, 8 ≤ t.val → cfg1.idle 2 (grid1.coords t) = false :=
  (by decide +kernel : ∀ t : Fin grid1.N, 8 ≤ t.val → cfg1.idle 2 (grid1.coords t) = false)
/-- A phase-0 point stores the hidden layer's rows from 512 · (its number) on. -/
theorem off_eq : ∀ t : Fin cfg1.N, t.val < 8 → k1_off1 (grid1.coords t) = ![512 * t.val, 0] :=
  (by decide +kernel : ∀ t : Fin grid1.N, t.val < 8 → k1_off1 (grid1.coords t) = ![512 * t.val, 0])

/-! ## The scratch arrays' contents -/

/-- The first and the ninth point. -/
abbrev tFirst : Fin cfg1.N := t1_0
abbrev tMid : Fin cfg1.N := t1_8

/-- The selector during phase 0: the first layer's support. -/
def s1 (c : Dev nD) : Vec F S4096x32 .f32 := selA (pkAt V c tFirst)

/-- The 512 rows of the hidden layer point `t` computes. -/
def hidAt (c : Dev nD) (t : Fin cfg1.N) : FVec F S512x32 .f32 := hidTile (adjAt V c t) (pkAt V c t) (s1 V c)

/-- The hidden-layer scratch holds the rows the points below `n` computed. -/
def HidOk (c : Dev nD) (n : Nat) (g : Vec F S4096x32 .f32) : Prop :=
  ∀ (t' : Fin cfg1.N) (h : cond3 (grid1.coords t')), t'.val < n → ∀ x, g ((rHid (grid1.coords t') h).emb x) = hidAt V c t' x

theorem hidOk_zero (c : Dev nD) (g : Vec F S4096x32 .f32) : HidOk V c 0 g := fun _ _ h => absurd h (Nat.not_lt_zero _)

/-- The rows two different phase-0 points store are disjoint. -/
theorem rHid_disjoint (t t' : Fin cfg1.N) (h : cond3 (grid1.coords t)) (h' : cond3 (grid1.coords t')) (hne : t'.val ≠ t.val)
    (x : (rHid (grid1.coords t') h').shape.Idx) : (rHid (grid1.coords t') h').emb x ∉ (rHid (grid1.coords t) h).set := by
  have ht := (hcond3 t).mp h
  have ht' := (hcond3 t').mp h'
  intro hm
  rw [Rect.mem_set_unit] at hm
  have h0 := hm (0 : Fin 2)
  have e : (k1_off1 (grid1.coords t)) (0 : Fin 2) = 512 * t.val := by rw [off_eq t ht]; rfl
  have e' : (((rHid (grid1.coords t') h').emb x) (0 : Fin 2)).val = 512 * t'.val + (x (0 : Fin 2)).val := by
    show (k1_off1 (grid1.coords t')) (0 : Fin 2) + 1 * (x (0 : Fin 2)).val = _
    rw [off_eq t' ht']; show 512 * t'.val + 1 * (x (0 : Fin 2)).val = _; omega
  have hx : (x (0 : Fin 2)).val < 512 := (x (0 : Fin 2)).isLt
  rw [e, e'] at h0
  have : S512x32.size (0 : Fin 2) = 512 := rfl
  omega

/-- One more point's rows stored: the invariant moves on. -/
theorem hidOk_step (c : Dev nD) (t : Fin cfg1.N) (h : cond3 (grid1.coords t)) (g : Vec F S4096x32 .f32) (hg : HidOk V c t.val g) :
    HidOk V c (t.val + 1) ((rHid (grid1.coords t) h).overlay g (hidAt V c t)) := by
  intro t' h' hlt x
  by_cases e : t'.val = t.val
  · obtain rfl : t' = t := Fin.ext e
    exact (rHid (grid1.coords t') h).overlay_emb _ _ x
  · rw [(rHid (grid1.coords t) h).overlay_of_not_mem _ _ (rHid_disjoint t t' h h' e x)]
    exact hg t' h' (by omega) x

/-! ## The whole hidden layer -/

/-- The tile that holds row `r` of the hidden layer. -/
def tileOf (y : S4096x32.Idx) : Fin cfg1.N := ⟨(y (0 : Fin 2)).val / 512, by
  have h : (y (0 : Fin 2)).val < 4096 := (y (0 : Fin 2)).isLt
  have hN : cfg1.N = 16 := N_1
  rw [hN]; omega⟩

theorem tileOf_lt (y : S4096x32.Idx) : (tileOf y).val < 8 := by
  have h : (y (0 : Fin 2)).val < 4096 := (y (0 : Fin 2)).isLt
  show (y (0 : Fin 2)).val / 512 < 8
  omega

theorem tileOf_bounds (y : S4096x32.Idx) :
    ∀ a : Fin 2, (![512 * (tileOf y).val, 0] : Fin 2 → ℕ) a ≤ (y a).val ∧ (y a).val < (![512 * (tileOf y).val, 0] : Fin 2 → ℕ) a + S512x32.size a := by
  have h0 : (y (0 : Fin 2)).val < 4096 := (y (0 : Fin 2)).isLt
  have h1 : (y (1 : Fin 2)).val < 32 := (y (1 : Fin 2)).isLt
  refine Fin.forall_fin_two.mpr ⟨?_, ?_⟩
  · show 512 * ((y (0 : Fin 2)).val / 512) ≤ (y (0 : Fin 2)).val ∧ (y (0 : Fin 2)).val < 512 * ((y (0 : Fin 2)).val / 512) + 512
    omega
  · show 0 ≤ (y (1 : Fin 2)).val ∧ (y (1 : Fin 2)).val < 0 + 32
    omega

/-- The hidden layer as one function of the arrays: row `r` is row `r mod 512` of the tile point `r / 512` computes. -/
def hidFull (c : Dev nD) : Vec F S4096x32 .f32 := fun y =>
  hidAt V c (tileOf y) (Rect.unitLocal (s := S4096x32) (off := ![512 * (tileOf y).val, 0]) (size := S512x32.size) y (tileOf_bounds y))

/-- Once all eight tiles are stored the scratch is that function. -/
theorem hid_full (c : Dev nD) (g : Vec F S4096x32 .f32) (hg : HidOk V c 8 g) : g = hidFull V c := by
  funext y
  have ht := tileOf_lt y
  have h3 : cond3 (grid1.coords (tileOf y)) := (hcond3 (tileOf y)).mpr ht
  have hemb : (rHid (grid1.coords (tileOf y)) h3).emb
      (Rect.unitLocal (s := S4096x32) (off := ![512 * (tileOf y).val, 0]) (size := S512x32.size) y (tileOf_bounds y)) = y :=
    funext fun a => Fin.ext (by
      show (k1_off1 (grid1.coords (tileOf y))) a + 1 * ((y a).val - (![512 * (tileOf y).val, 0] : Fin 2 → ℕ) a) = (y a).val
      rw [off_eq (tileOf y) ht]
      have := (tileOf_bounds y a).1
      omega)
  calc g y = g ((rHid (grid1.coords (tileOf y)) h3).emb _) := by rw [hemb]
    _ = hidAt V c (tileOf y) _ := hg (tileOf y) h3 ht _

/-- The selector during phase 1: the hidden layer times the padded second weights. -/
def s2 (c : Dev nD) : Vec F S4096x32 .f32 := selC (pkAt V c tMid) (hidFull V c)

/-- The output tile point `t` of phase 1 computes. -/
def outAt (c : Dev nD) (t : Fin cfg1.N) : Vec F S512x16 .f32 := outTile (adjAt V c t) (pkAt V c t) (s2 V c)

/-! ## The invariant between points -/

abbrev scM0 : Memref sig .tc .vmem S4096x32 .f32 := Memref.whole cc1_scratch0
abbrev scM1 : Memref sig .tc .vmem S4096x32 .f32 := Memref.whole cc1_scratch1

/-- The first kernel's staging buffers, which this kernel does not touch, and the generator register. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ r, prngReg c r))

/-- The selector before point `n`: anything at the start, the first support through point 8, the second after. -/
def selInv (c : Dev nD) (n : ℕ) : sProp 𝕄 :=
  if n = 0 then iprop(∃ d, owns (c : Thread nD τ) scM0 fullShare d)
  else if n ≤ 8 then owns (c : Thread nD τ) scM0 fullShare (s1 V c)
  else owns (c : Thread nD τ) scM0 fullShare (s2 V c)

/-- The hidden-layer scratch before point `n`: the tiles of the points below `n` are in. -/
def hidInv (c : Dev nD) (n : ℕ) : sProp 𝕄 :=
  iprop(∃ g, ⌜HidOk V c n g⌝ ∗ owns (c : Thread nD τ) scM1 fullShare g)

def Phi1 (c : Dev nD) (n : ℕ) : sProp 𝕄 := iprop(rest1 c ∗ selInv V c n ∗ hidInv V c n)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt V c t
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt V c t := by dsimp only [dat1]
theorem Phi_eq1 (c : Dev nD) (t : Fin (cfg1.N + 1)) : (dat1 V c).Φ t = Phi1 V c t.val := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end Cert.Kernel.Hand

end
-- ==== Proof.BitsReg1Body.lean ====
/-
  The second kernel's body obligation: at each of the sixteen points, from the invariant and the windows' staging
  buffers at what they then hold, the body runs to the invariant of the next point and the buffers at what the proof
  data say — by the control case the point is in.
-/
import proofs.«182081_g1666447311259_cont_sun_c4_429_14_alg».proof.Proof.Gen.Kernel.Launch
import proofs.«182081_g1666447311259_cont_sun_c4_429_14_alg».proof.Proof.Gen.Kernel.Skeleton
import proofs.«182081_g1666447311259_cont_sun_c4_429_14_alg».proof.Proof.Gen.Kernel.Points
import proofs.«182081_g1666447311259_cont_sun_c4_429_14_alg».proof.Proof.BitsReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.WritesUnit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- After phase 0 nothing more is required of the hidden-layer scratch than what eight tiles give. -/
theorem hidOk_of_eight (c : Dev nD) (g : Vec F S4096x32 .f32) (hg : HidOk V c 8 g) (n : ℕ) : HidOk V c n g :=
  fun t' h _ x => hg t' h ((hcond3 t').mp h) x

theorem selInv_zero (c : Dev nD) : selInv V c 0 = iprop(∃ d, owns (c : Thread nD τ) scM0 fullShare d) := by
  unfold selInv; rw [if_pos rfl]
theorem selInv_low (c : Dev nD) (n : ℕ) (h0 : n ≠ 0) (h8 : n ≤ 8) : selInv V c n = owns (c : Thread nD τ) scM0 fullShare (s1 V c) := by
  unfold selInv; rw [if_neg h0, if_pos h8]
theorem selInv_high (c : Dev nD) (n : ℕ) (h8 : 8 < n) : selInv V c n = owns (c : Thread nD τ) scM0 fullShare (s2 V c) := by
  unfold selInv; rw [if_neg (by omega), if_neg (by omega)]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi_eq1, Phi_eq1]
  simp only [Fin.coe_castSucc, Fin.val_succ]
  rw [show (dat1 V c).leavesExact 0 t = owns (c : Thread nD τ) (st1_0 t) fullShare ((dat1 V c).after 0 t) from by
    unfold Dat.leavesExact; rw [live1_0], after1_0]
  rw [show (dat1 V c).leavesExact 1 t = owns (c : Thread nD τ) (st1_1 t) fullShare ((dat1 V c).after 1 t) from by
    unfold Dat.leavesExact; rw [live1_1], after1_1]
  have hN : t.val < 16 := lt_of_lt_of_eq t.isLt (show cfg1.N = 16 from N_1)
  unfold Phi1 hidInv
  by_cases h8 : t.val < 8
  · have hc3 : cond3 (grid1.coords t) := (hcond3 t).mpr h8
    have hc4 : ¬cond4 (grid1.coords t) := fun h => by have := (hcond4 t).mp h; omega
    have hc2 : ¬cond2 (grid1.coords t) := fun h => by have := (hcond2 t).mp h; omega
    rw [Dat.leavesExact_idle (dat1 V c) 2 t (idle1_2 t h8) (noFlush1_2 t h8)]
    by_cases h0 : t.val = 0
    · have hc1 : cond1 (grid1.coords t) := (hcond1 t).mpr h0
      obtain rfl : t = tFirst := Fin.ext h0
      rw [show (tFirst : Fin cfg1.N).val = 0 from rfl, selInv_zero, selInv_low V c (0 + 1) (by omega) (by omega)]
      iintro ⟨⟨Hrest, ⟨%d5, HS⟩, ⟨%g, %hg, HH⟩⟩, Ho, ⟨%d0, H0⟩, ⟨%d1, H1⟩, ⟨%d2, H2⟩⟩
      iapply (runA c Set.univ (grid1.coords tFirst) _ _ _ _ _ _ _ _ _ _ hc1 hc2 hc3 hc4 (iblk1 V c 0 tFirst) (iblk1 V c 1 tFirst) ((dat1 V c).before 2 tFirst d2) g _)
      isplitl [H0]; · iexact H0
      isplitl [H1]; · iexact H1
      isplitl [H2]; · iexact H2
      isplitl [HS]; · iexists _; iexact HS
      isplitl [HH]; · iexact HH
      iintro ⟨H0, H1, H2, HS, HH⟩
      isplitl [Hrest HS HH]
      · isplitl [Hrest]; · iexact Hrest
        isplitl [HS]; · iexact HS
        iexists _; isplitr
        · ipureintro; exact hidOk_step V c tFirst hc3 g hg
        iexact HH
      isplitl [Ho]; · iexact Ho
      isplitl [H0]; · iexact H0
      isplitl [H1]; · iexact H1
      iexists _; iexact H2
    · have hc1 : ¬cond1 (grid1.coords t) := fun h => h0 ((hcond1 t).mp h)
      rw [selInv_low V c t.val h0 (by omega), selInv_low V c (t.val + 1) (by omega) (by omega)]
      iintro ⟨⟨Hrest, HS, ⟨%g, %hg, HH⟩⟩, Ho, ⟨%d0, H0⟩, ⟨%d1, H1⟩, ⟨%d2, H2⟩⟩
      iapply (runB c Set.univ (grid1.coords t) _ _ _ _ _ _ _ _ _ _ hc1 hc2 hc3 hc4 (iblk1 V c 0 t) (iblk1 V c 1 t) ((dat1 V c).before 2 t d2) (s1 V c) g _)
      isplitl [H0]; · iexact H0
      isplitl [H1]; · iexact H1
      isplitl [H2]; · iexact H2
      isplitl [HS]; · iexact HS
      isplitl [HH]; · iexact HH
      iintro ⟨H0, H1, H2, HS, HH⟩
      isplitl [Hrest HS HH]
      · isplitl [Hrest]; · iexact Hrest
        isplitl [HS]; · iexact HS
        iexists _; isplitr
        · ipureintro; exact hidOk_step V c t hc3 g hg
        iexact HH
      isplitl [Ho]; · iexact Ho
      isplitl [H0]; · iexact H0
      isplitl [H1]; · iexact H1
      iexists _; iexact H2
  · have h8' : 8 ≤ t.val := by omega
    have hc3 : ¬cond3 (grid1.coords t) := fun h => h8 ((hcond3 t).mp h)
    have hc4 : cond4 (grid1.coords t) := (hcond4 t).mpr h8'
    have hc1 : ¬cond1 (grid1.coords t) := fun h => by have := (hcond1 t).mp h; omega
    rw [show (dat1 V c).leavesExact 2 t = owns (c : Thread nD τ) (st1_2 t) fullShare ((dat1 V c).after 2 t) from by
      unfold Dat.leavesExact; rw [live1_2 t h8'], after1_2]
    by_cases he : t.val = 8
    · have hc2 : cond2 (grid1.coords t) := (hcond2 t).mpr he
      obtain rfl : t = tMid := Fin.ext he
      rw [show (tMid : Fin cfg1.N).val = 8 from rfl, selInv_low V c 8 (by omega) (by omega), selInv_high V c (8 + 1) (by omega)]
      iintro ⟨⟨Hrest, HS, ⟨%g, %hg, HH⟩⟩, Ho, ⟨%d0, H0⟩, ⟨%d1, H1⟩, ⟨%d2, H2⟩⟩
      obtain rfl := hid_full V c g hg
      iapply (runC c Set.univ (grid1.coords tMid) _ _ _ _ _ _ _ _ _ _ hc1 hc2 hc3 hc4 (iblk1 V c 0 tMid) (iblk1 V c 1 tMid) (s1 V c) (hidFull V c) _)
      isplitl [H0]; · iexact H0
      isplitl [H1]; · iexact H1
      isplitl [H2]; · iexists _; iexact H2
      isplitl [HS]; · iexact HS
      isplitl [HH]; · iexact HH
      iintro ⟨H0, H1, H2, HS, HH⟩
      isplitl [Hrest HS HH]
      · isplitl [Hrest]; · iexact Hrest
        isplitl [HS]; · iexact HS
        iexists _; isplitr
        · ipureintro; exact hidOk_of_eight V c _ hg _
        iexact HH
      isplitl [Ho]; · iexact Ho
      isplitl [H0]; · iexact H0
      isplitl [H1]; · iexact H1
      iexact H2
    · have hc2 : ¬cond2 (grid1.coords t) := fun h => he ((hcond2 t).mp h)
      rw [selInv_high V c t.val (by omega), selInv_high V c (t.val + 1) (by omega)]
      iintro ⟨⟨Hrest, HS, ⟨%g, %hg, HH⟩⟩, Ho, ⟨%d0, H0⟩, ⟨%d1, H1⟩, ⟨%d2, H2⟩⟩
      iapply (runD c Set.univ (grid1.coords t) _ _ _ _ _ _ _ _ _ _ hc1 hc2 hc3 hc4 (iblk1 V c 0 t) (iblk1 V c 1 t) (s2 V c) g _)
      isplitl [H0]; · iexact H0
      isplitl [H1]; · iexact H1
      isplitl [H2]; · iexists _; iexact H2
      isplitl [HS]; · iexact HS
      isplitl [HH]; · iexact HH
      iintro ⟨H0, H1, H2, HS, HH⟩
      isplitl [Hrest HS HH]
      · isplitl [Hrest]; · iexact Hrest
        isplitl [HS]; · iexact HS
        iexists _; isplitr
        · ipureintro; exact hidOk_of_eight V c g (hidOk_of_eight V c g (fun t' h _ x => hg t' h (by have := (hcond3 t').mp h; omega) x) 8) _
        iexact HH
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsKernelRun.lean ====
/-
  The run of the kernel program's @main: two reshapes on the host (the two bias vectors stood up as rows), the packing
  kernel, the graph-convolution kernel.  The buffers' contents at each boundary are a fold from the launch memory:
  after the reshapes; after the first kernel, whose output array is what its one write-back leaves; after the second,
  whose output array is what its eight write-backs leave.  Every weakly fair execution terminates with every
  unscoped buffer at the last of these, so the arguments end as launched and the result array is the second
  kernel's output.
-/
import proofs.«182081_g1666447311259_cont_sun_c4_429_14_alg».proof.Proof.Gen.Kernel.Launch
import proofs.«182081_g1666447311259_cont_sun_c4_429_14_alg».proof.Proof.Gen.Kernel.Skeleton
import proofs.«182081_g1666447311259_cont_sun_c4_429_14_alg».proof.Proof.Gen.Kernel.Points
import proofs.«182081_g1666447311259_cont_sun_c4_429_14_alg».proof.Proof.BitsReg0
import proofs.«182081_g1666447311259_cont_sun_c4_429_14_alg».proof.Proof.BitsReg1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.WritesUnit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the two reshapes (the first kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel (the second's entry): its arrays at what the pipeline leaves. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second kernel. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 3).trans (((dat0 (V1 m) c).arrAt_in 3 rfl _).trans (A_eq0 (V1 m) c 3))
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The result array is what the second kernel's write-backs leave. -/
theorem W3_main_v0 (c : Dev nD) : W3 m c (Proc.devRef .tc main_v0) = (dat1 (V2 m) c).arrAt 2 cfg1.N := W3_arr m c 2

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (V2 m) c 0 from rfl]
    unfold Phi1 rest1 hidInv
    rw [selInv_zero, show (Pipeline.scopedRest (Pipeline.pin (pcfgs (F := F)) adm 1).spec c : sProp 𝕄) = _ from scopedRest1_eq c]
    iintro ⟨Hp, -, ⟨A0, A1, A2, A3, A4, A5, ⟨%f0, S0⟩, ⟨%f1, S1⟩⟩⟩
    isplitl [A0 A1 A2 A3 A4 A5 Hp]
    · isplitl [A0]; · iexact A0
      isplitl [A1]; · iexact A1
      isplitl [A2]; · iexact A2
      isplitl [A3]; · iexact A3
      isplitl [A4]; · iexact A4
      isplitl [A5]; · iexact A5
      iexact Hp
    isplitl [S0]
    · iexists f0; rw [owns_whole]; iexact S0
    iexists f1; isplitr; · ipureintro; exact hidOk_zero (V2 m) c f1
    rw [owns_whole]; iexact S1
  hout c := by
    rw [Pipeline.ownSems0_none, show (pdats m 1 c).Φ (Fin.last _) = Phi1 (V2 m) c 16 from rfl]
    unfold Phi1 rest1 hidInv
    rw [selInv_high (V2 m) c 16 (by omega), show (Pipeline.scopedRest (Pipeline.pin (pcfgs (F := F)) adm 1).spec c : sProp 𝕄) = _ from scopedRest1_eq c]
    simp only [owns_whole]
    iintro ⟨⟨A0, A1, A2, A3, A4, A5, Hp⟩, S0, ⟨%g, -, S1⟩⟩
    isplitl [Hp]; · iexact Hp
    isplitr; · iempintro
    isplitl [A0]; · iexact A0
    isplitl [A1]; · iexact A1
    isplitl [A2]; · iexact A2
    isplitl [A3]; · iexact A3
    isplitl [A4]; · iexact A4
    isplitl [A5]; · iexact A5
    isplitl [S0]; · iexists _; iexact S0
    iexists _; iexact S1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution of @main terminates, nothing faulting, with every unscoped buffer at the last
    boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_main m ρ)

end Cert.Kernel.Hand

end
-- ==== Proof.Reg0.lean ====
/- The first pallas_call of @main (the gridless packing kernel), at a parameter `V` — the TensorCore's buffer
   contents when the region is entered —, generic in the float instance: each window's block at the one grid point,
   what the body leaves in the output window's staging buffer as a closed function of the five input blocks (its five
   stores laid over one another), the body's triple, the pipeline's proof data and the body obligation. -/
import proofs.«182081_g1666447311259_cont_sun_c4_429_14_alg».proof.Proof.Gen.KernelIdeal.Launch
import proofs.«182081_g1666447311259_cont_sun_c4_429_14_alg».proof.Proof.Gen.KernelIdeal.Skeleton
import proofs.«182081_g1666447311259_cont_sun_c4_429_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): the window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): the window is uncut and
    never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): the window is uncut and
    never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): the window is uncut and
    never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): the window is uncut and
    never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4096x128 := Rect.unit (s := S4096x128) ![0, 0] S4096x128.size inb_S4096x128_S4096x128_0_0
abbrev r0_1 : Rect S128x32 := Rect.unit (s := S128x32) ![0, 0] S128x32.size inb_S128x32_S128x32_0_0
abbrev r0_2 : Rect S4136x32 := Rect.unit (s := S4136x32) ![0, 0] S4096x32.size inb_S4136x32_S4096x32_0_0
abbrev r0_3 : Rect S1x32 := Rect.unit (s := S1x32) ![0, 0] S1x32.size inb_S1x32_S1x32_0_0
abbrev r0_4 : Rect S4136x32 := Rect.unit (s := S4136x32) ![4096, 0] S1x32.size inb_S4136x32_S1x32_4096_0
abbrev r0_5 : Rect S1x16 := Rect.unit (s := S1x16) ![0, 0] S1x16.size inb_S1x16_S1x16_0_0
abbrev r0_6 : Rect S4136x32 := Rect.unit (s := S4136x32) ![4097, 0] S1x32.size inb_S4136x32_S1x32_4097_0
abbrev r0_7 : Rect S32x16 := Rect.unit (s := S32x16) ![0, 0] S32x16.size inb_S32x16_S32x16_0_0
abbrev r0_8 : Rect S4136x32 := Rect.unit (s := S4136x32) ![4104, 0] S32x32.size inb_S4136x32_S32x32_4104_0
abbrev r0_9 : Rect S4136x32 := Rect.unit (s := S4136x32) ![4098, 0] S6x32.size inb_S4136x32_S6x32_4098_0

/-! ## What the body leaves in the output window's buffer -/

/-- Window 5's staging buffer after the body, from the input windows' blocks: its 5 stores as pieces, last
    first. Rows 4098..4103 hold zero, rows 4104..4135 the second weight beside zeros, row 4097 the second bias
    beside zeros, row 4096 the first bias, rows 0..4095 the product of the features and the first weight. -/
def out0_5 (x0 : Vec F S4096x128 .f32) (x1 : Vec F S128x32 .f32) (x2 : Vec F S1x32 .f32) (x3 : Vec F S32x16 .f32) (x4 : Vec F S1x16 .f32) : Vec F S4136x32 .f32 :=
  View.canon [⟨r0_9, k0_pay5⟩,
    ⟨r0_8, k0_pay4 (View.ld x3 r0_7)⟩,
    ⟨r0_6, k0_pay3 (View.ld x4 r0_5)⟩,
    ⟨r0_4, k0_pay2 (View.ld x2 r0_3)⟩,
    ⟨r0_2, k0_pay1 (View.ld x0 r0_0) (View.ld x1 r0_1)⟩]

/-- Its stores are of several sizes; cut into single rows of 32 they tile the buffer (checked by evaluation),
    so they cover it. -/
theorem cover0_5 (p0 : Vec F S6x32 .f32) (p1 : Vec F S32x32 .f32) (p2 : Vec F S1x32 .f32) (p3 : Vec F S1x32 .f32) (p4 : Vec F S4096x32 .f32) (y : S4136x32.Idx) :
    ∃ pc ∈ ([⟨r0_9, p0⟩, ⟨r0_8, p1⟩, ⟨r0_6, p2⟩, ⟨r0_4, p3⟩, ⟨r0_2, p4⟩] : List (View.Piece (Elt F) S4136x32 .f32)), y ∈ pc.1.set :=
  View.cover_of_tiledBy [⟨r0_9, p0⟩, ⟨r0_8, p1⟩, ⟨r0_6, p2⟩, ⟨r0_4, p3⟩, ⟨r0_2, p4⟩] ![1, 32] (by sl_kernel_rfl) y

/-! ## The body's triple -/

set_option maxHeartbeats 1000000 in
/-- The kernel body on whole staging memrefs, the inputs' at read contents `xW` and the output's at anything, runs to
    the continuation holding the inputs' as they were and the output's at `out0_5` of the inputs'. Each store is
    preceded by a load of the same rectangle of the output buffer whose value nothing reads. -/
theorem sound_kernel0 (c : Dev nD) (E : Set ℕ) (arg0 : Memref sig .tc .vmem S4096x128 .f32) (harg0 : arg0.IsWhole) (arg1 : Memref sig .tc .vmem S128x32 .f32) (harg1 : arg1.IsWhole) (arg2 : Memref sig .tc .vmem S1x32 .f32) (harg2 : arg2.IsWhole) (arg3 : Memref sig .tc .vmem S32x16 .f32) (harg3 : arg3.IsWhole) (arg4 : Memref sig .tc .vmem S1x16 .f32) (harg4 : arg4.IsWhole) (arg5 : Memref sig .tc .vmem S4136x32 .f32) (harg5 : arg5.IsWhole)
    (x0 : Vec F S4096x128 .f32) (x1 : Vec F S128x32 .f32) (x2 : Vec F S1x32 .f32) (x3 : Vec F S32x16 .f32) (x4 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__pack_kernel arg0 harg0 arg1 harg1 arg2 harg2 arg3 harg3 arg4 harg4 arg5 harg5) K := by
  simp only [cc0__pack_kernel_eq_skeleton]; unfold cc0__pack_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _ _ _ _ _)

/-! ## The pipeline's proof data -/

/-- The proof data of this pipeline on core `c`: the arrays as the region finds them (`V`); after the body at
    point `t` each input's buffer at its block and the output's at `out0_5` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1Runs.lean ====
/-
  The second kernel's body, run once per control case.  The grid is (phase, tile) = (2, 8).  The body keeps two
  scratch arrays between grid points: a "selector" [4096, 32] that every point multiplies its tile of adjacency
  rows with, and the hidden layer [4096, 32], filled 512 rows per point during phase 0.  Four cases:
    A  (phase 0, tile 0): the selector is filled from the packed array's first 4096 rows; then rows 0..511 of the
       hidden layer are stored;
    B  (phase 0, tile > 0): rows 512·tile .. 512·tile+511 of the hidden layer are stored;
    C  (phase 1, tile 0): the selector is overwritten with the hidden layer times the padded second weights; then
       the output tile is stored;
    D  (phase 1, tile > 0): the output tile is stored.
  Each run states what every buffer holds afterwards as a function of what it held before.
-/
import proofs.«182081_g1666447311259_cont_sun_c4_429_14_alg».proof.Proof.Gen.KernelIdeal.Launch
import proofs.«182081_g1666447311259_cont_sun_c4_429_14_alg».proof.Proof.Gen.KernelIdeal.Skeleton
import proofs.«182081_g1666447311259_cont_sun_c4_429_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, as the body computes them from the grid point -/

abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
abbrev cond2 (i : grid1.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
abbrev cond3 (i : grid1.Coords) : Prop := k1_cond3 i = 1#1
abbrev cond4 (i : grid1.Coords) : Prop := k1_cond4 i = 1#1

/-- Filling the selector from the packed array happens at the first point only; -/
theorem hcond1 : ∀ t : Fin cfg1.N, cond1 (grid1.coords t) ↔ t.val = 0 :=
  (by decide +kernel : ∀ t : Fin grid1.N, cond1 (grid1.coords t) ↔ t.val = 0)
/-- overwriting it with the second layer's support at the first point of phase 1 only; -/
theorem hcond2 : ∀ t : Fin cfg1.N, cond2 (grid1.coords t) ↔ t.val = 8 :=
  (by decide +kernel : ∀ t : Fin grid1.N, cond2 (grid1.coords t) ↔ t.val = 8)
/-- the hidden layer is stored during phase 0; -/
theorem hcond3 : ∀ t : Fin cfg1.N, cond3 (grid1.coords t) ↔ t.val < 8 :=
  (by decide +kernel : ∀ t : Fin grid1.N, cond3 (grid1.coords t) ↔ t.val < 8)
/-- the output during phase 1. -/
theorem hcond4 : ∀ t : Fin cfg1.N, cond4 (grid1.coords t) ↔ 8 ≤ t.val :=
  (by decide +kernel : ∀ t : Fin grid1.N, cond4 (grid1.coords t) ↔ 8 ≤ t.val)

/-! ## The rectangles the body reads and writes through -/

abbrev rAdj : Rect S1x512x4096 := Rect.unit (s := S1x512x4096) ![0, 0, 0] S1x512x4096.size inb_S1x512x4096_S1x512x4096_0_0_0
abbrev rSel : Rect S4096x32 := Rect.unit (s := S4096x32) ![0, 0] S4096x32.size inb_S4096x32_S4096x32_0_0
abbrev rPkS1 : Rect S4136x32 := Rect.unit (s := S4136x32) ![0, 0] S4096x32.size inb_S4136x32_S4096x32_0_0
abbrev rPkB1 : Rect S4136x32 := Rect.unit (s := S4136x32) ![4096, 0] S1x32.size inb_S4136x32_S1x32_4096_0
abbrev rPkB2 : Rect S4136x32 := Rect.unit (s := S4136x32) ![4097, 0] S1x16.size inb_S4136x32_S1x16_4097_0
abbrev rPkW2 : Rect S4136x32 := Rect.unit (s := S4136x32) ![4104, 0] S32x32.size inb_S4136x32_S32x32_4104_0
abbrev rOut : Rect S512x16 := Rect.unit (s := S512x16) ![0, 0] S512x16.size inb_S512x16_S512x16_0_0
/-- The 512 rows of the hidden layer the point stores. -/
abbrev rHid (i : grid1.Coords) (h : cond3 i) : Rect S4096x32 := Rect.unit (s := S4096x32) (k1_off1 i) S512x32.size (k1_off1_inb i h)

/-! ## One store over given contents -/

/-- Contents read after one store through a rectangle: the payload under the rectangle, what was there elsewhere. -/
theorem read_writes_one {sg : RefSig} {κ : Kind} {sp : Space} {s : Shape} {e : EltTy} {Val : EltTy → Type}
    (v : View sg κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, r.overlay_emb]
  · rw [r.overlay_of_not_mem _ _ hy]
    exact View.read_writes_apply_of_forall_not_mem v f y [⟨r, w⟩] (fun q hq => by
      rw [List.mem_singleton] at hq; subst hq; exact hy)

/-- A store through the whole shape's rectangle leaves its payload. -/
theorem cover_sel (p0 : rSel.shape.Idx → Elt F .f32) (y : S4096x32.Idx) :
    ∃ pc ∈ ([⟨rSel, p0⟩] : List (View.Piece (Elt F) S4096x32 .f32)), y ∈ pc.1.set :=
  View.cover_of_tiled [⟨rSel, p0⟩] S4096x32.size (by rfl) y
theorem cover_out (p0 : rOut.shape.Idx → Elt F .f32) (y : S512x16.Idx) :
    ∃ pc ∈ ([⟨rOut, p0⟩] : List (View.Piece (Elt F) S512x16 .f32)), y ∈ pc.1.set :=
  View.cover_of_tiled [⟨rOut, p0⟩] S512x16.size (by rfl) y

/-! ## What the cases leave -/

/-- The selector as case A fills it: the packed array's first 4096 rows. -/
def selA (pk : Vec F S4136x32 .f32) : Vec F S4096x32 .f32 := View.canon [⟨rSel, k1_pay1 (View.ld pk rPkS1)⟩]
/-- The selector as case C fills it: the hidden layer times the padded second weights. -/
def selC (pk : Vec F S4136x32 .f32) (hb : Vec F S4096x32 .f32) : Vec F S4096x32 .f32 :=
  View.canon [⟨rSel, k1_pay2 (View.ld hb rSel) (View.ld pk rPkW2)⟩]
/-- The 512 rows of the hidden layer a phase-0 point computes from its adjacency tile and the selector. -/
def hidTile (x : Vec F S1x512x4096 .f32) (pk : Vec F S4136x32 .f32) (sel : Vec F S4096x32 .f32) : FVec F S512x32 .f32 :=
  k1_pay4 (View.ld x rAdj) (View.ld sel rSel) (View.ld pk rPkB1)
/-- The output tile a phase-1 point computes. -/
def outTile (x : Vec F S1x512x4096 .f32) (pk : Vec F S4136x32 .f32) (sel : Vec F S4096x32 .f32) : Vec F S512x16 .f32 :=
  View.canon [⟨rOut, k1_pay5 (View.ld x rAdj) (View.ld sel rSel) (View.ld pk rPkB2)⟩]

set_option maxHeartbeats 1000000 in
/-- Case D: only the output tile is stored. -/
theorem runD (c : Dev nD) (E : Set ℕ) (i : grid1.Coords) (arg2 : Memref sig .tc .vmem S1x512x4096 .f32) (harg2 : arg2.IsWhole)
    (arg3 : Memref sig .tc .vmem S4136x32 .f32) (harg3 : arg3.IsWhole) (arg4 : Memref sig .tc .vmem S512x16 .f32) (harg4 : arg4.IsWhole)
    (arg5 : Memref sig .tc .vmem S4096x32 .f32) (harg5 : arg5.IsWhole) (arg6 : Memref sig .tc .vmem S4096x32 .f32) (harg6 : arg6.IsWhole)
    (hc1 : ¬cond1 i) (hc2 : ¬cond2 i) (hc3 : ¬cond3 i) (hc4 : cond4 i)
    (x : Vec F S1x512x4096 .f32) (pk : Vec F S4136x32 .f32) (sel hb : Vec F S4096x32 .f32) (K : PUnit → sProp 𝕄) :
    iprop(owns (c : Thread nD τ) arg2 fullShare x ∗ owns (c : Thread nD τ) arg3 fullShare pk ∗ (∃ d, owns (c : Thread nD τ) arg4 fullShare d)
        ∗ owns (c : Thread nD τ) arg5 fullShare sel ∗ owns (c : Thread nD τ) arg6 fullShare hb
        ∗ (iprop(owns (c : Thread nD τ) arg2 fullShare x ∗ owns (c : Thread nD τ) arg3 fullShare pk ∗ owns (c : Thread nD τ) arg4 fullShare (outTile x pk sel)
            ∗ owns (c : Thread nD τ) arg5 fullShare sel ∗ owns (c : Thread nD τ) arg6 fullShare hb) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f2, %hf2, H2⟩, ⟨%f3, %hf3, H3⟩, ⟨%d4, %f4, -, H4⟩, ⟨%f5, %hf5, H5⟩, ⟨%f6, %hf6, H6⟩, Hk⟩
  subst hf2 hf3 hf5 hf6
  sl_exec (disch := first | exact hc1 | exact hc2 | exact hc3 | exact hc4)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_out _)
  isplitl [H5]
  · iexists f5; isplitr; · ipureintro; rfl
    iexact H5
  iexists f6; isplitr; · ipureintro; rfl
  iexact H6

set_option maxHeartbeats 1000000 in
/-- Case B: the point's 512 rows of the hidden layer are stored over what the scratch held. -/
theorem runB (c : Dev nD) (E : Set ℕ) (i : grid1.Coords) (arg2 : Memref sig .tc .vmem S1x512x4096 .f32) (harg2 : arg2.IsWhole)
    (arg3 : Memref sig .tc .vmem S4136x32 .f32) (harg3 : arg3.IsWhole) (arg4 : Memref sig .tc .vmem S512x16 .f32) (harg4 : arg4.IsWhole)
    (arg5 : Memref sig .tc .vmem S4096x32 .f32) (harg5 : arg5.IsWhole) (arg6 : Memref sig .tc .vmem S4096x32 .f32) (harg6 : arg6.IsWhole)
    (hc1 : ¬cond1 i) (hc2 : ¬cond2 i) (hc3 : cond3 i) (hc4 : ¬cond4 i)
    (x : Vec F S1x512x4096 .f32) (pk : Vec F S4136x32 .f32) (d4 : Vec F S512x16 .f32) (sel hb : Vec F S4096x32 .f32) (K : PUnit → sProp 𝕄) :
    iprop(owns (c : Thread nD τ) arg2 fullShare x ∗ owns (c : Thread nD τ) arg3 fullShare pk ∗ owns (c : Thread nD τ) arg4 fullShare d4
        ∗ owns (c : Thread nD τ) arg5 fullShare sel ∗ owns (c : Thread nD τ) arg6 fullShare hb
        ∗ (iprop(owns (c : Thread nD τ) arg2 fullShare x ∗ owns (c : Thread nD τ) arg3 fullShare pk ∗ owns (c : Thread nD τ) arg4 fullShare d4
            ∗ owns (c : Thread nD τ) arg5 fullShare sel ∗ owns (c : Thread nD τ) arg6 fullShare ((rHid i hc3).overlay hb (hidTile x pk sel))) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2 hf3 hf4 hf5 hf6
  sl_exec (disch := first | exact hc1 | exact hc2 | exact hc3 | exact hc4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact read_writes_one _ _ _ _

set_option maxHeartbeats 1000000 in
/-- Case A: the selector is filled from the packed array, then rows 0..511 of the hidden layer are stored. -/
theorem runA (c : Dev nD) (E : Set ℕ) (i : grid1.Coords) (arg2 : Memref sig .tc .vmem S1x512x4096 .f32) (harg2 : arg2.IsWhole)
    (arg3 : Memref sig .tc .vmem S4136x32 .f32) (harg3 : arg3.IsWhole) (arg4 : Memref sig .tc .vmem S512x16 .f32) (harg4 : arg4.IsWhole)
    (arg5 : Memref sig .tc .vmem S4096x32 .f32) (harg5 : arg5.IsWhole) (arg6 : Memref sig .tc .vmem S4096x32 .f32) (harg6 : arg6.IsWhole)
    (hc1 : cond1 i) (hc2 : ¬cond2 i) (hc3 : cond3 i) (hc4 : ¬cond4 i)
    (x : Vec F S1x512x4096 .f32) (pk : Vec F S4136x32 .f32) (d4 : Vec F S512x16 .f32) (hb : Vec F S4096x32 .f32) (K : PUnit → sProp 𝕄) :
    iprop(owns (c : Thread nD τ) arg2 fullShare x ∗ owns (c : Thread nD τ) arg3 fullShare pk ∗ owns (c : Thread nD τ) arg4 fullShare d4
        ∗ (∃ d, owns (c : Thread nD τ) arg5 fullShare d) ∗ owns (c : Thread nD τ) arg6 fullShare hb
        ∗ (iprop(owns (c : Thread nD τ) arg2 fullShare x ∗ owns (c : Thread nD τ) arg3 fullShare pk ∗ owns (c : Thread nD τ) arg4 fullShare d4
            ∗ owns (c : Thread nD τ) arg5 fullShare (selA pk) ∗ owns (c : Thread nD τ) arg6 fullShare ((rHid i hc3).overlay hb (hidTile x pk (selA pk)))) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2 hf3 hf4 hf6
  sl_exec (disch := first | exact hc1 | exact hc2 | exact hc3 | exact hc4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_sel _)
  iexists _; isplitr
  swap; · iexact H6
  ipureintro
  rw [read_writes_one]
  unfold hidTile selA
  sl_unfold_run_names
  rw [View.readCov_eq_canon_ld _ _ _ (cover_sel _)]
  rfl

set_option maxHeartbeats 1000000 in
/-- Case C: the selector is overwritten with the hidden layer times the padded second weights, then the output
    tile is stored. -/
theorem runC (c : Dev nD) (E : Set ℕ) (i : grid1.Coords) (arg2 : Memref sig .tc .vmem S1x512x4096 .f32) (harg2 : arg2.IsWhole)
    (arg3 : Memref sig .tc .vmem S4136x32 .f32) (harg3 : arg3.IsWhole) (arg4 : Memref sig .tc .vmem S512x16 .f32) (harg4 : arg4.IsWhole)
    (arg5 : Memref sig .tc .vmem S4096x32 .f32) (harg5 : arg5.IsWhole) (arg6 : Memref sig .tc .vmem S4096x32 .f32) (harg6 : arg6.IsWhole)
    (hc1 : ¬cond1 i) (hc2 : cond2 i) (hc3 : ¬cond3 i) (hc4 : cond4 i)
    (x : Vec F S1x512x4096 .f32) (pk : Vec F S4136x32 .f32) (sel hb : Vec F S4096x32 .f32) (K : PUnit → sProp 𝕄) :
    iprop(owns (c : Thread nD τ) arg2 fullShare x ∗ owns (c : Thread nD τ) arg3 fullShare pk ∗ (∃ d, owns (c : Thread nD τ) arg4 fullShare d)
        ∗ owns (c : Thread nD τ) arg5 fullShare sel ∗ owns (c : Thread nD τ) arg6 fullShare hb
        ∗ (iprop(owns (c : Thread nD τ) arg2 fullShare x ∗ owns (c : Thread nD τ) arg3 fullShare pk ∗ owns (c : Thread nD τ) arg4 fullShare (outTile x pk (selC pk hb))
            ∗ owns (c : Thread nD τ) arg5 fullShare (selC pk hb) ∗ owns (c : Thread nD τ) arg6 fullShare hb) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f2, %hf2, H2⟩, ⟨%f3, %hf3, H3⟩, ⟨%d4, %f4, -, H4⟩, ⟨%f5, %hf5, H5⟩, ⟨%f6, %hf6, H6⟩, Hk⟩
  subst hf2 hf3 hf5 hf6
  sl_exec (disch := first | exact hc1 | exact hc2 | exact hc3 | exact hc4)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_out _)]
    unfold outTile selC
    sl_unfold_run_names
    rw [View.readCov_eq_canon_ld _ _ _ (cover_sel _)]
    rfl
  isplitl [H5]
  · iexists _; isplitr
    swap; · iexact H5
    ipureintro
    exact View.read_writes_eq_canon _ _ _ (cover_sel _)
  iexists f6; isplitr; · ipureintro; rfl
  iexact H6

end Cert.KernelIdeal.Hand

end
-- ==== Proof.Reg1.lean ====
/-
  The second kernel as a pipeline: what its three windows' staging buffers and its two scratch arrays hold at every
  one of the sixteen grid points, and the body's obligation at each point.

  The selector scratch holds, after point 0 and through point 8, the first layer's support s₁ (the packed array's
  first 4096 rows); from point 9 on the second layer's padded support s₂ = hidden · W₂.  The hidden-layer scratch is
  filled 512 rows per point during the eight points of phase 0: before point n its rows below 512·n are the rows the
  earlier points computed, the rest is whatever the scratch held when the region was entered — so the invariant
  names its contents only on the rows already stored, and once all eight tiles are in, the scratch is one function
  of the arrays (the eight tiles laid side by side).
-/
import proofs.«182081_g1666447311259_cont_sun_c4_429_14_alg».proof.Proof.Gen.KernelIdeal.Launch
import proofs.«182081_g1666447311259_cont_sun_c4_429_14_alg».proof.Proof.Gen.KernelIdeal.Skeleton
import proofs.«182081_g1666447311259_cont_sun_c4_429_14_alg».proof.Proof.Gen.KernelIdeal.Points
import proofs.«182081_g1666447311259_cont_sun_c4_429_14_alg».proof.Proof.Reg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.WritesUnit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile of point `t`: 512 rows of one of the two matrices. -/
abbrev adjAt (c : Dev nD) (t : Fin cfg1.N) : Vec F S1x512x4096 .f32 := iblk1 V c 0 t
/-- The packed array as point `t` sees it (the whole array at every point). -/
abbrev pkAt (c : Dev nD) (t : Fin cfg1.N) : Vec F S4136x32 .f32 := iblk1 V c 1 t

/-! ## Where the output window is idle, and the stored rows' offset -/

theorem live1_0 : ∀ i, cfg1.idle 0 i = false := fun _ => rfl
theorem live1_1 : ∀ i, cfg1.idle 1 i = false := fun _ => rfl
/-- During phase 0 the body stores nothing into the output window, and the pipeline does not write it back. -/
theorem idle1_2 : ∀ t : Fin cfg1.N, t.val < 8 → cfg1.idle 2 (grid1.coords t) = true :=
  (by decide +kernel : ∀ t : Fin grid1.N, t.val < 8 → cfg1.idle 2 (grid1.coords t) = true)
theorem noFlush1_2 : ∀ t : Fin cfg1.N, t.val < 8 → (cfg1.win 2).flush t = false :=
  (by decide +kernel : ∀ t : Fin grid1.N, t.val < 8 → win1_2.flush t = false)
/-- During phase 1 it is live. -/
theorem live1_2 : ∀ t : Fin cfg1.N, 8 ≤ t.val → cfg1.idle 2 (grid1.coords t) = false :=
  (by decide +kernel : ∀ t : Fin grid1.N, 8 ≤ t.val → cfg1.idle 2 (grid1.coords t) = false)
/-- A phase-0 point stores the hidden layer's rows from 512 · (its number) on. -/
theorem off_eq : ∀ t : Fin cfg1.N, t.val < 8 → k1_off1 (grid1.coords t) = ![512 * t.val, 0] :=
  (by decide +kernel : ∀ t : Fin grid1.N, t.val < 8 → k1_off1 (grid1.coords t) = ![512 * t.val, 0])

/-! ## The scratch arrays' contents -/

/-- The first and the ninth point. -/
abbrev tFirst : Fin cfg1.N := t1_0
abbrev tMid : Fin cfg1.N := t1_8

/-- The selector during phase 0: the first layer's support. -/
def s1 (c : Dev nD) : Vec F S4096x32 .f32 := selA (pkAt V c tFirst)

/-- The 512 rows of the hidden layer point `t` computes. -/
def hidAt (c : Dev nD) (t : Fin cfg1.N) : FVec F S512x32 .f32 := hidTile (adjAt V c t) (pkAt V c t) (s1 V c)

/-- The hidden-layer scratch holds the rows the points below `n` computed. -/
def HidOk (c : Dev nD) (n : Nat) (g : Vec F S4096x32 .f32) : Prop :=
  ∀ (t' : Fin cfg1.N) (h : cond3 (grid1.coords t')), t'.val < n → ∀ x, g ((rHid (grid1.coords t') h).emb x) = hidAt V c t' x

theorem hidOk_zero (c : Dev nD) (g : Vec F S4096x32 .f32) : HidOk V c 0 g := fun _ _ h => absurd h (Nat.not_lt_zero _)

/-- The rows two different phase-0 points store are disjoint. -/
theorem rHid_disjoint (t t' : Fin cfg1.N) (h : cond3 (grid1.coords t)) (h' : cond3 (grid1.coords t')) (hne : t'.val ≠ t.val)
    (x : (rHid (grid1.coords t') h').shape.Idx) : (rHid (grid1.coords t') h').emb x ∉ (rHid (grid1.coords t) h).set := by
  have ht := (hcond3 t).mp h
  have ht' := (hcond3 t').mp h'
  intro hm
  rw [Rect.mem_set_unit] at hm
  have h0 := hm (0 : Fin 2)
  have e : (k1_off1 (grid1.coords t)) (0 : Fin 2) = 512 * t.val := by rw [off_eq t ht]; rfl
  have e' : (((rHid (grid1.coords t') h').emb x) (0 : Fin 2)).val = 512 * t'.val + (x (0 : Fin 2)).val := by
    show (k1_off1 (grid1.coords t')) (0 : Fin 2) + 1 * (x (0 : Fin 2)).val = _
    rw [off_eq t' ht']; show 512 * t'.val + 1 * (x (0 : Fin 2)).val = _; omega
  have hx : (x (0 : Fin 2)).val < 512 := (x (0 : Fin 2)).isLt
  rw [e, e'] at h0
  have : S512x32.size (0 : Fin 2) = 512 := rfl
  omega

/-- One more point's rows stored: the invariant moves on. -/
theorem hidOk_step (c : Dev nD) (t : Fin cfg1.N) (h : cond3 (grid1.coords t)) (g : Vec F S4096x32 .f32) (hg : HidOk V c t.val g) :
    HidOk V c (t.val + 1) ((rHid (grid1.coords t) h).overlay g (hidAt V c t)) := by
  intro t' h' hlt x
  by_cases e : t'.val = t.val
  · obtain rfl : t' = t := Fin.ext e
    exact (rHid (grid1.coords t') h).overlay_emb _ _ x
  · rw [(rHid (grid1.coords t) h).overlay_of_not_mem _ _ (rHid_disjoint t t' h h' e x)]
    exact hg t' h' (by omega) x

/-! ## The whole hidden layer -/

/-- The tile that holds row `r` of the hidden layer. -/
def tileOf (y : S4096x32.Idx) : Fin cfg1.N := ⟨(y (0 : Fin 2)).val / 512, by
  have h : (y (0 : Fin 2)).val < 4096 := (y (0 : Fin 2)).isLt
  have hN : cfg1.N = 16 := N_1
  rw [hN]; omega⟩

theorem tileOf_lt (y : S4096x32.Idx) : (tileOf y).val < 8 := by
  have h : (y (0 : Fin 2)).val < 4096 := (y (0 : Fin 2)).isLt
  show (y (0 : Fin 2)).val / 512 < 8
  omega

theorem tileOf_bounds (y : S4096x32.Idx) :
    ∀ a : Fin 2, (![512 * (tileOf y).val, 0] : Fin 2 → ℕ) a ≤ (y a).val ∧ (y a).val < (![512 * (tileOf y).val, 0] : Fin 2 → ℕ) a + S512x32.size a := by
  have h0 : (y (0 : Fin 2)).val < 4096 := (y (0 : Fin 2)).isLt
  have h1 : (y (1 : Fin 2)).val < 32 := (y (1 : Fin 2)).isLt
  refine Fin.forall_fin_two.mpr ⟨?_, ?_⟩
  · show 512 * ((y (0 : Fin 2)).val / 512) ≤ (y (0 : Fin 2)).val ∧ (y (0 : Fin 2)).val < 512 * ((y (0 : Fin 2)).val / 512) + 512
    omega
  · show 0 ≤ (y (1 : Fin 2)).val ∧ (y (1 : Fin 2)).val < 0 + 32
    omega

/-- The hidden layer as one function of the arrays: row `r` is row `r mod 512` of the tile point `r / 512` computes. -/
def hidFull (c : Dev nD) : Vec F S4096x32 .f32 := fun y =>
  hidAt V c (tileOf y) (Rect.unitLocal (s := S4096x32) (off := ![512 * (tileOf y).val, 0]) (size := S512x32.size) y (tileOf_bounds y))

/-- Once all eight tiles are stored the scratch is that function. -/
theorem hid_full (c : Dev nD) (g : Vec F S4096x32 .f32) (hg : HidOk V c 8 g) : g = hidFull V c := by
  funext y
  have ht := tileOf_lt y
  have h3 : cond3 (grid1.coords (tileOf y)) := (hcond3 (tileOf y)).mpr ht
  have hemb : (rHid (grid1.coords (tileOf y)) h3).emb
      (Rect.unitLocal (s := S4096x32) (off := ![512 * (tileOf y).val, 0]) (size := S512x32.size) y (tileOf_bounds y)) = y :=
    funext fun a => Fin.ext (by
      show (k1_off1 (grid1.coords (tileOf y))) a + 1 * ((y a).val - (![512 * (tileOf y).val, 0] : Fin 2 → ℕ) a) = (y a).val
      rw [off_eq (tileOf y) ht]
      have := (tileOf_bounds y a).1
      omega)
  calc g y = g ((rHid (grid1.coords (tileOf y)) h3).emb _) := by rw [hemb]
    _ = hidAt V c (tileOf y) _ := hg (tileOf y) h3 ht _

/-- The selector during phase 1: the hidden layer times the padded second weights. -/
def s2 (c : Dev nD) : Vec F S4096x32 .f32 := selC (pkAt V c tMid) (hidFull V c)

/-- The output tile point `t` of phase 1 computes. -/
def outAt (c : Dev nD) (t : Fin cfg1.N) : Vec F S512x16 .f32 := outTile (adjAt V c t) (pkAt V c t) (s2 V c)

/-! ## The invariant between points -/

abbrev scM0 : Memref sig .tc .vmem S4096x32 .f32 := Memref.whole cc1_scratch0
abbrev scM1 : Memref sig .tc .vmem S4096x32 .f32 := Memref.whole cc1_scratch1

/-- The first kernel's staging buffers, which this kernel does not touch, and the generator register. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ r, prngReg c r))

/-- The selector before point `n`: anything at the start, the first support through point 8, the second after. -/
def selInv (c : Dev nD) (n : ℕ) : sProp 𝕄 :=
  if n = 0 then iprop(∃ d, owns (c : Thread nD τ) scM0 fullShare d)
  else if n ≤ 8 then owns (c : Thread nD τ) scM0 fullShare (s1 V c)
  else owns (c : Thread nD τ) scM0 fullShare (s2 V c)

/-- The hidden-layer scratch before point `n`: the tiles of the points below `n` are in. -/
def hidInv (c : Dev nD) (n : ℕ) : sProp 𝕄 :=
  iprop(∃ g, ⌜HidOk V c n g⌝ ∗ owns (c : Thread nD τ) scM1 fullShare g)

def Phi1 (c : Dev nD) (n : ℕ) : sProp 𝕄 := iprop(rest1 c ∗ selInv V c n ∗ hidInv V c n)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt V c t
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt V c t := by dsimp only [dat1]
theorem Phi_eq1 (c : Dev nD) (t : Fin (cfg1.N + 1)) : (dat1 V c).Φ t = Phi1 V c t.val := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end Cert.KernelIdeal.Hand

end
-- ==== Proof.Reg1Body.lean ====
/-
  The second kernel's body obligation: at each of the sixteen points, from the invariant and the windows' staging
  buffers at what they then hold, the body runs to the invariant of the next point and the buffers at what the proof
  data say — by the control case the point is in.
-/
import proofs.«182081_g1666447311259_cont_sun_c4_429_14_alg».proof.Proof.Gen.KernelIdeal.Launch
import proofs.«182081_g1666447311259_cont_sun_c4_429_14_alg».proof.Proof.Gen.KernelIdeal.Skeleton
import proofs.«182081_g1666447311259_cont_sun_c4_429_14_alg».proof.Proof.Gen.KernelIdeal.Points
import proofs.«182081_g1666447311259_cont_sun_c4_429_14_alg».proof.Proof.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.WritesUnit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- After phase 0 nothing more is required of the hidden-layer scratch than what eight tiles give. -/
theorem hidOk_of_eight (c : Dev nD) (g : Vec F S4096x32 .f32) (hg : HidOk V c 8 g) (n : ℕ) : HidOk V c n g :=
  fun t' h _ x => hg t' h ((hcond3 t').mp h) x

theorem selInv_zero (c : Dev nD) : selInv V c 0 = iprop(∃ d, owns (c : Thread nD τ) scM0 fullShare d) := by
  unfold selInv; rw [if_pos rfl]
theorem selInv_low (c : Dev nD) (n : ℕ) (h0 : n ≠ 0) (h8 : n ≤ 8) : selInv V c n = owns (c : Thread nD τ) scM0 fullShare (s1 V c) := by
  unfold selInv; rw [if_neg h0, if_pos h8]
theorem selInv_high (c : Dev nD) (n : ℕ) (h8 : 8 < n) : selInv V c n = owns (c : Thread nD τ) scM0 fullShare (s2 V c) := by
  unfold selInv; rw [if_neg (by omega), if_neg (by omega)]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi_eq1, Phi_eq1]
  simp only [Fin.coe_castSucc, Fin.val_succ]
  rw [show (dat1 V c).leavesExact 0 t = owns (c : Thread nD τ) (st1_0 t) fullShare ((dat1 V c).after 0 t) from by
    unfold Dat.leavesExact; rw [live1_0], after1_0]
  rw [show (dat1 V c).leavesExact 1 t = owns (c : Thread nD τ) (st1_1 t) fullShare ((dat1 V c).after 1 t) from by
    unfold Dat.leavesExact; rw [live1_1], after1_1]
  have hN : t.val < 16 := lt_of_lt_of_eq t.isLt (show cfg1.N = 16 from N_1)
  unfold Phi1 hidInv
  by_cases h8 : t.val < 8
  · have hc3 : cond3 (grid1.coords t) := (hcond3 t).mpr h8
    have hc4 : ¬cond4 (grid1.coords t) := fun h => by have := (hcond4 t).mp h; omega
    have hc2 : ¬cond2 (grid1.coords t) := fun h => by have := (hcond2 t).mp h; omega
    rw [Dat.leavesExact_idle (dat1 V c) 2 t (idle1_2 t h8) (noFlush1_2 t h8)]
    by_cases h0 : t.val = 0
    · have hc1 : cond1 (grid1.coords t) := (hcond1 t).mpr h0
      obtain rfl : t = tFirst := Fin.ext h0
      rw [show (tFirst : Fin cfg1.N).val = 0 from rfl, selInv_zero, selInv_low V c (0 + 1) (by omega) (by omega)]
      iintro ⟨⟨Hrest, ⟨%d5, HS⟩, ⟨%g, %hg, HH⟩⟩, Ho, ⟨%d0, H0⟩, ⟨%d1, H1⟩, ⟨%d2, H2⟩⟩
      iapply (runA c Set.univ (grid1.coords tFirst) _ _ _ _ _ _ _ _ _ _ hc1 hc2 hc3 hc4 (iblk1 V c 0 tFirst) (iblk1 V c 1 tFirst) ((dat1 V c).before 2 tFirst d2) g _)
      isplitl [H0]; · iexact H0
      isplitl [H1]; · iexact H1
      isplitl [H2]; · iexact H2
      isplitl [HS]; · iexists _; iexact HS
      isplitl [HH]; · iexact HH
      iintro ⟨H0, H1, H2, HS, HH⟩
      isplitl [Hrest HS HH]
      · isplitl [Hrest]; · iexact Hrest
        isplitl [HS]; · iexact HS
        iexists _; isplitr
        · ipureintro; exact hidOk_step V c tFirst hc3 g hg
        iexact HH
      isplitl [Ho]; · iexact Ho
      isplitl [H0]; · iexact H0
      isplitl [H1]; · iexact H1
      iexists _; iexact H2
    · have hc1 : ¬cond1 (grid1.coords t) := fun h => h0 ((hcond1 t).mp h)
      rw [selInv_low V c t.val h0 (by omega), selInv_low V c (t.val + 1) (by omega) (by omega)]
      iintro ⟨⟨Hrest, HS, ⟨%g, %hg, HH⟩⟩, Ho, ⟨%d0, H0⟩, ⟨%d1, H1⟩, ⟨%d2, H2⟩⟩
      iapply (runB c Set.univ (grid1.coords t) _ _ _ _ _ _ _ _ _ _ hc1 hc2 hc3 hc4 (iblk1 V c 0 t) (iblk1 V c 1 t) ((dat1 V c).before 2 t d2) (s1 V c) g _)
      isplitl [H0]; · iexact H0
      isplitl [H1]; · iexact H1
      isplitl [H2]; · iexact H2
      isplitl [HS]; · iexact HS
      isplitl [HH]; · iexact HH
      iintro ⟨H0, H1, H2, HS, HH⟩
      isplitl [Hrest HS HH]
      · isplitl [Hrest]; · iexact Hrest
        isplitl [HS]; · iexact HS
        iexists _; isplitr
        · ipureintro; exact hidOk_step V c t hc3 g hg
        iexact HH
      isplitl [Ho]; · iexact Ho
      isplitl [H0]; · iexact H0
      isplitl [H1]; · iexact H1
      iexists _; iexact H2
  · have h8' : 8 ≤ t.val := by omega
    have hc3 : ¬cond3 (grid1.coords t) := fun h => h8 ((hcond3 t).mp h)
    have hc4 : cond4 (grid1.coords t) := (hcond4 t).mpr h8'
    have hc1 : ¬cond1 (grid1.coords t) := fun h => by have := (hcond1 t).mp h; omega
    rw [show (dat1 V c).leavesExact 2 t = owns (c : Thread nD τ) (st1_2 t) fullShare ((dat1 V c).after 2 t) from by
      unfold Dat.leavesExact; rw [live1_2 t h8'], after1_2]
    by_cases he : t.val = 8
    · have hc2 : cond2 (grid1.coords t) := (hcond2 t).mpr he
      obtain rfl : t = tMid := Fin.ext he
      rw [show (tMid : Fin cfg1.N).val = 8 from rfl, selInv_low V c 8 (by omega) (by omega), selInv_high V c (8 + 1) (by omega)]
      iintro ⟨⟨Hrest, HS, ⟨%g, %hg, HH⟩⟩, Ho, ⟨%d0, H0⟩, ⟨%d1, H1⟩, ⟨%d2, H2⟩⟩
      obtain rfl := hid_full V c g hg
      iapply (runC c Set.univ (grid1.coords tMid) _ _ _ _ _ _ _ _ _ _ hc1 hc2 hc3 hc4 (iblk1 V c 0 tMid) (iblk1 V c 1 tMid) (s1 V c) (hidFull V c) _)
      isplitl [H0]; · iexact H0
      isplitl [H1]; · iexact H1
      isplitl [H2]; · iexists _; iexact H2
      isplitl [HS]; · iexact HS
      isplitl [HH]; · iexact HH
      iintro ⟨H0, H1, H2, HS, HH⟩
      isplitl [Hrest HS HH]
      · isplitl [Hrest]; · iexact Hrest
        isplitl [HS]; · iexact HS
        iexists _; isplitr
        · ipureintro; exact hidOk_of_eight V c _ hg _
        iexact HH
      isplitl [Ho]; · iexact Ho
      isplitl [H0]; · iexact H0
      isplitl [H1]; · iexact H1
      iexact H2
    · have hc2 : ¬cond2 (grid1.coords t) := fun h => he ((hcond2 t).mp h)
      rw [selInv_high V c t.val (by omega), selInv_high V c (t.val + 1) (by omega)]
      iintro ⟨⟨Hrest, HS, ⟨%g, %hg, HH⟩⟩, Ho, ⟨%d0, H0⟩, ⟨%d1, H1⟩, ⟨%d2, H2⟩⟩
      iapply (runD c Set.univ (grid1.coords t) _ _ _ _ _ _ _ _ _ _ hc1 hc2 hc3 hc4 (iblk1 V c 0 t) (iblk1 V c 1 t) (s2 V c) g _)
      isplitl [H0]; · iexact H0
      isplitl [H1]; · iexact H1
      isplitl [H2]; · iexists _; iexact H2
      isplitl [HS]; · iexact HS
      isplitl [HH]; · iexact HH
      iintro ⟨H0, H1, H2, HS, HH⟩
      isplitl [Hrest HS HH]
      · isplitl [Hrest]; · iexact Hrest
        isplitl [HS]; · iexact HS
        iexists _; isplitr
        · ipureintro; exact hidOk_of_eight V c g (hidOk_of_eight V c g (fun t' h _ x => hg t' h (by have := (hcond3 t').mp h; omega) x) 8) _
        iexact HH
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelRun.lean ====
/-
  The run of the kernel program's @main: two reshapes on the host (the two bias vectors stood up as rows), the packing
  kernel, the graph-convolution kernel.  The buffers' contents at each boundary are a fold from the launch memory:
  after the reshapes; after the first kernel, whose output array is what its one write-back leaves; after the second,
  whose output array is what its eight write-backs leave.  Every weakly fair execution terminates with every
  unscoped buffer at the last of these, so the arguments end as launched and the result array is the second
  kernel's output.
-/
import proofs.«182081_g1666447311259_cont_sun_c4_429_14_alg».proof.Proof.Gen.KernelIdeal.Launch
import proofs.«182081_g1666447311259_cont_sun_c4_429_14_alg».proof.Proof.Gen.KernelIdeal.Skeleton
import proofs.«182081_g1666447311259_cont_sun_c4_429_14_alg».proof.Proof.Gen.KernelIdeal.Points
import proofs.«182081_g1666447311259_cont_sun_c4_429_14_alg».proof.Proof.Reg0
import proofs.«182081_g1666447311259_cont_sun_c4_429_14_alg».proof.Proof.Reg1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.WritesUnit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the two reshapes (the first kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel (the second's entry): its arrays at what the pipeline leaves. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second kernel. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 3).trans (((dat0 (V1 m) c).arrAt_in 3 rfl _).trans (A_eq0 (V1 m) c 3))
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The result array is what the second kernel's write-backs leave. -/
theorem W3_main_v0 (c : Dev nD) : W3 m c (Proc.devRef .tc main_v0) = (dat1 (V2 m) c).arrAt 2 cfg1.N := W3_arr m c 2

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (V2 m) c 0 from rfl]
    unfold Phi1 rest1 hidInv
    rw [selInv_zero, show (Pipeline.scopedRest (Pipeline.pin (pcfgs (F := F)) adm 1).spec c : sProp 𝕄) = _ from scopedRest1_eq c]
    iintro ⟨Hp, -, ⟨A0, A1, A2, A3, A4, A5, ⟨%f0, S0⟩, ⟨%f1, S1⟩⟩⟩
    isplitl [A0 A1 A2 A3 A4 A5 Hp]
    · isplitl [A0]; · iexact A0
      isplitl [A1]; · iexact A1
      isplitl [A2]; · iexact A2
      isplitl [A3]; · iexact A3
      isplitl [A4]; · iexact A4
      isplitl [A5]; · iexact A5
      iexact Hp
    isplitl [S0]
    · iexists f0; rw [owns_whole]; iexact S0
    iexists f1; isplitr; · ipureintro; exact hidOk_zero (V2 m) c f1
    rw [owns_whole]; iexact S1
  hout c := by
    rw [Pipeline.ownSems0_none, show (pdats m 1 c).Φ (Fin.last _) = Phi1 (V2 m) c 16 from rfl]
    unfold Phi1 rest1 hidInv
    rw [selInv_high (V2 m) c 16 (by omega), show (Pipeline.scopedRest (Pipeline.pin (pcfgs (F := F)) adm 1).spec c : sProp 𝕄) = _ from scopedRest1_eq c]
    simp only [owns_whole]
    iintro ⟨⟨A0, A1, A2, A3, A4, A5, Hp⟩, S0, ⟨%g, -, S1⟩⟩
    isplitl [Hp]; · iexact Hp
    isplitr; · iempintro
    isplitl [A0]; · iexact A0
    isplitl [A1]; · iexact A1
    isplitl [A2]; · iexact A2
    isplitl [A3]; · iexact A3
    isplitl [A4]; · iexact A4
    isplitl [A5]; · iexact A5
    isplitl [S0]; · iexists _; iexact S0
    iexists _; iexact S1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution of @main terminates, nothing faulting, with every unscoped buffer at the last
    boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_main m ρ)

end Cert.KernelIdeal.Hand

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibDenseTile.lean ====
import Idealize.ShloMosaic.Lib.ValueLayout
import Idealize.ShloMosaic.PureOps.Ideal.Laws
import proofs.«182081_g1666447311259_cont_sun_c4_429_14_alg».proof.Proof.LibPlainDot

/-!
# A dense layer on a tile of rows

A tile `[M, K]` of rows times a weight matrix `[K, N]` into a zero accumulator, plus a bias vector `[N]` stood up as
one row `[1, N]` and repeated down the `M` rows, read at `(p, q)` over the extended reals: the plain sum
`∑ k < K, l (p, k) · w (k, q)` plus `b q`. Changes of float format on the way into the product are the identity there,
so the operands may carry any formats. Any `M`, `K`, `N`.
-/

noncomputable section

namespace Cert.LibDenseTile

open Idealize.ShloMosaic Idealize.ShloMosaic.ValueIdx
open scoped BigOperators

/-- A bias vector `[N]` stood up as a row and repeated down `M` rows reads, at `(p, q)`, its entry `q`. -/
theorem biasRows_apply {α : Type} {M N : Nat} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc (0 : Fin 1) q)

/-- The dense layer at `(p, q)`: the row's product with column `q`, plus the bias there. -/
theorem dense_apply {M K N : Nat} {φ₁ φ₂ : FTy} (d : DotDims ⟨2, ![M, K]⟩ ⟨2, ![K, N]⟩ ⟨2, ![M, N]⟩)
    (hd : LibPlainDot.Plain d) (prec : Option ContractPrecision)
    (l : FVec Ideal ⟨2, ![M, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul d prec l w (constant ⟨2, ![M, N]⟩ .f32 0x00000000#32))
        (broadcastTo ⟨2, ![M, N]⟩ (shapeCast ⟨2, ![1, N]⟩ b hc) hb) (ix2 p q)
      = (∑ k : Fin K, l (ix2 p k) * w (ix2 k q)) + b (ix1 q) := by
  rw [addf_apply, biasRows_apply b hc hb p q]
  exact congrArg (· + b (ix1 q)) (LibPlainDot.matmul_zero_apply d hd prec l w p q)

end Cert.LibDenseTile

end
-- ==== Proof.LibRowLayers.lean ====
import Idealize.ShloMosaic.Lib.ValueIdx
import Idealize.ShloMosaic.Lib.ValueLayout
import Idealize.ShloMosaic.Lib.Pipeline.Value
import Idealize.ShloMosaic.PureOps.Ideal.Laws
import proofs.«182081_g1666447311259_cont_sun_c4_429_14_alg».proof.Proof.LibPlainDot
import proofs.«182081_g1666447311259_cont_sun_c4_429_14_alg».proof.Proof.LibDenseTile

/-!
# The dense stages of a two-layer graph convolution, as whole-array functions

Over the extended reals a graph-convolution layer is: multiply every node's feature row by a weight matrix, send each
row along the edges scaled by the edge weight and add what arrives at each node, add a bias row, and (in the first
layer) keep the positive part. The edge step is the same on both sides of the comparison and is never opened here.
This file names the dense steps index by index, for any number of rows:

* `rowsTimes x w`: entry `(p, q)` is `∑ k, x (p, k) · w (k, q)`;
* `addRow y b`: entry `(p, q)` is `y (p, q) + b q`;
* `reluRow y b`: entry `(p, q)` is `max (y (p, q) + b q) 0`.

A product computed tile of rows by tile of rows and one computed on the whole array have the same entries, because an
entry only depends on its own row; likewise for the two bias steps. The matrix unit's product into a zero accumulator
and the host's `dot_general` are both `rowsTimes`.
-/

noncomputable section

namespace Cert.Layers

open Idealize.ShloMosaic Idealize.ShloMosaic.ValueIdx
open scoped BigOperators

/-- Offsets that are all zero, however they are spelt. -/
theorem zeros2 : (![0, 0] : Fin 2 → Nat) = fun _ => 0 := funext fun a => by fin_cases a <;> rfl
theorem zeros1 : (![0] : Fin 1 → Nat) = fun _ => 0 := funext fun a => by fin_cases a; rfl

variable {M K N : Nat}

/-- Every row of `x` times the matrix `w`. -/
def rowsTimes (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply (x : (⟨2, ![M, K]⟩ : Shape).Idx → EReal) (w : (⟨2, ![K, N]⟩ : Shape).Idx → EReal)
    (p : Fin M) (q : Fin N) : rowsTimes x w (ix2 p q) = ∑ k : Fin K, x (ix2 p k) * w (ix2 k q) := rfl

/-- The bias row `b` added to every row of `y`. -/
def addRow (y : (⟨2, ![M, N]⟩ : Shape).Idx → EReal) (b : (⟨1, ![N]⟩ : Shape).Idx → EReal) :
    (⟨2, ![M, N]⟩ : Shape).Idx → EReal :=
  fun i => y i + b (ix1 (i 1))

theorem addRow_apply (y : (⟨2, ![M, N]⟩ : Shape).Idx → EReal) (b : (⟨1, ![N]⟩ : Shape).Idx → EReal)
    (p : Fin M) (q : Fin N) : addRow y b (ix2 p q) = y (ix2 p q) + b (ix1 q) := rfl

/-- The positive part of `y` plus the bias row. -/
def reluRow (y : (⟨2, ![M, N]⟩ : Shape).Idx → EReal) (b : (⟨1, ![N]⟩ : Shape).Idx → EReal) :
    (⟨2, ![M, N]⟩ : Shape).Idx → EReal :=
  fun i => max (y i + b (ix1 (i 1))) 0

theorem reluRow_apply (y : (⟨2, ![M, N]⟩ : Shape).Idx → EReal) (b : (⟨1, ![N]⟩ : Shape).Idx → EReal)
    (p : Fin M) (q : Fin N) : reluRow y b (ix2 p q) = max (y (ix2 p q) + b (ix1 q)) 0 := rfl

/-- The matrix unit's product into a zero accumulator is `rowsTimes`, whatever float formats its operands carry. -/
theorem matmul_zero_eq {φ₁ φ₂ : FTy} (d : DotDims ⟨2, ![M, K]⟩ ⟨2, ![K, N]⟩ ⟨2, ![M, N]⟩) (h : LibPlainDot.Plain d)
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = rowsTimes l r := by
  funext i
  obtain ⟨p, q, rfl⟩ : ∃ (p : Fin M) (q : Fin N), i = ix2 p q := ⟨i 0, i 1, eq_ix2 i⟩
  exact LibPlainDot.matmul_zero_apply d h prec l r p q

/-- The host's `dot_general` is `rowsTimes`. -/
theorem dotGeneral_eq {φ₁ φ₂ : FTy} (d : DotDims ⟨2, ![M, K]⟩ ⟨2, ![K, N]⟩ ⟨2, ![M, N]⟩) (h : LibPlainDot.Plain d)
    (prec : Option ContractPrecision) (sched : HostSchedule) (l : FVec Ideal ⟨2, ![M, K]⟩ φ₁) (r : FVec Ideal ⟨2, ![K, N]⟩ φ₂) :
    FloatOps.dotGeneral d prec sched l r = rowsTimes l r := by
  funext i
  obtain ⟨p, q, rfl⟩ : ∃ (p : Fin M) (q : Fin N), i = ix2 p q := ⟨i 0, i 1, eq_ix2 i⟩
  exact LibPlainDot.dotGeneral_apply d h prec sched l r p q

/-- A tile's rows plus a bias vector stood up as a row and repeated down the tile: entry `(p, q)` gets `b q`. -/
theorem tile_addBias_apply (y : FVec Ideal ⟨2, ![M, N]⟩ .f32) (b : FVec Ideal ⟨1, ![N]⟩ .f32)
    (hs : (⟨2, ![M, N]⟩ : Shape).ShapeCasts ⟨2, ![M, N]⟩)
    (hc : (⟨1, ![N]⟩ : Shape).ShapeCasts ⟨2, ![1, N]⟩) (hb : (⟨2, ![1, N]⟩ : Shape).Broadcasts ⟨2, ![M, N]⟩)
    (p : Fin M) (q : Fin N) :
    addf (shapeCast ⟨2, ![M, N]⟩ y hs) (broadcastTo ⟨2, ![M, N]⟩ (shapeCast ⟨2, ![1, N]⟩ b hc) hb) (ix2 p q)
      = y (ix2 p q) + b (ix1 q) := by
  rw [addf_apply, LibDenseTile.biasRows_apply b hc hb p q, shapeCast_self]

/-- A bias vector made a one-row array and that row repeated down `M` rows, both by `broadcast_in_dim`: entry `(p, q)`
    is the bias entry `q`. -/
theorem rows_of_vector_apply {α : Type} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![1, N]⟩ ![1] h1 b) (ix2 p q) = b (ix1 q) := by
  have hq : q.val < N := q.isLt
  rw [broadcastInDim_apply ![0, 1] h2 _ (ix2 p q) (ix2 (0 : Fin 1) q) (fun a => by
        match a with
        | ⟨0, _⟩ => show (0 : Nat) = if (1 : Nat) = 1 then 0 else p.val; rw [if_pos rfl]
        | ⟨1, _⟩ => show q.val = if N = 1 then 0 else q.val; by_cases h : N = 1 <;> simp only [h, if_true, if_false, ite_true, ite_false] <;> omega),
    broadcastInDim_apply ![1] h1 b (ix2 (0 : Fin 1) q) (ix1 q) (fun a => by
        match a with
        | ⟨0, _⟩ => show q.val = if N = 1 then 0 else q.val; by_cases h : N = 1 <;> simp only [h, if_true, if_false, ite_true, ite_false] <;> omega)]

/-- Adding that array of repeated bias rows is `addRow`. -/
theorem addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf y (broadcastInDim ⟨2, ![M, N]⟩ ![0, 1] h2 (broadcastInDim ⟨2, ![1, N]⟩ ![1] h1 b)) = addRow y b := by
  funext i
  obtain ⟨p, q, rfl⟩ : ∃ (p : Fin M) (q : Fin N), i = ix2 p q := ⟨i 0, i 1, eq_ix2 i⟩
  rw [addf_apply, rows_of_vector_apply b h1 h2 p q]
  rfl

/-- Its positive part against an array of zeros is `reluRow`. -/
theorem maximumf_addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (z : FVec Ideal ⟨2, ![M, N]⟩ .f32) (hz : ∀ i, z i = 0) :
    maximumf (addf y (broadcastInDim ⟨2, ![M, N]⟩ ![0, 1] h2 (broadcastInDim ⟨2, ![1, N]⟩ ![1] h1 b))) z = reluRow y b := by
  rw [addf_rows_of_vector y b h1 h2]
  funext i
  rw [maximumf_apply, hz i]
  rfl

end Cert.Layers

end
-- ==== Proof.LibRowTile.lean ====
import Idealize.ShloMosaic.Lib.ValueIdx
import Idealize.ShloMosaic.Lib.ValueLayout
import Idealize.ShloMosaic.Lib.Pipeline.Value
import Idealize.ShloMosaic.PureOps.Ideal.Laws
import proofs.«182081_g1666447311259_cont_sun_c4_429_14_alg».proof.Proof.LibPlainDot
import proofs.«182081_g1666447311259_cont_sun_c4_429_14_alg».proof.Proof.LibRowLayers

/-!
# Dense layers computed one tile of rows at a time

The three dense steps `rowsTimes`, `addRow`, `reluRow` produce row `r` of their result from row `r` of their first
operand alone. So a tile of `T` rows whose row `p` is row `r` of an `[M, K]` array yields, in its row `p`, row `r` of what
the same step yields on the whole array (`rowsTimes_row`, `addRow_row`, `reluRow_row`).

The bias may arrive as a one-row array `[1, N]` instead of a vector: `rowVec` names its row as a vector, and the vector
unit's spelling of "add the row to every row of the tile" and "then keep the positive part" are `addRow` / `reluRow` of
that vector at the ideal instance, for any number of rows (`addf_bcastRow`, `maximumf_addf_bcastRow`). A change of float
format is the identity there (`truncf_eq`). A vector stood up as a one-row array has that vector as its row
(`rowVec_shapeCast`).
-/

noncomputable section

namespace Cert.RowTile

open Idealize.ShloMosaic Idealize.ShloMosaic.ValueIdx Cert.Layers
open scoped BigOperators

variable {M T K N : Nat}

/-- Row `p` of a product of a tile is row `r` of the product of the whole array, when the tile's row `p` is the
    array's row `r`. -/
theorem rowsTimes_row (A : (⟨2, ![M, K]⟩ : Shape).Idx → EReal) (At : (⟨2, ![T, K]⟩ : Shape).Idx → EReal)
    (w : (⟨2, ![K, N]⟩ : Shape).Idx → EReal) (p : Fin T) (r : Fin M)
    (h : ∀ k : Fin K, At (ix2 p k) = A (ix2 r k)) (q : Fin N) :
    rowsTimes At w (ix2 p q) = rowsTimes A w (ix2 r q) := by
  rw [rowsTimes_apply, rowsTimes_apply]
  exact Finset.sum_congr rfl fun k _ => by rw [h k]

/-- The same for the bias step. -/
theorem addRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : addRow yt b (ix2 p q) = addRow y b (ix2 r q) := by
  rw [addRow_apply, addRow_apply, h]

/-- The same for the bias step followed by the positive part. -/
theorem reluRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : reluRow yt b (ix2 p q) = reluRow y b (ix2 r q) := by
  rw [reluRow_apply, reluRow_apply, h]

/-- The one row of a `[1, N]` array, as a vector. -/
def rowVec (b : (⟨2, ![1, N]⟩ : Shape).Idx → EReal) : (⟨1, ![N]⟩ : Shape).Idx → EReal :=
  fun i => b (ix2 (0 : Fin 1) (i 0))

theorem rowVec_apply (b : (⟨2, ![1, N]⟩ : Shape).Idx → EReal) (q : Fin N) : rowVec b (ix1 q) = b (ix2 (0 : Fin 1) q) := rfl

/-- A vector stood up as a one-row array has the vector as its row. -/
theorem rowVec_shapeCast (b : (⟨1, ![N]⟩ : Shape).Idx → EReal) (hc : (⟨1, ![N]⟩ : Shape).ShapeCasts ⟨2, ![1, N]⟩) :
    rowVec (shapeCast ⟨2, ![1, N]⟩ b hc) = b := by
  funext i
  obtain ⟨q, rfl⟩ : ∃ q : Fin N, i = ix1 q := ⟨i 0, eq_ix1 i⟩
  exact shapeCast_a_1a_apply b hc (0 : Fin 1) q

/-- At the ideal instance a change of float format leaves every entry as it is. -/
theorem truncf_eq {s : Shape} {φ ψ : FTy} (a : FVec Ideal s φ) (h : ψ.bits < φ.bits) :
    (truncf ψ a h : FVec Ideal s ψ) = a := rfl

/-- The vector unit's "add the one-row array to every row of the tile" is `addRow` of that row. -/
theorem addf_bcastRow (y : FVec Ideal ⟨2, ![M, N]⟩ .f32) (brow : FVec Ideal ⟨2, ![1, N]⟩ .f32)
    (hb : (⟨2, ![1, N]⟩ : Shape).Broadcasts ⟨2, ![M, N]⟩) :
    addf y (broadcastTo ⟨2, ![M, N]⟩ brow hb) = addRow y (rowVec brow) := by
  funext i
  obtain ⟨p, q, rfl⟩ : ∃ (p : Fin M) (q : Fin N), i = ix2 p q := ⟨i 0, i 1, eq_ix2 i⟩
  rw [addf_apply, broadcastTo_1b_ab_apply brow hb p q]
  rfl

/-- Followed by the maximum with a tile of zeros it is `reluRow` of that row. -/
theorem maximumf_addf_bcastRow (y : FVec Ideal ⟨2, ![M, N]⟩ .f32) (brow : FVec Ideal ⟨2, ![1, N]⟩ .f32)
    (hb : (⟨2, ![1, N]⟩ : Shape).Broadcasts ⟨2, ![M, N]⟩) :
    maximumf (addf y (broadcastTo ⟨2, ![M, N]⟩ brow hb))
        (broadcast ⟨2, ![M, N]⟩ (Scalar.ofBits (F := Ideal) .f32 0x00000000#32))
      = reluRow y (rowVec brow) := by
  rw [addf_bcastRow y brow hb]
  funext i
  rw [maximumf_apply, broadcast_apply]
  show max _ (Ideal.ofBits .f32 0x00000000#32) = _
  rw [Ideal.ofBits_zero_f32]
  rfl

end Cert.RowTile

end
-- ==== Proof.Spec.lean ====
/-
  The function both programs compute, as extended reals: a two-layer graph convolution followed by the logarithm
  of the logistic function.  With A₀, A₁ the two adjacency matrices of the stack,

      s₁ = x · W₁,   h = max (A₀ · s₁ + b₁) 0,   s₂ = h · W₂,   o = A₁ · s₂ + b₂,   out = logσ o,

  every product a rows-by-columns product (entry (p, q) the sum over k of l(p, k) · r(k, q)), every bias a vector
  added to each row, and logσ o = min o 0 − log (1 + exp (0 − |o|)), which is log (1 / (1 + exp (−o))) on the reals
  and reads ⊥ ↦ ⊥, ⊤ ↦ 0 at the infinities.
-/
import Idealize.ShloMosaic.PureOps.Ideal
import Idealize.ShloMosaic.Lib.ValueIdx
import proofs.«182081_g1666447311259_cont_sun_c4_429_14_alg».proof.Proof.LibRowLayers

noncomputable section

namespace Cert.Gcn

open Idealize.ShloMosaic Idealize.ShloMosaic.ValueIdx Cert.Layers

/-- Matrix `p` of the stack of two adjacency matrices. -/
def adjOf (p : Fin 2) (adj : (⟨3, ![2, 4096, 4096]⟩ : Shape).Idx → EReal) : (⟨2, ![4096, 4096]⟩ : Shape).Idx → EReal :=
  fun i => adj (ix3 p (i 0) (i 1))

theorem adjOf_apply (p : Fin 2) (adj : (⟨3, ![2, 4096, 4096]⟩ : Shape).Idx → EReal) (r n : Fin 4096) :
    adjOf p adj (ix2 r n) = adj (ix3 p r n) := rfl

/-- The first layer's features times its weights. -/
def support1 (x : (⟨2, ![4096, 128]⟩ : Shape).Idx → EReal) (w1 : (⟨2, ![128, 32]⟩ : Shape).Idx → EReal) :
    (⟨2, ![4096, 32]⟩ : Shape).Idx → EReal := rowsTimes x w1

/-- The hidden layer: the first adjacency matrix times `support1`, plus the bias, positive part. -/
def hidden (x : (⟨2, ![4096, 128]⟩ : Shape).Idx → EReal) (adj : (⟨3, ![2, 4096, 4096]⟩ : Shape).Idx → EReal)
    (w1 : (⟨2, ![128, 32]⟩ : Shape).Idx → EReal) (b1 : (⟨1, ![32]⟩ : Shape).Idx → EReal) :
    (⟨2, ![4096, 32]⟩ : Shape).Idx → EReal := reluRow (rowsTimes (adjOf 0 adj) (support1 x w1)) b1

/-- The hidden layer times the second layer's weights. -/
def support2 (x : (⟨2, ![4096, 128]⟩ : Shape).Idx → EReal) (adj : (⟨3, ![2, 4096, 4096]⟩ : Shape).Idx → EReal)
    (w1 : (⟨2, ![128, 32]⟩ : Shape).Idx → EReal) (b1 : (⟨1, ![32]⟩ : Shape).Idx → EReal)
    (w2 : (⟨2, ![32, 16]⟩ : Shape).Idx → EReal) : (⟨2, ![4096, 16]⟩ : Shape).Idx → EReal :=
  rowsTimes (hidden x adj w1 b1) w2

/-- The second layer before the logistic: the second adjacency matrix times `support2`, plus the bias. -/
def logits (x : (⟨2, ![4096, 128]⟩ : Shape).Idx → EReal) (adj : (⟨3, ![2, 4096, 4096]⟩ : Shape).Idx → EReal)
    (w1 : (⟨2, ![128, 32]⟩ : Shape).Idx → EReal) (b1 : (⟨1, ![32]⟩ : Shape).Idx → EReal)
    (w2 : (⟨2, ![32, 16]⟩ : Shape).Idx → EReal) (b2 : (⟨1, ![16]⟩ : Shape).Idx → EReal) :
    (⟨2, ![4096, 16]⟩ : Shape).Idx → EReal :=
  addRow (rowsTimes (adjOf 1 adj) (support2 x adj w1 b1 w2)) b2

/-- The logarithm of the logistic function, in the numerically stable spelling. -/
def logSig (o : EReal) : EReal := min o 0 - Ideal.log1p (Ideal.exp (0 - max o (-o)))

/-- The network's output. -/
def out (x : (⟨2, ![4096, 128]⟩ : Shape).Idx → EReal) (adj : (⟨3, ![2, 4096, 4096]⟩ : Shape).Idx → EReal)
    (w1 : (⟨2, ![128, 32]⟩ : Shape).Idx → EReal) (b1 : (⟨1, ![32]⟩ : Shape).Idx → EReal)
    (w2 : (⟨2, ![32, 16]⟩ : Shape).Idx → EReal) (b2 : (⟨1, ![16]⟩ : Shape).Idx → EReal) :
    (⟨2, ![4096, 16]⟩ : Shape).Idx → EReal :=
  fun i => logSig (logits x adj w1 b1 w2 b2 i)

end Cert.Gcn

end
-- ==== Proof.Payloads.lean ====
import proofs.«182081_g1666447311259_cont_sun_c4_429_14_alg».proof.Proof.Gen.KernelIdeal.Skeleton
import proofs.«182081_g1666447311259_cont_sun_c4_429_14_alg».proof.Proof.LibPlainDot
import proofs.«182081_g1666447311259_cont_sun_c4_429_14_alg».proof.Proof.LibRowLayers
import proofs.«182081_g1666447311259_cont_sun_c4_429_14_alg».proof.Proof.LibRowTile
import proofs.«182081_g1666447311259_cont_sun_c4_429_14_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# What each store of the two kernels writes, entry by entry, over the extended reals

The packing kernel writes one array of 4136 rows of 32 columns: the first layer's features times its weights
(rows 0 to 4095), the first bias as one row, the second bias and the second layer's weights each widened from 16
to 32 columns by columns of zeros. The convolution kernel then reads those pieces back. Each value a store writes is a
pure function of the values loaded before it; here each of these functions is read at an index:

* a change of shape to the same shape is the identity;
* a product into an accumulator of zeros is the plain sum over the contracted index;
* a one-row array repeated down a tile and added is the bias of the column; the maximum with a tile of zeros keeps
  the positive part;
* the first sixteen columns of a tile, followed lane by lane by `min o 0 − log (1 + exp (0 − |o|))`, is the logarithm
  of the logistic function of those columns;
* the first sixteen columns of a piece widened by zeros are the piece itself.
-/

noncomputable section

namespace Cert.KernelIdeal.Pay

open Idealize.ShloMosaic Idealize.ShloMosaic.ValueIdx
open scoped BigOperators

/-- Column `j` of sixteen, as a column of thirty-two. -/
abbrev col32 (j : Fin 16) : Fin 32 := Fin.castLE (by decide) j

theorem col32_val (j : Fin 16) : (col32 j).val = j.val := rfl

/-! ## The convolution kernel -/

/-- The copy of the packed product into the first scratch array: two changes of shape to the same shape. -/
theorem pay1_apply (v : Vec Ideal S4096x32 .f32) (i : S4096x32.Idx) : Gen.k1_pay1 (F := Ideal) v i = v i := by
  unfold Gen.k1_pay1
  rw [shapeCast_self, shapeCast_self]

/-- The hidden layer times the widened second weights: entry `(n, q)` is the sum over the 32 hidden columns. -/
theorem pay2_apply (h : Vec Ideal S4096x32 .f32) (w : Vec Ideal S32x32 .f32) (n : Fin 4096) (q : Fin 32) :
    Gen.k1_pay2 (F := Ideal) h w (ix2 n q) = ∑ k : Fin 32, h (ix2 n k) * w (ix2 k q) := by
  unfold Gen.k1_pay2
  rw [shapeCast_self, shapeCast_self]
  exact LibPlainDot.matmul_zero_apply _ ⟨rfl, rfl, rfl, rfl, rfl, rfl⟩ none h w n q

/-- A tile of 512 rows of the adjacency matrix times the 4096 rows of the support: entry `(p, q)` is the sum over
    the 4096 nodes. The tile arrives with a leading axis of extent one. -/
theorem pay3_apply (a : Vec Ideal S1x512x4096 .f32) (s : Vec Ideal S4096x32 .f32) (p : Fin 512) (q : Fin 32) :
    Gen.k1_pay3 (F := Ideal) a s (ix2 p q) = ∑ n : Fin 4096, a (ix3 (0 : Fin 1) p n) * s (ix2 n q) := by
  unfold Gen.k1_pay3
  refine (LibPlainDot.matmul_zero_apply _ ⟨rfl, rfl, rfl, rfl, rfl, rfl⟩ none _ s p q).trans ?_
  refine Finset.sum_congr rfl fun n _ => ?_
  rw [shapeCast_1ab_ab_apply]

/-- The first layer on a tile: the product, plus the bias row, positive part. -/
theorem pay4_apply (a : Vec Ideal S1x512x4096 .f32) (s : Vec Ideal S4096x32 .f32) (brow : Vec Ideal S1x32 .f32)
    (p : Fin 512) (q : Fin 32) :
    Gen.k1_pay4 (F := Ideal) a s brow (ix2 p q)
      = max ((∑ n : Fin 4096, a (ix3 (0 : Fin 1) p n) * s (ix2 n q)) + brow (ix2 (0 : Fin 1) q)) 0 := by
  unfold Gen.k1_pay4
  rw [shapeCast_self, shapeCast_self, maximumf_apply, addf_apply, broadcast_apply, broadcastTo_1b_ab_apply, pay3_apply]
  show max _ (Ideal.ofBits .f32 0x00000000#32) = _
  rw [Ideal.ofBits_zero_f32]

/-- The lane-by-lane tail of the second layer is the logarithm of the logistic function. -/
theorem logSig_lanes {S : Shape} (y : FVec Ideal S .f32) (i : S.Idx) :
    subf (minimumf y (broadcast S (Scalar.ofBits (F := Ideal) .f32 0x00000000#32)))
        (log1p (exp (subf (broadcast S (Scalar.ofBits (F := Ideal) .f32 0x00000000#32)) (absf y)))) i
      = Cert.Gcn.logSig (y i) := by
  show min (y i) (Ideal.ofBits .f32 0x00000000#32)
      - Ideal.log1p (Ideal.exp (Ideal.ofBits .f32 0x00000000#32 - max (y i) (-(y i)))) = _
  rw [Ideal.ofBits_zero_f32]
  rfl

/-- The second layer on a tile: the first sixteen columns of the product, plus the bias row, then the logarithm of
    the logistic function. -/
theorem pay5_apply (a : Vec Ideal S1x512x4096 .f32) (s : Vec Ideal S4096x32 .f32) (b2row : Vec Ideal S1x16 .f32)
    (p : Fin 512) (j : Fin 16) :
    Gen.k1_pay5 (F := Ideal) a s b2row (ix2 p j)
      = Cert.Gcn.logSig ((∑ n : Fin 4096, a (ix3 (0 : Fin 1) p n) * s (ix2 n (col32 j))) + b2row (ix2 (0 : Fin 1) j)) := by
  unfold Gen.k1_pay5
  rw [logSig_lanes, addf_apply, broadcastTo_1b_ab_apply, shapeCast_self,
    slice2_axis1_apply 0 _ _ p j (col32 j) (Nat.zero_add _).symm, pay3_apply]

/-! ## The packing kernel -/

/-- The features times the first weights, all 4096 rows at once. -/
theorem pack1_eq (x : Vec Ideal S4096x128 .f32) (w1 : Vec Ideal S128x32 .f32) :
    Gen.k0_pay1 (F := Ideal) x w1 = Cert.Layers.rowsTimes x w1 := by
  unfold Gen.k0_pay1
  exact Cert.Layers.matmul_zero_eq _ ⟨rfl, rfl, rfl, rfl, rfl, rfl⟩ none x w1

/-- The first bias row is stored as it is. -/
theorem pack2_apply (v : Vec Ideal S1x32 .f32) (i : S1x32.Idx) : Gen.k0_pay2 (F := Ideal) v i = v i := by
  unfold Gen.k0_pay2
  rw [shapeCast_self]

/-- The second bias row followed by sixteen columns of zeros: the first sixteen columns are the row. -/
theorem pack3_apply (v : Vec Ideal S1x16 .f32) (j : Fin 16) :
    Gen.k0_pay3 (F := Ideal) v (ix2 (0 : Fin 1) (col32 j)) = v (ix2 (0 : Fin 1) j) := by
  unfold Gen.k0_pay3
  rw [concatenate_pair_apply_left (s₁ := S1x16) (s₂ := S1x16) (1 : Fin 2) _ _ _ (ix2 (0 : Fin 1) (col32 j)) rfl (ix2 (0 : Fin 1) j)
        (fun b => by match b with | ⟨0, _⟩ => rfl | ⟨1, _⟩ => rfl),
    shapeCast_self]

/-- The second weights followed by sixteen columns of zeros: the first sixteen columns are the weights. -/
theorem pack4_apply (w : Vec Ideal S32x16 .f32) (k : Fin 32) (j : Fin 16) :
    Gen.k0_pay4 (F := Ideal) w (ix2 k (col32 j)) = w (ix2 k j) := by
  unfold Gen.k0_pay4
  rw [concatenate_pair_apply_left (s₁ := S32x16) (s₂ := S32x16) (1 : Fin 2) _ _ _ (ix2 k (col32 j)) rfl (ix2 k j)
        (fun b => by match b with | ⟨0, _⟩ => rfl | ⟨1, _⟩ => rfl)]

/-! ## The widened weights give the same product -/

/-- A product with weights widened from 16 to 32 columns, read in one of the first sixteen columns, is the product
    with the weights themselves: the sum only meets the column it is read at. -/
theorem padded_product (h : (⟨2, ![4096, 32]⟩ : Shape).Idx → EReal) (wpad : (⟨2, ![32, 32]⟩ : Shape).Idx → EReal)
    (w2 : (⟨2, ![32, 16]⟩ : Shape).Idx → EReal)
    (hw : ∀ (k : Fin 32) (j : Fin 16), wpad (ix2 k (col32 j)) = w2 (ix2 k j)) (n : Fin 4096) (j : Fin 16) :
    ∑ k : Fin 32, h (ix2 n k) * wpad (ix2 k (col32 j)) = Cert.Layers.rowsTimes h w2 (ix2 n j) := by
  rw [Cert.Layers.rowsTimes_apply]
  exact Finset.sum_congr rfl fun k _ => by rw [hw k j]

end Cert.KernelIdeal.Pay

end
-- ==== Proof.Tiles.lean ====
import proofs.«182081_g1666447311259_cont_sun_c4_429_14_alg».proof.Proof.Payloads
import proofs.«182081_g1666447311259_cont_sun_c4_429_14_alg».proof.Proof.Reg1Runs
import proofs.«182081_g1666447311259_cont_sun_c4_429_14_alg».proof.Proof.Spec
import Idealize.ShloMosaic.Lib.Pipeline.Value
import Idealize.ShloMosaic.Lib.Pipeline.FrameBody

/-!
# What a grid point of the convolution kernel leaves, entry by entry, and which rows of the network it is

The convolution kernel reads its constants from one packed array of 4136 rows of 32 columns:

* rows 0 to 4095: the first layer's support (features times first weights);
* row 4096: the first bias;
* row 4097, columns 0 to 15: the second bias;
* rows 4104 to 4135: the second weights, widened to 32 columns.

A load through a rectangle at row offset `r₀` reads the array at row `r₀ +` the local row; a load or a single store
through the whole shape is the contents or the payload itself. With the payloads read at an index this gives each
of the four functions a grid point computes as a formula in the packed array's entries (part 1).

Part 2 identifies them with rows of the network: when the adjacency tile holds rows `512·t + p` of a matrix of the
stack, the selector holds the layer's support and the packed rows hold the bias, the hidden tile is rows
`512·t + p` of the hidden layer and the output tile is rows `512·t + p` of the network's output; the selector of the
second phase, read in its first sixteen columns, is the second layer's support.
-/

noncomputable section

namespace Cert.KernelIdeal.Pay

open Idealize.ShloMosaic Idealize.ShloMosaic.ValueIdx
open scoped BigOperators

/-! ## Rows of the packed array -/

/-- Row `n` of the support block. -/
abbrev rowS (n : Fin 4096) : Fin 4136 := Fin.castLE (by decide) n
/-- The row of the first bias. -/
abbrev rowB1 : Fin 4136 := ⟨4096, by decide⟩
/-- The row of the second bias. -/
abbrev rowB2 : Fin 4136 := ⟨4097, by decide⟩
/-- Row `k` of the widened second weights. -/
abbrev rowW2 (k : Fin 32) : Fin 4136 := ⟨4104 + k.val, by have := k.isLt; omega⟩

/-- Row `p` of tile `t` of eight tiles of 512 rows. -/
abbrev tileRow (t : Fin 8) (p : Fin 512) : Fin 4096 := ⟨512 * t.val + p.val, by have := t.isLt; have := p.isLt; omega⟩

theorem tileRow_val (t : Fin 8) (p : Fin 512) : (tileRow t p).val = 512 * t.val + p.val := rfl

/-- Three zero offsets, however they are spelt. -/
theorem zeros3 : (![0, 0, 0] : Fin 3 → Nat) = fun _ => 0 := funext fun a => by fin_cases a <;> rfl

/-! ## Loads through the packed array's rectangles -/

theorem ld_pkS1 (pk : Vec Ideal S4136x32 .f32) (n : Fin 4096) (q : Fin 32) :
    View.ld pk Hand.rPkS1 (ix2 n q) = pk (ix2 (rowS n) q) :=
  congrArg pk (funext fun a => Fin.ext (by
    match a with
    | ⟨0, _⟩ => show 0 + 1 * n.val = n.val; omega
    | ⟨1, _⟩ => show 0 + 1 * q.val = q.val; omega))

theorem ld_pkB1 (pk : Vec Ideal S4136x32 .f32) (q : Fin 32) :
    View.ld pk Hand.rPkB1 (ix2 (0 : Fin 1) q) = pk (ix2 rowB1 q) :=
  congrArg pk (funext fun a => Fin.ext (by
    match a with
    | ⟨0, _⟩ => rfl
    | ⟨1, _⟩ => show 0 + 1 * q.val = q.val; omega))

theorem ld_pkB2 (pk : Vec Ideal S4136x32 .f32) (j : Fin 16) :
    View.ld pk Hand.rPkB2 (ix2 (0 : Fin 1) j) = pk (ix2 rowB2 (col32 j)) :=
  congrArg pk (funext fun a => Fin.ext (by
    match a with
    | ⟨0, _⟩ => rfl
    | ⟨1, _⟩ => show 0 + 1 * j.val = j.val; omega))

theorem ld_pkW2 (pk : Vec Ideal S4136x32 .f32) (k q : Fin 32) :
    View.ld pk Hand.rPkW2 (ix2 k q) = pk (ix2 (rowW2 k) q) :=
  congrArg pk (funext fun a => Fin.ext (by
    match a with
    | ⟨0, _⟩ => show 4104 + 1 * k.val = 4104 + k.val; omega
    | ⟨1, _⟩ => show 0 + 1 * q.val = q.val; omega))

/-! ## Part 1: the four functions at an index -/

/-- The selector of the first phase is the support block of the packed array. -/
theorem selA_apply (pk : Vec Ideal S4136x32 .f32) (n : Fin 4096) (q : Fin 32) :
    Hand.selA (F := Ideal) pk (ix2 n q) = pk (ix2 (rowS n) q) := by
  unfold Hand.selA
  rw [View.canon_unit_zero Cert.Layers.zeros2, pay1_apply, ld_pkS1]

/-- A tile of the hidden layer: adjacency rows times the selector, plus the packed first bias, positive part. -/
theorem hidTile_apply (a : Vec Ideal S1x512x4096 .f32) (pk : Vec Ideal S4136x32 .f32) (sel : Vec Ideal S4096x32 .f32)
    (p : Fin 512) (q : Fin 32) :
    Hand.hidTile (F := Ideal) a pk sel (ix2 p q)
      = max ((∑ n : Fin 4096, a (ix3 (0 : Fin 1) p n) * sel (ix2 n q)) + pk (ix2 rowB1 q)) 0 := by
  unfold Hand.hidTile
  rw [View.ld_unit_zero (S := S1x512x4096) zeros3, View.ld_unit_zero (S := S4096x32) Cert.Layers.zeros2, pay4_apply, ld_pkB1]

/-- The selector of the second phase: the hidden layer times the packed, widened second weights. -/
theorem selC_apply (pk : Vec Ideal S4136x32 .f32) (hb : Vec Ideal S4096x32 .f32) (n : Fin 4096) (q : Fin 32) :
    Hand.selC (F := Ideal) pk hb (ix2 n q) = ∑ k : Fin 32, hb (ix2 n k) * pk (ix2 (rowW2 k) q) := by
  unfold Hand.selC
  rw [View.canon_unit_zero Cert.Layers.zeros2, View.ld_unit_zero (S := S4096x32) Cert.Layers.zeros2, pay2_apply]
  exact Finset.sum_congr rfl fun k _ => by rw [ld_pkW2]

/-- A tile of the output: adjacency rows times the selector's first sixteen columns, plus the packed second bias,
    then the logarithm of the logistic function. -/
theorem outTile_apply (a : Vec Ideal S1x512x4096 .f32) (pk : Vec Ideal S4136x32 .f32) (sel : Vec Ideal S4096x32 .f32)
    (p : Fin 512) (j : Fin 16) :
    Hand.outTile (F := Ideal) a pk sel (ix2 p j)
      = Cert.Gcn.logSig ((∑ n : Fin 4096, a (ix3 (0 : Fin 1) p n) * sel (ix2 n (col32 j))) + pk (ix2 rowB2 (col32 j))) := by
  unfold Hand.outTile
  rw [View.canon_unit_zero Cert.Layers.zeros2, View.ld_unit_zero (S := S1x512x4096) zeros3,
    View.ld_unit_zero (S := S4096x32) Cert.Layers.zeros2, pay5_apply, ld_pkB2]

/-! ## Part 2: the rows of the network -/

section Network

variable (x : (⟨2, ![4096, 128]⟩ : Shape).Idx → EReal) (adj : (⟨3, ![2, 4096, 4096]⟩ : Shape).Idx → EReal)
  (w1 : (⟨2, ![128, 32]⟩ : Shape).Idx → EReal) (b1 : (⟨1, ![32]⟩ : Shape).Idx → EReal)
  (w2 : (⟨2, ![32, 16]⟩ : Shape).Idx → EReal) (b2 : (⟨1, ![16]⟩ : Shape).Idx → EReal)

/-- Tile `t` of the hidden layer. -/
theorem hidden_row (a : Vec Ideal S1x512x4096 .f32) (pk : Vec Ideal S4136x32 .f32) (sel : Vec Ideal S4096x32 .f32) (t : Fin 8)
    (ha : ∀ (p : Fin 512) (n : Fin 4096), a (ix3 (0 : Fin 1) p n) = adj (ix3 (0 : Fin 2) (tileRow t p) n))
    (hsel : ∀ (n : Fin 4096) (q : Fin 32), sel (ix2 n q) = Cert.Gcn.support1 x w1 (ix2 n q))
    (hb1 : ∀ q : Fin 32, pk (ix2 rowB1 q) = b1 (ix1 q)) (p : Fin 512) (q : Fin 32) :
    Hand.hidTile (F := Ideal) a pk sel (ix2 p q) = Cert.Gcn.hidden x adj w1 b1 (ix2 (tileRow t p) q) := by
  have hs : ∑ n : Fin 4096, a (ix3 (0 : Fin 1) p n) * sel (ix2 n q)
      = ∑ n : Fin 4096, Cert.Gcn.adjOf 0 adj (ix2 (tileRow t p) n) * Cert.Gcn.support1 x w1 (ix2 n q) :=
    Finset.sum_congr rfl fun n _ => by rw [ha p n, hsel n q, Cert.Gcn.adjOf_apply]
  rw [hidTile_apply, hs, hb1 q]
  unfold Cert.Gcn.hidden
  rw [Cert.Layers.reluRow_apply, Cert.Layers.rowsTimes_apply]

/-- The selector of the second phase, in its first sixteen columns, is the second layer's support. -/
theorem support2_row (pk : Vec Ideal S4136x32 .f32) (hb : Vec Ideal S4096x32 .f32)
    (hhb : ∀ (n : Fin 4096) (k : Fin 32), hb (ix2 n k) = Cert.Gcn.hidden x adj w1 b1 (ix2 n k))
    (hw2 : ∀ (k : Fin 32) (j : Fin 16), pk (ix2 (rowW2 k) (col32 j)) = w2 (ix2 k j)) (n : Fin 4096) (j : Fin 16) :
    Hand.selC (F := Ideal) pk hb (ix2 n (col32 j)) = Cert.Gcn.support2 x adj w1 b1 w2 (ix2 n j) := by
  rw [selC_apply]
  unfold Cert.Gcn.support2
  rw [Cert.Layers.rowsTimes_apply]
  exact Finset.sum_congr rfl fun k _ => by rw [hhb n k, hw2 k j]

/-- Tile `t` of the network's output. -/
theorem out_row (a : Vec Ideal S1x512x4096 .f32) (pk : Vec Ideal S4136x32 .f32) (sel : Vec Ideal S4096x32 .f32) (t : Fin 8)
    (ha : ∀ (p : Fin 512) (n : Fin 4096), a (ix3 (0 : Fin 1) p n) = adj (ix3 (1 : Fin 2) (tileRow t p) n))
    (hsel : ∀ (n : Fin 4096) (j : Fin 16), sel (ix2 n (col32 j)) = Cert.Gcn.support2 x adj w1 b1 w2 (ix2 n j))
    (hb2 : ∀ j : Fin 16, pk (ix2 rowB2 (col32 j)) = b2 (ix1 j)) (p : Fin 512) (j : Fin 16) :
    Hand.outTile (F := Ideal) a pk sel (ix2 p j) = Cert.Gcn.out x adj w1 b1 w2 b2 (ix2 (tileRow t p) j) := by
  have hs : ∑ n : Fin 4096, a (ix3 (0 : Fin 1) p n) * sel (ix2 n (col32 j))
      = ∑ n : Fin 4096, Cert.Gcn.adjOf 1 adj (ix2 (tileRow t p) n) * Cert.Gcn.support2 x adj w1 b1 w2 (ix2 n j) :=
    Finset.sum_congr rfl fun n _ => by rw [ha p n, hsel n j, Cert.Gcn.adjOf_apply]
  rw [outTile_apply, hs, hb2 j]
  show _ = Cert.Gcn.logSig (Cert.Layers.addRow (Cert.Layers.rowsTimes (Cert.Gcn.adjOf 1 adj)
      (Cert.Gcn.support2 x adj w1 b1 w2)) b2 (ix2 (tileRow t p) j))
  rw [Cert.Layers.addRow_apply, Cert.Layers.rowsTimes_apply]

end Network

end Cert.KernelIdeal.Pay

end
-- ==== Proof.Reg1Value.lean ====
import proofs.«182081_g1666447311259_cont_sun_c4_429_14_alg».proof.Proof.Reg1
import proofs.«182081_g1666447311259_cont_sun_c4_429_14_alg».proof.Proof.Tiles
import proofs.«182081_g1666447311259_cont_sun_c4_429_14_alg».proof.Proof.Spec
import Idealize.ShloMosaic.Lib.Pipeline.Value

/-!
# The convolution kernel's output array, as one function of the arrays it reads

The kernel runs sixteen grid points. The first eight fill the hidden layer 512 rows at a time; the last eight each
compute 512 rows of the output and write them back, point `8 + k` writing rows `512·k` to `512·k + 511`. The adjacency
tile of point `t` is rows `512·(t mod 8)` onwards of matrix `t / 8` of the stack, and every point sees the whole packed
array. When the packed array holds the first layer's support, the two biases and the second weights in its rows,
what each point computes is the corresponding rows of the network; the eight written blocks tile the output array,
so the array ends as the network's output.
-/

noncomputable section

namespace Cert.KernelIdeal.HandValue

open Cert.KernelIdeal Cert.KernelIdeal.Gen
open Idealize.ShloMosaic Idealize.ShloMosaic.TcCoe Idealize.SL.Sem Idealize.ShloMosaic.ValueIdx
open Idealize.ShloMosaic.Pipeline (Dat)

/-! ## The index maps over the grid -/

/-- The adjacency window at point `t`: matrix `t / 8`, row block `t mod 8`, all columns. -/
theorem adjIdx : ∀ t : Fin cfg1.N, win1_0.index t (0 : Fin 3) = t.val / 8 ∧ win1_0.index t (1 : Fin 3) = t.val % 8
    ∧ win1_0.index t (2 : Fin 3) = 0 :=
  (by decide +kernel : ∀ t : Fin grid1.N, win1_0.index t (0 : Fin 3) = t.val / 8 ∧ win1_0.index t (1 : Fin 3) = t.val % 8
    ∧ win1_0.index t (2 : Fin 3) = 0)

/-- The packed array's window is the whole array at every point. -/
theorem pkIdx : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- In the second phase point `t` addresses row block `t - 8` of the output. -/
theorem outIdx : ∀ t : Fin cfg1.N, 8 ≤ t.val → win1_2.index t (0 : Fin 2) = t.val - 8 ∧ win1_2.index t (1 : Fin 2) = 0 :=
  (by decide +kernel : ∀ t : Fin grid1.N, 8 ≤ t.val → win1_2.index t (0 : Fin 2) = t.val - 8 ∧ win1_2.index t (1 : Fin 2) = 0)

/-- The output window is written back exactly at the points of the second phase. -/
theorem flushOut : ∀ t : Fin cfg1.N, (cfg1.win 2).flush t = true ↔ 8 ≤ t.val :=
  (by decide +kernel : ∀ t : Fin grid1.N, win1_2.flush t = true ↔ 8 ≤ t.val)

theorem lt16 (t : Fin cfg1.N) : t.val < 16 := by
  have h := t.isLt
  have e : cfg1.N = 16 := N_1
  omega

variable (V : (c : Dev nD) → (b : Ref sig .tc) → Buf (Elt Ideal) ((c : Thread nD τ).loc b)) (c : Dev nD)

/-! ## The input blocks, read where the arrays say -/

/-- Every point sees the packed array itself. -/
theorem pk_read (t : Fin cfg1.N) (i : S4136x32.Idx) : Hand.pkAt V c t i = V c main_call0_v2 i := by
  show V c main_call0_v2 (((cfg1.win 1).blk t).view.emb i) = V c main_call0_v2 i
  obtain ⟨e0, e1⟩ := pkIdx t
  refine congrArg (V c main_call0_v2) (funext fun a => Fin.ext ?_)
  match a with
  | ⟨0, _⟩ => show win1_1.index t (0 : Fin 2) * 4136 + 1 * (i (0 : Fin 2)).val = (i (0 : Fin 2)).val; omega
  | ⟨1, _⟩ => show win1_1.index t (1 : Fin 2) * 32 + 1 * (i (1 : Fin 2)).val = (i (1 : Fin 2)).val; omega

/-- Row `p` of point `t`'s adjacency tile is row `512·(t mod 8) + p` of matrix `t / 8`. -/
theorem adj_read (t : Fin cfg1.N) (p : Fin 512) (n : Fin 4096) (P : Fin 2) (R : Fin 4096)
    (hP : P.val = t.val / 8) (hR : R.val = 512 * (t.val % 8) + p.val) :
    Hand.adjAt V c t (ix3 (0 : Fin 1) p n) = V c main_arg1 (ix3 P R n) := by
  show V c main_arg1 (((cfg1.win 0).blk t).view.emb (ix3 (0 : Fin 1) p n)) = V c main_arg1 (ix3 P R n)
  obtain ⟨e0, e1, e2⟩ := adjIdx t
  refine congrArg (V c main_arg1) (funext fun a => Fin.ext ?_)
  match a with
  | ⟨0, _⟩ => show win1_0.index t (0 : Fin 3) * 1 + 1 * 0 = P.val; omega
  | ⟨1, _⟩ => show win1_0.index t (1 : Fin 3) * 512 + 1 * p.val = R.val; omega
  | ⟨2, _⟩ => show win1_0.index t (2 : Fin 3) * 4096 + 1 * n.val = n.val; omega

/-! ## What the points compute, as rows of the network -/

/-- The selector of the first phase is the first layer's support. -/
theorem s1_apply (x : (⟨2, ![4096, 128]⟩ : Shape).Idx → EReal) (w1 : (⟨2, ![128, 32]⟩ : Shape).Idx → EReal)
    (hS : ∀ (n : Fin 4096) (q : Fin 32), V c main_call0_v2 (ix2 (Pay.rowS n) q) = Cert.Gcn.support1 x w1 (ix2 n q))
    (n : Fin 4096) (q : Fin 32) : Hand.s1 V c (ix2 n q) = Cert.Gcn.support1 x w1 (ix2 n q) := by
  unfold Hand.s1
  exact (Pay.selA_apply (Hand.pkAt V c Hand.tFirst) n q).trans ((pk_read V c Hand.tFirst (ix2 (Pay.rowS n) q)).trans (hS n q))

/-- A point of the first phase computes its 512 rows of the hidden layer. -/
theorem hidAt_apply (x : (⟨2, ![4096, 128]⟩ : Shape).Idx → EReal) (w1 : (⟨2, ![128, 32]⟩ : Shape).Idx → EReal) (b1 : (⟨1, ![32]⟩ : Shape).Idx → EReal)
    (hS : ∀ (n : Fin 4096) (q : Fin 32), V c main_call0_v2 (ix2 (Pay.rowS n) q) = Cert.Gcn.support1 x w1 (ix2 n q))
    (hB1 : ∀ q : Fin 32, V c main_call0_v2 (ix2 Pay.rowB1 q) = b1 (ix1 q))
    (t : Fin cfg1.N) (ht : t.val < 8) (p : Fin 512) (q : Fin 32) :
    Hand.hidAt V c t (ix2 p q) = Cert.Gcn.hidden x (V c main_arg1) w1 b1 (ix2 (Pay.tileRow ⟨t.val, ht⟩ p) q) := by
  unfold Hand.hidAt
  exact Pay.hidden_row (x := x) (adj := V c main_arg1) (w1 := w1) (b1 := b1) (Hand.adjAt V c t) (Hand.pkAt V c t) (Hand.s1 V c) ⟨t.val, ht⟩
    (fun p n => adj_read V c t p n (0 : Fin 2) (Pay.tileRow ⟨t.val, ht⟩ p) (by show 0 = t.val / 8; omega)
      (by show 512 * t.val + p.val = 512 * (t.val % 8) + p.val; omega))
    (fun n q => s1_apply V c x w1 hS n q)
    (fun q => (pk_read V c t (ix2 Pay.rowB1 q)).trans (hB1 q)) p q

/-- The same at any index of the tile and the matching index of the layer. -/
theorem hidAt_at (x : (⟨2, ![4096, 128]⟩ : Shape).Idx → EReal) (w1 : (⟨2, ![128, 32]⟩ : Shape).Idx → EReal) (b1 : (⟨1, ![32]⟩ : Shape).Idx → EReal)
    (hS : ∀ (n : Fin 4096) (q : Fin 32), V c main_call0_v2 (ix2 (Pay.rowS n) q) = Cert.Gcn.support1 x w1 (ix2 n q))
    (hB1 : ∀ q : Fin 32, V c main_call0_v2 (ix2 Pay.rowB1 q) = b1 (ix1 q))
    (t : Fin cfg1.N) (ht : t.val < 8) (j : S512x32.Idx) (y : S4096x32.Idx)
    (h0 : (y (0 : Fin 2)).val = 512 * t.val + (j (0 : Fin 2)).val) (h1 : (y (1 : Fin 2)).val = (j (1 : Fin 2)).val) :
    Hand.hidAt V c t j = Cert.Gcn.hidden x (V c main_arg1) w1 b1 y := by
  obtain ⟨p, q, rfl⟩ : ∃ (p : Fin 512) (q : Fin 32), j = ix2 p q := ⟨j 0, j 1, eq_ix2 j⟩
  rw [hidAt_apply V c x w1 b1 hS hB1 t ht p q]
  refine congrArg (Cert.Gcn.hidden x (V c main_arg1) w1 b1) (funext fun a => Fin.ext ?_)
  match a with
  | ⟨0, _⟩ => exact h0.symm
  | ⟨1, _⟩ => exact h1.symm

/-- The eight tiles side by side are the hidden layer. -/
theorem hidFull_apply (x : (⟨2, ![4096, 128]⟩ : Shape).Idx → EReal) (w1 : (⟨2, ![128, 32]⟩ : Shape).Idx → EReal) (b1 : (⟨1, ![32]⟩ : Shape).Idx → EReal)
    (hS : ∀ (n : Fin 4096) (q : Fin 32), V c main_call0_v2 (ix2 (Pay.rowS n) q) = Cert.Gcn.support1 x w1 (ix2 n q))
    (hB1 : ∀ q : Fin 32, V c main_call0_v2 (ix2 Pay.rowB1 q) = b1 (ix1 q))
    (r : Fin 4096) (q : Fin 32) : Hand.hidFull V c (ix2 r q) = Cert.Gcn.hidden x (V c main_arg1) w1 b1 (ix2 r q) := by
  unfold Hand.hidFull
  refine hidAt_at V c x w1 b1 hS hB1 (Hand.tileOf (ix2 r q)) (Hand.tileOf_lt (ix2 r q)) _ (ix2 r q) ?_ ?_
  · show r.val = 512 * (r.val / 512) + (r.val - 512 * (r.val / 512))
    omega
  · show q.val = q.val - 0
    omega

/-- The selector of the second phase, in its first sixteen columns, is the second layer's support. -/
theorem s2_apply (x : (⟨2, ![4096, 128]⟩ : Shape).Idx → EReal) (w1 : (⟨2, ![128, 32]⟩ : Shape).Idx → EReal) (b1 : (⟨1, ![32]⟩ : Shape).Idx → EReal) (w2 : (⟨2, ![32, 16]⟩ : Shape).Idx → EReal)
    (hS : ∀ (n : Fin 4096) (q : Fin 32), V c main_call0_v2 (ix2 (Pay.rowS n) q) = Cert.Gcn.support1 x w1 (ix2 n q))
    (hB1 : ∀ q : Fin 32, V c main_call0_v2 (ix2 Pay.rowB1 q) = b1 (ix1 q))
    (hW2 : ∀ (k : Fin 32) (j : Fin 16), V c main_call0_v2 (ix2 (Pay.rowW2 k) (Pay.col32 j)) = w2 (ix2 k j))
    (n : Fin 4096) (j : Fin 16) :
    Hand.s2 V c (ix2 n (Pay.col32 j)) = Cert.Gcn.support2 x (V c main_arg1) w1 b1 w2 (ix2 n j) := by
  unfold Hand.s2
  exact Pay.support2_row (x := x) (adj := V c main_arg1) (w1 := w1) (b1 := b1) (w2 := w2) (Hand.pkAt V c Hand.tMid) (Hand.hidFull V c)
    (fun n k => hidFull_apply V c x w1 b1 hS hB1 n k)
    (fun k j => (pk_read V c Hand.tMid (ix2 (Pay.rowW2 k) (Pay.col32 j))).trans (hW2 k j)) n j

/-- A point of the second phase computes its 512 rows of the output. -/
theorem outAt_apply (x : (⟨2, ![4096, 128]⟩ : Shape).Idx → EReal) (w1 : (⟨2, ![128, 32]⟩ : Shape).Idx → EReal) (b1 : (⟨1, ![32]⟩ : Shape).Idx → EReal) (w2 : (⟨2, ![32, 16]⟩ : Shape).Idx → EReal) (b2 : (⟨1, ![16]⟩ : Shape).Idx → EReal)
    (hS : ∀ (n : Fin 4096) (q : Fin 32), V c main_call0_v2 (ix2 (Pay.rowS n) q) = Cert.Gcn.support1 x w1 (ix2 n q))
    (hB1 : ∀ q : Fin 32, V c main_call0_v2 (ix2 Pay.rowB1 q) = b1 (ix1 q))
    (hB2 : ∀ j : Fin 16, V c main_call0_v2 (ix2 Pay.rowB2 (Pay.col32 j)) = b2 (ix1 j))
    (hW2 : ∀ (k : Fin 32) (j : Fin 16), V c main_call0_v2 (ix2 (Pay.rowW2 k) (Pay.col32 j)) = w2 (ix2 k j))
    (t : Fin cfg1.N) (ht : 8 ≤ t.val) (p : Fin 512) (j : Fin 16) :
    Hand.outAt V c t (ix2 p j)
      = Cert.Gcn.out x (V c main_arg1) w1 b1 w2 b2 (ix2 (Pay.tileRow ⟨t.val - 8, by have := lt16 t; omega⟩ p) j) := by
  have h16 := lt16 t
  unfold Hand.outAt
  exact Pay.out_row (x := x) (adj := V c main_arg1) (w1 := w1) (b1 := b1) (w2 := w2) (b2 := b2) (Hand.adjAt V c t) (Hand.pkAt V c t) (Hand.s2 V c)
    ⟨t.val - 8, by omega⟩
    (fun p n => adj_read V c t p n (1 : Fin 2) (Pay.tileRow ⟨t.val - 8, by omega⟩ p) (by show 1 = t.val / 8; omega)
      (by show 512 * (t.val - 8) + p.val = 512 * (t.val % 8) + p.val; omega))
    (fun n j => s2_apply V c x w1 b1 w2 hS hB1 hW2 n j)
    (fun j => (pk_read V c t (ix2 Pay.rowB2 (Pay.col32 j))).trans (hB2 j)) p j

/-! ## From the written blocks to the array -/

/-- What a point of the second phase writes back is its block of the network's output. -/
theorem flushed_eq (x : (⟨2, ![4096, 128]⟩ : Shape).Idx → EReal) (w1 : (⟨2, ![128, 32]⟩ : Shape).Idx → EReal) (b1 : (⟨1, ![32]⟩ : Shape).Idx → EReal) (w2 : (⟨2, ![32, 16]⟩ : Shape).Idx → EReal) (b2 : (⟨1, ![16]⟩ : Shape).Idx → EReal)
    (hS : ∀ (n : Fin 4096) (q : Fin 32), V c main_call0_v2 (ix2 (Pay.rowS n) q) = Cert.Gcn.support1 x w1 (ix2 n q))
    (hB1 : ∀ q : Fin 32, V c main_call0_v2 (ix2 Pay.rowB1 q) = b1 (ix1 q))
    (hB2 : ∀ j : Fin 16, V c main_call0_v2 (ix2 Pay.rowB2 (Pay.col32 j)) = b2 (ix1 j))
    (hW2 : ∀ (k : Fin 32) (j : Fin 16), V c main_call0_v2 (ix2 (Pay.rowW2 k) (Pay.col32 j)) = w2 (ix2 k j))
    (t : Fin cfg1.N) (hf : (cfg1.win 2).flush t = true) :
    (Hand.dat1 (F := Ideal) V c).flushed 2 t
      = ((cfg1.win 2).blk t).view.read (Elt Ideal) (Cert.Gcn.out x (V c main_arg1) w1 b1 w2 b2) := by
  have ht : 8 ≤ t.val := (flushOut t).mp hf
  have h16 := lt16 t
  obtain ⟨e0, e1⟩ := outIdx t ht
  show (cfg1.win 2).cut (grid1.coords t) ((Hand.dat1 (F := Ideal) V c).after 2 t) = _
  rw [Hand.after1_2]
  funext j
  show Hand.outAt V c t ((cfg1.win 2).xinj (grid1.coords t) j)
    = Cert.Gcn.out x (V c main_arg1) w1 b1 w2 b2 (((cfg1.win 2).blk t).view.emb j)
  refine (congrArg (Hand.outAt V c t) (@eq_ix2 512 16 ((cfg1.win 2).xinj (grid1.coords t) j))).trans ?_
  refine (outAt_apply V c x w1 b1 w2 b2 hS hB1 hB2 hW2 t ht _ _).trans ?_
  refine congrArg (Cert.Gcn.out x (V c main_arg1) w1 b1 w2 b2) (funext fun a => Fin.ext ?_)
  match a with
  | ⟨0, _⟩ =>
    show 512 * (t.val - 8) + (j (0 : Fin 2)).val = win1_2.index t (0 : Fin 2) * 512 + 1 * (j (0 : Fin 2)).val
    omega
  | ⟨1, _⟩ =>
    show (j (1 : Fin 2)).val = win1_2.index t (1 : Fin 2) * 16 + 1 * (j (1 : Fin 2)).val
    omega

/-- An index of the output array is in point `t`'s block iff each coordinate is in the block's range on its axis. -/
theorem mem_blk (t : Fin cfg1.N) (i : S4096x16.Idx) :
    i ∈ ((cfg1.win 2).blk t).view.set
      ↔ ∀ a : Fin 2, win1_2.index t a * S512x16.size a ≤ (i a).val ∧ (i a).val < win1_2.index t a * S512x16.size a + S512x16.size a := by
  show i ∈ ((View.whole main_v0).slice (win1_2.rect t)).set ↔ _
  rw [View.set_slice_whole, Rect.mem_set_unit]
  exact Iff.rfl

/-- Row `r` of the output lies in the block point `8 + r / 512` writes back. -/
theorem cover (i : S4096x16.Idx) : ∃ t : Fin cfg1.N, (cfg1.win 2).flush t = true ∧ i ∈ ((cfg1.win 2).blk t).view.set := by
  have hi0 : (i (0 : Fin 2)).val < 4096 := (i (0 : Fin 2)).isLt
  have hi1 : (i (1 : Fin 2)).val < 16 := (i (1 : Fin 2)).isLt
  have hN : cfg1.N = 16 := N_1
  have hlt : 8 + (i (0 : Fin 2)).val / 512 < cfg1.N := by rw [hN]; omega
  have ht : 8 ≤ (⟨8 + (i (0 : Fin 2)).val / 512, hlt⟩ : Fin cfg1.N).val := Nat.le_add_right _ _
  obtain ⟨e0, e1⟩ := outIdx ⟨8 + (i (0 : Fin 2)).val / 512, hlt⟩ ht
  have e0' : win1_2.index ⟨8 + (i (0 : Fin 2)).val / 512, hlt⟩ (0 : Fin 2) = (i (0 : Fin 2)).val / 512 := by
    rw [e0]; show 8 + (i (0 : Fin 2)).val / 512 - 8 = _; omega
  refine ⟨⟨8 + (i (0 : Fin 2)).val / 512, hlt⟩, (flushOut _).mpr ht, ?_⟩
  rw [mem_blk]
  intro a
  match a with
  | ⟨0, _⟩ =>
    show win1_2.index ⟨8 + (i (0 : Fin 2)).val / 512, hlt⟩ (0 : Fin 2) * 512 ≤ (i (0 : Fin 2)).val
      ∧ (i (0 : Fin 2)).val < win1_2.index ⟨8 + (i (0 : Fin 2)).val / 512, hlt⟩ (0 : Fin 2) * 512 + 512
    rw [e0']; omega
  | ⟨1, _⟩ =>
    show win1_2.index ⟨8 + (i (0 : Fin 2)).val / 512, hlt⟩ (1 : Fin 2) * 16 ≤ (i (1 : Fin 2)).val
      ∧ (i (1 : Fin 2)).val < win1_2.index ⟨8 + (i (0 : Fin 2)).val / 512, hlt⟩ (1 : Fin 2) * 16 + 16
    rw [e1]; omega

/-- After the region the output array holds the network's output. -/
theorem final1 (V : (c : Dev nD) → (b : Ref sig .tc) → Buf (Elt Ideal) ((c : Thread nD τ).loc b)) (c : Dev nD)
    (x : (⟨2, ![4096, 128]⟩ : Shape).Idx → EReal) (w1 : (⟨2, ![128, 32]⟩ : Shape).Idx → EReal) (b1 : (⟨1, ![32]⟩ : Shape).Idx → EReal) (w2 : (⟨2, ![32, 16]⟩ : Shape).Idx → EReal) (b2 : (⟨1, ![16]⟩ : Shape).Idx → EReal)
    (hS : ∀ (n : Fin 4096) (q : Fin 32), V c main_call0_v2 (ix2 (Pay.rowS n) q) = Cert.Gcn.support1 x w1 (ix2 n q))
    (hB1 : ∀ q : Fin 32, V c main_call0_v2 (ix2 Pay.rowB1 q) = b1 (ix1 q))
    (hB2 : ∀ j : Fin 16, V c main_call0_v2 (ix2 Pay.rowB2 (Pay.col32 j)) = b2 (ix1 j))
    (hW2 : ∀ (k : Fin 32) (j : Fin 16), V c main_call0_v2 (ix2 (Pay.rowW2 k) (Pay.col32 j)) = w2 (ix2 k j)) :
    (Hand.dat1 (F := Ideal) V c).arrAt 2 cfg1.N = Cert.Gcn.out x (V c main_arg1) w1 b1 w2 b2 :=
  (Hand.dat1 (F := Ideal) V c).arrAt_eq_of_cover 2 (Cert.Gcn.out x (V c main_arg1) w1 b1 w2 b2)
    (fun t hf => flushed_eq V c x w1 b1 w2 b2 hS hB1 hB2 hW2 t hf) cover

end Cert.KernelIdeal.HandValue

end
-- ==== Proof.HostRows.lean ====
import proofs.«182081_g1666447311259_cont_sun_c4_429_14_alg».proof.Proof.Gen.KernelIdeal.Launch
import proofs.«182081_g1666447311259_cont_sun_c4_429_14_alg».proof.Proof.LibRowTile
import Idealize.ShloMosaic.Lib.StableHlo.Run
import Idealize.ShloMosaic.Lib.ValueIdx
import Idealize.ShloMosaic.Lib.ValueLayout
import Idealize.ShloMosaic.Lib.Pipeline.Value

/-!
# The two bias rows the host prepares

Before the first kernel the host stands each bias vector up as a one-row array: the first bias `[32]` as `[1, 32]`,
the second `[16]` as `[1, 16]`. A change of shape keeps the row-major order, so the one row of the new array is the
vector: entry `(0, q)` is the vector's entry `q`. Each of the two operations writes its own result buffer only, so the
second leaves the first's result alone and every other buffer holds what it held at launch.
-/

noncomputable section

namespace Cert.KernelIdeal.HandValue

open Cert.KernelIdeal Cert.KernelIdeal.Gen
open Idealize.ShloMosaic Idealize.ShloMosaic.TcCoe Idealize.ShloMosaic.ValueIdx
open Idealize.SL.Sem

/-- A core's unscoped buffers at launch. -/
abbrev W0 (m : (ℓ : Loc nD τ sig) → Buf (Elt Ideal) ℓ) (c : Dev nD) : Valuation τ sig (Elt Ideal) := fun b => m (c, b)
/-- The same after the host's two changes of shape. -/
abbrev W1 (m : (ℓ : Loc nD τ sig) → Buf (Elt Ideal) ℓ) (c : Dev nD) : Valuation τ sig (Elt Ideal) :=
  StableHlo.after hostOps0 (W0 m c)

/-- The first result buffer holds the first bias stood up as one row. -/
theorem b1row_eq (m : (ℓ : Loc nD τ sig) → Buf (Elt Ideal) ℓ) (c : Dev nD) :
    (W1 m c (Proc.devRef .tc main_call0_v0) : S1x32.Idx → EReal)
      = shapeCast S1x32 (m ((c : Thread nD τ).loc main_arg3) : S32.Idx → EReal) shapeCasts_S32_S1x32 := by
  dsimp only [W1, W0, hostOps0]
  after_results
  rfl

/-- The second result buffer holds the second bias stood up as one row. -/
theorem b2row_eq (m : (ℓ : Loc nD τ sig) → Buf (Elt Ideal) ℓ) (c : Dev nD) :
    (W1 m c (Proc.devRef .tc main_call0_v1) : S1x16.Idx → EReal)
      = shapeCast S1x16 (m ((c : Thread nD τ).loc main_arg5) : S16.Idx → EReal) shapeCasts_S16_S1x16 := by
  dsimp only [W1, W0, hostOps0]
  after_results
  rfl

/-- Its entry `(0, q)` is the first bias at `q`. -/
theorem b1row_apply (m : (ℓ : Loc nD τ sig) → Buf (Elt Ideal) ℓ) (c : Dev nD) (q : Fin 32) :
    (W1 m c (Proc.devRef .tc main_call0_v0) : S1x32.Idx → EReal) (ix2 (0 : Fin 1) q)
      = (m ((c : Thread nD τ).loc main_arg3) : S32.Idx → EReal) (ix1 q) :=
  (congrFun (b1row_eq m c) (ix2 (0 : Fin 1) q)).trans (shapeCast_a_1a_apply _ shapeCasts_S32_S1x32 (0 : Fin 1) q)

/-- Its entry `(0, j)` is the second bias at `j`. -/
theorem b2row_apply (m : (ℓ : Loc nD τ sig) → Buf (Elt Ideal) ℓ) (c : Dev nD) (j : Fin 16) :
    (W1 m c (Proc.devRef .tc main_call0_v1) : S1x16.Idx → EReal) (ix2 (0 : Fin 1) j)
      = (m ((c : Thread nD τ).loc main_arg5) : S16.Idx → EReal) (ix1 j) :=
  (congrFun (b2row_eq m c) (ix2 (0 : Fin 1) j)).trans (shapeCast_a_1a_apply _ shapeCasts_S16_S1x16 (0 : Fin 1) j)

/-- Every other buffer holds what it held at launch. -/
theorem arg_kept (m : (ℓ : Loc nD τ sig) → Buf (Elt Ideal) ℓ) (c : Dev nD) (b : Ref sig .tc)
    (hb : b ≠ main_call0_v0 ∧ b ≠ main_call0_v1) :
    W1 m c (Proc.devRef .tc b) = W0 m c (Proc.devRef .tc b) := by
  dsimp only [W1, hostOps0]
  simp only [StableHlo.after_cons, StableHlo.after_nil]
  rw [StableHlo.reshape_result_ne (h := hb.2), StableHlo.reshape_result_ne (h := hb.1)]

end Cert.KernelIdeal.HandValue

end
-- ==== Proof.Reg0Value.lean ====
/- What the first pallas_call leaves in its result array, read at an index. The packed array has 4136 rows of 32:
   rows 0..4095 hold the features times the first weight, row 4096 the first bias, row 4097 the second bias in its
   first 16 columns, rows 4104..4135 the second weight in their first 16 columns. -/
import proofs.«182081_g1666447311259_cont_sun_c4_429_14_alg».proof.Proof.Reg0
import proofs.«182081_g1666447311259_cont_sun_c4_429_14_alg».proof.Proof.LibRowLayers
import proofs.«182081_g1666447311259_cont_sun_c4_429_14_alg».proof.Proof.Payloads
import proofs.«182081_g1666447311259_cont_sun_c4_429_14_alg».proof.Proof.Tiles
import Idealize.ShloMosaic.Lib.Pipeline.Value
import Idealize.ShloMosaic.Lib.ValueIdx
import Idealize.ShloMosaic.Lib.ValueLayout

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## The canonical contents of a list of stores, read at an index -/

section Canon
variable {S : Shape} {e : EltTy} {Val : EltTy → Type} [∀ e, Nonempty (Val e)]

/-- Off the last store's rectangle the contents are what the earlier stores left. -/
theorem canon_skip (r : Rect S) (w : r.shape.Idx → Val e) (L : List (View.Piece Val S e)) {y : S.Idx} (h : y ∉ r.set) :
    View.canon (⟨r, w⟩ :: L) y = View.canon L y :=
  View.canon_cons_of_not_mem ⟨r, w⟩ L h

/-- Under the last store's rectangle the contents are its payload. -/
theorem canon_at (r : Rect S) (w : r.shape.Idx → Val e) (L : List (View.Piece Val S e)) (y : S.Idx) (x : r.shape.Idx)
    (h : y = r.emb x) : View.canon (⟨r, w⟩ :: L) y = w x := by
  subst h; exact View.canon_cons_emb r w L x

end Canon

/-- An index of the packed array whose row is outside a band of rows is outside the band's rectangle. -/
theorem not_mem_band {off size : Fin 2 → Nat} {inb : ∀ a, off a + size a ≤ S4136x32.size a} (p : Fin 4136) (q : Fin 32)
    (h : p.val < off 0 ∨ off 0 + size 0 ≤ p.val) :
    (ix2 p q : S4136x32.Idx) ∉ (Rect.unit (s := S4136x32) off size inb).set := by
  rw [Rect.mem_set_unit]
  intro hm
  have h0 := hm 0
  change off 0 ≤ p.val ∧ p.val < off 0 + size 0 at h0
  omega

/-! ## The body's result at an index, over any five input blocks -/

/-- Rows 0..4095: the features times the first weight. -/
theorem out0_5_prod (x0 : Vec Ideal S4096x128 .f32) (x1 : Vec Ideal S128x32 .f32) (x2 : Vec Ideal S1x32 .f32) (x3 : Vec Ideal S32x16 .f32) (x4 : Vec Ideal S1x16 .f32)
    (p : Fin 4136) (q : Fin 32) (r : Fin 4096) (hp : p.val = r.val) :
    out0_5 x0 x1 x2 x3 x4 (ix2 p q) = Cert.Layers.rowsTimes (M := 4096) (K := 128) (N := 32) x0 x1 (ix2 r q) := by
  have hr := r.isLt
  have n9 : (ix2 p q : S4136x32.Idx) ∉ r0_9.set := not_mem_band p q (by show p.val < 4098 ∨ 4098 + 6 ≤ p.val; omega)
  have n8 : (ix2 p q : S4136x32.Idx) ∉ r0_8.set := not_mem_band p q (by show p.val < 4104 ∨ 4104 + 32 ≤ p.val; omega)
  have n6 : (ix2 p q : S4136x32.Idx) ∉ r0_6.set := not_mem_band p q (by show p.val < 4097 ∨ 4097 + 1 ≤ p.val; omega)
  have n4 : (ix2 p q : S4136x32.Idx) ∉ r0_4.set := not_mem_band p q (by show p.val < 4096 ∨ 4096 + 1 ≤ p.val; omega)
  have e2 : (ix2 p q : S4136x32.Idx) = r0_2.emb (ix2 r q) := funext fun a => Fin.ext (by
    match a with
    | ⟨0, _⟩ => show p.val = 0 + 1 * r.val; omega
    | ⟨1, _⟩ => show q.val = 0 + 1 * q.val; omega)
  unfold out0_5
  rw [canon_skip _ _ _ n9, canon_skip _ _ _ n8, canon_skip _ _ _ n6, canon_skip _ _ _ n4, canon_at _ _ _ _ _ e2]
  simp only [View.ld_unit_zero (S := S4096x128) Cert.Layers.zeros2, View.ld_unit_zero (S := S128x32) Cert.Layers.zeros2]
  exact congrFun (Cert.Layers.matmul_zero_eq dot_S4096x128_S128x32_S4096x32_1_0_0_1_n_n ⟨rfl, rfl, rfl, rfl, rfl, rfl⟩ none x0 x1) (ix2 r q)

/-- Row 4096: the first bias row. -/
theorem out0_5_bias1 (x0 : Vec Ideal S4096x128 .f32) (x1 : Vec Ideal S128x32 .f32) (x2 : Vec Ideal S1x32 .f32) (x3 : Vec Ideal S32x16 .f32) (x4 : Vec Ideal S1x16 .f32)
    (p : Fin 4136) (q : Fin 32) (hp : p.val = 4096) :
    out0_5 x0 x1 x2 x3 x4 (ix2 p q) = x2 (ix2 (0 : Fin 1) q) := by
  have n9 : (ix2 p q : S4136x32.Idx) ∉ r0_9.set := not_mem_band p q (by show p.val < 4098 ∨ 4098 + 6 ≤ p.val; omega)
  have n8 : (ix2 p q : S4136x32.Idx) ∉ r0_8.set := not_mem_band p q (by show p.val < 4104 ∨ 4104 + 32 ≤ p.val; omega)
  have n6 : (ix2 p q : S4136x32.Idx) ∉ r0_6.set := not_mem_band p q (by show p.val < 4097 ∨ 4097 + 1 ≤ p.val; omega)
  have e4 : (ix2 p q : S4136x32.Idx) = r0_4.emb (ix2 (0 : Fin 1) q) := funext fun a => Fin.ext (by
    match a with
    | ⟨0, _⟩ => show p.val = 4096 + 1 * 0; omega
    | ⟨1, _⟩ => show q.val = 0 + 1 * q.val; omega)
  unfold out0_5
  rw [canon_skip _ _ _ n9, canon_skip _ _ _ n8, canon_skip _ _ _ n6, canon_at _ _ _ _ _ e4]
  simp only [View.ld_unit_zero (S := S1x32) Cert.Layers.zeros2]
  exact Pay.pack2_apply x2 _

/-- Row 4097, a column below 16: the second bias row. -/
theorem out0_5_bias2 (x0 : Vec Ideal S4096x128 .f32) (x1 : Vec Ideal S128x32 .f32) (x2 : Vec Ideal S1x32 .f32) (x3 : Vec Ideal S32x16 .f32) (x4 : Vec Ideal S1x16 .f32)
    (p : Fin 4136) (j : Fin 16) (hp : p.val = 4097) :
    out0_5 x0 x1 x2 x3 x4 (ix2 p (Pay.col32 j)) = x4 (ix2 (0 : Fin 1) j) := by
  have n9 : (ix2 p (Pay.col32 j) : S4136x32.Idx) ∉ r0_9.set := not_mem_band p _ (by show p.val < 4098 ∨ 4098 + 6 ≤ p.val; omega)
  have n8 : (ix2 p (Pay.col32 j) : S4136x32.Idx) ∉ r0_8.set := not_mem_band p _ (by show p.val < 4104 ∨ 4104 + 32 ≤ p.val; omega)
  have e6 : (ix2 p (Pay.col32 j) : S4136x32.Idx) = r0_6.emb (ix2 (0 : Fin 1) (Pay.col32 j)) := funext fun a => Fin.ext (by
    match a with
    | ⟨0, _⟩ => show p.val = 4097 + 1 * 0; omega
    | ⟨1, _⟩ => show (Pay.col32 j).val = 0 + 1 * (Pay.col32 j).val; omega)
  unfold out0_5
  rw [canon_skip _ _ _ n9, canon_skip _ _ _ n8, canon_at _ _ _ _ _ e6]
  simp only [View.ld_unit_zero (S := S1x16) Cert.Layers.zeros2]
  exact Pay.pack3_apply x4 j

/-- Row 4104 + k, a column below 16: row k of the second weight. -/
theorem out0_5_w2 (x0 : Vec Ideal S4096x128 .f32) (x1 : Vec Ideal S128x32 .f32) (x2 : Vec Ideal S1x32 .f32) (x3 : Vec Ideal S32x16 .f32) (x4 : Vec Ideal S1x16 .f32)
    (p : Fin 4136) (k : Fin 32) (j : Fin 16) (hp : p.val = 4104 + k.val) :
    out0_5 x0 x1 x2 x3 x4 (ix2 p (Pay.col32 j)) = x3 (ix2 k j) := by
  have hk := k.isLt
  have n9 : (ix2 p (Pay.col32 j) : S4136x32.Idx) ∉ r0_9.set := not_mem_band p _ (by show p.val < 4098 ∨ 4098 + 6 ≤ p.val; omega)
  have e8 : (ix2 p (Pay.col32 j) : S4136x32.Idx) = r0_8.emb (ix2 k (Pay.col32 j)) := funext fun a => Fin.ext (by
    match a with
    | ⟨0, _⟩ => show p.val = 4104 + 1 * k.val; omega
    | ⟨1, _⟩ => show (Pay.col32 j).val = 0 + 1 * (Pay.col32 j).val; omega)
  unfold out0_5
  rw [canon_skip _ _ _ n9, canon_at _ _ _ _ _ e8]
  simp only [View.ld_unit_zero (S := S32x16) Cert.Layers.zeros2]
  exact Pay.pack4_apply x3 k j

/-! ## The windows' blocks are their whole arrays -/

section Run
variable {F : FTy → Type} [FloatOps F]
variable (V : (c : Dev nD) → (b : Ref sig .tc) → Buf (Elt F) ((c : Thread nD τ).loc b))

/-- A window of the gridless call reads its whole array: its one block sits at offset zero and has the array's
    extents. -/
theorem iblk0_0_eq (c : Dev nD) (t : Fin cfg0.N) : iblk0 V c 0 t = (V c main_arg0 : S4096x128.Idx → Elt F .f32) := by
  have hz : (fun a => win0_0.index t a * (main_arg0 : Ref sig .tc).ty.shape.size a) = fun _ => 0 := funext fun a => Nat.zero_mul _
  exact Memref.read_access_unit_zero (Elt F) main_arg0 hz (fun a => by rw [congrFun hz a]; simp) (V c main_arg0)
theorem iblk0_1_eq (c : Dev nD) (t : Fin cfg0.N) : iblk0 V c 1 t = (V c main_arg2 : S128x32.Idx → Elt F .f32) := by
  have hz : (fun a => win0_1.index t a * (main_arg2 : Ref sig .tc).ty.shape.size a) = fun _ => 0 := funext fun a => Nat.zero_mul _
  exact Memref.read_access_unit_zero (Elt F) main_arg2 hz (fun a => by rw [congrFun hz a]; simp) (V c main_arg2)
theorem iblk0_2_eq (c : Dev nD) (t : Fin cfg0.N) : iblk0 V c 2 t = (V c main_call0_v0 : S1x32.Idx → Elt F .f32) := by
  have hz : (fun a => win0_2.index t a * (main_call0_v0 : Ref sig .tc).ty.shape.size a) = fun _ => 0 := funext fun a => Nat.zero_mul _
  exact Memref.read_access_unit_zero (Elt F) main_call0_v0 hz (fun a => by rw [congrFun hz a]; simp) (V c main_call0_v0)
theorem iblk0_3_eq (c : Dev nD) (t : Fin cfg0.N) : iblk0 V c 3 t = (V c main_arg4 : S32x16.Idx → Elt F .f32) := by
  have hz : (fun a => win0_3.index t a * (main_arg4 : Ref sig .tc).ty.shape.size a) = fun _ => 0 := funext fun a => Nat.zero_mul _
  exact Memref.read_access_unit_zero (Elt F) main_arg4 hz (fun a => by rw [congrFun hz a]; simp) (V c main_arg4)
theorem iblk0_4_eq (c : Dev nD) (t : Fin cfg0.N) : iblk0 V c 4 t = (V c main_call0_v1 : S1x16.Idx → Elt F .f32) := by
  have hz : (fun a => win0_4.index t a * (main_call0_v1 : Ref sig .tc).ty.shape.size a) = fun _ => 0 := funext fun a => Nat.zero_mul _
  exact Memref.read_access_unit_zero (Elt F) main_call0_v1 hz (fun a => by rw [congrFun hz a]; simp) (V c main_call0_v1)

/-- The packed array: the body's result of the five whole input arrays. -/
abbrev packed (c : Dev nD) : S4136x32.Idx → Elt F .f32 :=
  out0_5 (V c main_arg0) (V c main_arg2) (V c main_call0_v0) (V c main_arg4) (V c main_call0_v1)

/-- What the one point writes back is the packed array, read through the output window's block (the whole array). -/
theorem flushed5_eq (c : Dev nD) (t : Fin cfg0.N) :
    (dat0 V c).flushed 5 t = ((cfg0.win 5).blk t).view.read (Elt F) (packed V c) := by
  show (cfg0.win 5).cut (grid0.coords t) ((dat0 V c).after 5 t) = _
  rw [after0_5, iblk0_0_eq, iblk0_1_eq, iblk0_2_eq, iblk0_3_eq, iblk0_4_eq]
  have hz : (fun a => win0_5.index t a * (main_call0_v2 : Ref sig .tc).ty.shape.size a) = fun _ => 0 := funext fun a => Nat.zero_mul _
  exact (Memref.read_access_unit_zero (Elt F) main_call0_v2 hz (fun a => by rw [congrFun hz a]; simp) (packed V c)).symm

/-- So the result array ends holding the packed array: the one point's block covers it. -/
theorem final5 (c : Dev nD) : (dat0 V c).arrAt 5 cfg0.N = packed V c :=
  (dat0 V c).arrAt_eq_of_cover 5 (packed V c) (fun t _ => flushed5_eq V c t) fun i =>
    ⟨t0_0, flush0_5 t0_0, by
      show i ∈ ((View.whole main_call0_v2).slice (win0_5.rect t0_0)).set
      rw [View.set_slice_whole, Rect.mem_set_unit]
      intro a
      have h0 : (i 0 : Nat) < 4136 := (i 0).isLt
      have h1 : (i 1 : Nat) < 32 := (i 1).isLt
      match a with
      | ⟨0, _⟩ => show 0 * 4136 ≤ (i 0 : Nat) ∧ (i 0 : Nat) < 0 * 4136 + 4136; omega
      | ⟨1, _⟩ => show 0 * 32 ≤ (i 1 : Nat) ∧ (i 1 : Nat) < 0 * 32 + 32; omega⟩

end Run

/-! ## The result array at an index -/

section At
variable (V : (c : Dev nD) → (b : Ref sig .tc) → Buf (Elt Ideal) ((c : Thread nD τ).loc b))

/-- Rows 0..4095 hold the features times the first weight. -/
theorem packed_S (c : Dev nD) (n : Fin 4096) (q : Fin 32) :
    (dat0 (F := Ideal) V c).arrAt 5 cfg0.N (ix2 (Pay.rowS n) q)
      = Cert.Layers.rowsTimes (M := 4096) (K := 128) (N := 32) (V c main_arg0) (V c main_arg2) (ix2 n q) :=
  (congrFun (final5 V c) (ix2 (Pay.rowS n) q)).trans (out0_5_prod _ _ _ _ _ (Pay.rowS n) q n rfl)

/-- Row 4096 holds the first bias. -/
theorem packed_B1 (c : Dev nD) (q : Fin 32) :
    (dat0 (F := Ideal) V c).arrAt 5 cfg0.N (ix2 Pay.rowB1 q) = (V c main_call0_v0 : S1x32.Idx → Elt Ideal .f32) (ix2 (0 : Fin 1) q) :=
  (congrFun (final5 V c) (ix2 Pay.rowB1 q)).trans (out0_5_bias1 _ _ _ _ _ Pay.rowB1 q rfl)

/-- Row 4097 holds the second bias in its first 16 columns. -/
theorem packed_B2 (c : Dev nD) (j : Fin 16) :
    (dat0 (F := Ideal) V c).arrAt 5 cfg0.N (ix2 Pay.rowB2 (Pay.col32 j)) = (V c main_call0_v1 : S1x16.Idx → Elt Ideal .f32) (ix2 (0 : Fin 1) j) :=
  (congrFun (final5 V c) (ix2 Pay.rowB2 (Pay.col32 j))).trans (out0_5_bias2 _ _ _ _ _ Pay.rowB2 j rfl)

/-- Rows 4104..4135 hold the second weight in their first 16 columns. -/
theorem packed_W2 (c : Dev nD) (k : Fin 32) (j : Fin 16) :
    (dat0 (F := Ideal) V c).arrAt 5 cfg0.N (ix2 (Pay.rowW2 k) (Pay.col32 j)) = (V c main_arg4 : S32x16.Idx → Elt Ideal .f32) (ix2 k j) :=
  (congrFun (final5 V c) (ix2 (Pay.rowW2 k) (Pay.col32 j))).trans (out0_5_w2 _ _ _ _ _ (Pay.rowW2 k) k j rfl)

end At

end Cert.KernelIdeal.HandValue

end
-- ==== Proof.KernelValue.lean ====
import proofs.«182081_g1666447311259_cont_sun_c4_429_14_alg».proof.Proof.KernelRun
import proofs.«182081_g1666447311259_cont_sun_c4_429_14_alg».proof.Proof.Reg1Value
import proofs.«182081_g1666447311259_cont_sun_c4_429_14_alg».proof.Proof.HostRows
import proofs.«182081_g1666447311259_cont_sun_c4_429_14_alg».proof.Proof.Reg0Value

/-!
# The kernel program's result, as a function of its arguments

The program runs two reshapes on the host, the packing kernel and the graph-convolution kernel. The packing kernel
leaves one array of 4136 rows of 32 columns: the features times the first weights in rows 0 to 4095, the first bias
in row 4096, the second bias in the first sixteen columns of row 4097, the second weights in the first sixteen
columns of rows 4104 to 4135. The arguments reach the kernels unchanged (the host only writes the two one-row bias
arrays, whose single row is the bias vector), so the convolution kernel finds in the packed array exactly what its
value theorem asks for, and its output array is the network's output of the program's six arguments.
-/

noncomputable section

namespace Cert.KernelIdeal.HandValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The buffers the kernels find -/

/-- A buffer other than the two bias rows holds at the first kernel's entry what it held at launch. -/
theorem V1_kept (c : Dev nD) (b : Ref sig .tc) (hb : b ≠ main_call0_v0 ∧ b ≠ main_call0_v1) :
    Hand.V1 m c b = m ((c.tc : Thread nD τ).loc b) :=
  arg_kept m c b hb

/-- The second kernel finds the adjacency stack as launched. -/
theorem V2_adj (c : Dev nD) : Hand.V2 m c main_arg1 = m ((c.tc : Thread nD τ).loc main_arg1) :=
  (Hand.W2_of_ne m c main_arg1 (by decide)).trans (arg_kept m c main_arg1 ⟨by decide, by decide⟩)

/-- The second kernel finds the packed array as the first kernel's write-back left it. -/
theorem V2_packed (c : Dev nD) (i : S4136x32.Idx) :
    Hand.V2 m c main_call0_v2 i = (Hand.dat0 (F := Ideal) (Hand.V1 m) c).arrAt 5 cfg0.N i :=
  congrFun (Hand.W2_arr m c 5) i

/-! ## The result -/

/-- The result buffer after the program is the network's output of the arguments, given the packed array's rows. -/
theorem value_of (c : Dev nD)
    (hS0 : ∀ (V : (c : Dev nD) → (b : Ref sig .tc) → Buf (Elt Ideal) ((c : Thread nD τ).loc b)) (c : Dev nD) (n : Fin 4096) (q : Fin 32),
      (Hand.dat0 (F := Ideal) V c).arrAt 5 cfg0.N (ix2 (Pay.rowS n) q)
        = Cert.Layers.rowsTimes (M := 4096) (K := 128) (N := 32) (V c main_arg0) (V c main_arg2) (ix2 n q))
    (hB10 : ∀ (V : (c : Dev nD) → (b : Ref sig .tc) → Buf (Elt Ideal) ((c : Thread nD τ).loc b)) (c : Dev nD) (q : Fin 32),
      (Hand.dat0 (F := Ideal) V c).arrAt 5 cfg0.N (ix2 Pay.rowB1 q) = V c main_call0_v0 (ix2 (0 : Fin 1) q))
    (hB20 : ∀ (V : (c : Dev nD) → (b : Ref sig .tc) → Buf (Elt Ideal) ((c : Thread nD τ).loc b)) (c : Dev nD) (j : Fin 16),
      (Hand.dat0 (F := Ideal) V c).arrAt 5 cfg0.N (ix2 Pay.rowB2 (Pay.col32 j)) = V c main_call0_v1 (ix2 (0 : Fin 1) j))
    (hW20 : ∀ (V : (c : Dev nD) → (b : Ref sig .tc) → Buf (Elt Ideal) ((c : Thread nD τ).loc b)) (c : Dev nD) (k : Fin 32) (j : Fin 16),
      (Hand.dat0 (F := Ideal) V c).arrAt 5 cfg0.N (ix2 (Pay.rowW2 k) (Pay.col32 j)) = V c main_arg4 (ix2 k j)) :
    Hand.W3 m c (Proc.devRef .tc main_v0) = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h0 := V1_kept m c main_arg0 ⟨by decide, by decide⟩
  have h2 := V1_kept m c main_arg2 ⟨by decide, by decide⟩
  have h4 := V1_kept m c main_arg4 ⟨by decide, by decide⟩
  have hS : ∀ (n : Fin 4096) (q : Fin 32), Hand.V2 m c main_call0_v2 (ix2 (Pay.rowS n) q)
      = Cert.Gcn.support1 (m ((c.tc : Thread nD τ).loc main_arg0)) (m ((c.tc : Thread nD τ).loc main_arg2)) (ix2 n q) := fun n q =>
    (V2_packed m c _).trans ((hS0 (Hand.V1 m) c n q).trans (by rw [h0, h2]; rfl))
  have hB1 : ∀ q : Fin 32, Hand.V2 m c main_call0_v2 (ix2 Pay.rowB1 q) = m ((c.tc : Thread nD τ).loc main_arg3) (ix1 q) := fun q =>
    (V2_packed m c _).trans ((hB10 (Hand.V1 m) c q).trans (b1row_apply m c q))
  have hB2 : ∀ j : Fin 16, Hand.V2 m c main_call0_v2 (ix2 Pay.rowB2 (Pay.col32 j)) = m ((c.tc : Thread nD τ).loc main_arg5) (ix1 j) := fun j =>
    (V2_packed m c _).trans ((hB20 (Hand.V1 m) c j).trans (b2row_apply m c j))
  have hW2 : ∀ (k : Fin 32) (j : Fin 16), Hand.V2 m c main_call0_v2 (ix2 (Pay.rowW2 k) (Pay.col32 j))
      = m ((c.tc : Thread nD τ).loc main_arg4) (ix2 k j) := fun k j =>
    (V2_packed m c _).trans ((hW20 (Hand.V1 m) c k j).trans (congrFun h4 (ix2 k j)))
  have hfin := final1 (Hand.V2 m) c (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) hS hB1 hB2 hW2
  rw [V2_adj m c] at hfin
  exact (Hand.W3_main_v0 m c).trans hfin

/-- Every weakly fair execution of the program terminates with its result at the network's output of the arguments'
    launch contents, the arguments unchanged. -/
theorem run_value_of (ρ : Dev nD → PrngReg)
    (hS0 : ∀ (V : (c : Dev nD) → (b : Ref sig .tc) → Buf (Elt Ideal) ((c : Thread nD τ).loc b)) (c : Dev nD) (n : Fin 4096) (q : Fin 32),
      (Hand.dat0 (F := Ideal) V c).arrAt 5 cfg0.N (ix2 (Pay.rowS n) q)
        = Cert.Layers.rowsTimes (M := 4096) (K := 128) (N := 32) (V c main_arg0) (V c main_arg2) (ix2 n q))
    (hB10 : ∀ (V : (c : Dev nD) → (b : Ref sig .tc) → Buf (Elt Ideal) ((c : Thread nD τ).loc b)) (c : Dev nD) (q : Fin 32),
      (Hand.dat0 (F := Ideal) V c).arrAt 5 cfg0.N (ix2 Pay.rowB1 q) = V c main_call0_v0 (ix2 (0 : Fin 1) q))
    (hB20 : ∀ (V : (c : Dev nD) → (b : Ref sig .tc) → Buf (Elt Ideal) ((c : Thread nD τ).loc b)) (c : Dev nD) (j : Fin 16),
      (Hand.dat0 (F := Ideal) V c).arrAt 5 cfg0.N (ix2 Pay.rowB2 (Pay.col32 j)) = V c main_call0_v1 (ix2 (0 : Fin 1) j))
    (hW20 : ∀ (V : (c : Dev nD) → (b : Ref sig .tc) → Buf (Elt Ideal) ((c : Thread nD τ).loc b)) (c : Dev nD) (k : Fin 32) (j : Fin 16),
      (Hand.dat0 (F := Ideal) V c).arrAt 5 cfg0.N (ix2 (Pay.rowW2 k) (Pay.col32 j)) = V c main_arg4 (ix2 k j)) :
    θ_run (defs (F := Ideal)) (onTc (τ := τ) (main (F := Ideal))) ⟨m, fun _ => 0, ρ⟩ (fun r => ∀ c : Dev nD,
      r.2.mem ((c.tc : Thread nD τ).loc main_v0) = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (Hand.mem_uc main_v0 (by decide))).trans (value_of m c hS0 hB10 hB20 hW20),
     (h c _ (Hand.mem_uc main_arg0 (by decide))).trans (Hand.W3_main_arg0 m c),
     (h c _ (Hand.mem_uc main_arg1 (by decide))).trans (Hand.W3_main_arg1 m c),
     (h c _ (Hand.mem_uc main_arg2 (by decide))).trans (Hand.W3_main_arg2 m c),
     (h c _ (Hand.mem_uc main_arg3 (by decide))).trans (Hand.W3_main_arg3 m c),
     (h c _ (Hand.mem_uc main_arg4 (by decide))).trans (Hand.W3_main_arg4 m c),
     (h c _ (Hand.mem_uc main_arg5 (by decide))).trans (Hand.W3_main_arg5 m c)⟩) (Hand.run_main m ρ)

/-! ## With the packing kernel's value -/

/-- The result buffer after the program is the network's output of the arguments. -/
theorem value (c : Dev nD) :
    Hand.W3 m c (Proc.devRef .tc main_v0) = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  value_of m c packed_S packed_B1 packed_B2 packed_W2

/-- Every weakly fair execution of the program terminates with its result at the network's output of the arguments'
    launch contents, the arguments unchanged. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_value_of m ρ packed_S packed_B1 packed_B2 packed_W2

end Cert.KernelIdeal.HandValue

end
-- ==== Proof.RefOps.lean ====
import proofs.«182081_g1666447311259_cont_sun_c4_429_14_alg».proof.Proof.Gen.ReferenceIdeal
import Idealize.ShloMosaic.Lib.StableHlo.Run

/-!
# The reference network as a straight line of array operations

The reference computes a two-layer graph convolution followed by the logarithm of the logistic function. Its three
outlined functions (the positive part, the softplus, the log-logistic) are substituted at their call sites, which
makes the whole program one list of thirty-three array operations; running the list leaves in every buffer the fold
of the operations over the launch contents.
-/

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The thirty-three operations in order: the first layer (product with the weights, the first adjacency matrix cut
    out of the stack, product with it, the bias made rows and added), the positive part against a zero array, the
    second layer likewise with the second adjacency matrix, and the log-logistic: a negation, the softplus of the
    negated array (fourteen operations over one scalar zero), a negation. -/
abbrev ops : List (HloOp τ sig (Elt F)) :=
  [ binary main_arg0 main_arg2 main_v0 ((fun l r => Host.dotGeneral dot_S4096x128_S128x32_S4096x32_1_0_0_1_n_n none l r) : (⟨S4096x128, .f32⟩ : BufTy).Contents (Elt F) → (⟨S128x32, .f32⟩ : BufTy).Contents (Elt F) → (⟨S4096x32, .f32⟩ : BufTy).Contents (Elt F)),
    unary main_arg1 main_v1 ((extractStridedSlice S1x4096x4096 ![0, 0, 0] · slices_S2x4096x4096_S1x4096x4096_0_0_0) : (⟨S2x4096x4096, .f32⟩ : BufTy).Contents (Elt F) → (⟨S1x4096x4096, .f32⟩ : BufTy).Contents (Elt F)),
    reshape main_v1 main_v2 rfl shapeCasts_S1x4096x4096_S4096x4096,
    binary main_v2 main_v0 main_v3 ((fun l r => Host.dotGeneral dot_S4096x4096_S4096x32_S4096x32_1_0_0_1_n_n none l r) : (⟨S4096x4096, .f32⟩ : BufTy).Contents (Elt F) → (⟨S4096x32, .f32⟩ : BufTy).Contents (Elt F) → (⟨S4096x32, .f32⟩ : BufTy).Contents (Elt F)),
    unary main_arg3 main_v4 (broadcastInDim S1x32 ![1] bcast_S32_S1x32_1 : (⟨S32, .f32⟩ : BufTy).Contents (Elt F) → (⟨S1x32, .f32⟩ : BufTy).Contents (Elt F)),
    unary main_v4 main_v5 (broadcastInDim S4096x32 ![0, 1] bcast_S1x32_S4096x32_0_1 : (⟨S1x32, .f32⟩ : BufTy).Contents (Elt F) → (⟨S4096x32, .f32⟩ : BufTy).Contents (Elt F)),
    binary main_v3 main_v5 main_v6 (addf : (⟨S4096x32, .f32⟩ : BufTy).Contents (Elt F) → (⟨S4096x32, .f32⟩ : BufTy).Contents (Elt F) → (⟨S4096x32, .f32⟩ : BufTy).Contents (Elt F)),
    TRef.nullary main_call0.cst (constant S_ .f32 0x00000000#32),
    TRef.unary main_call0.cst main_call0.v0 (broadcastInDim S4096x32 ![] bcast_S_S4096x32),
    TRef.binary (.of main_v6) main_call0.v0 main_call0.v1 maximumf,
    binary main_v7 main_arg4 main_v8 ((fun l r => Host.dotGeneral dot_S4096x32_S32x16_S4096x16_1_0_0_1_n_n none l r) : (⟨S4096x32, .f32⟩ : BufTy).Contents (Elt F) → (⟨S32x16, .f32⟩ : BufTy).Contents (Elt F) → (⟨S4096x16, .f32⟩ : BufTy).Contents (Elt F)),
    unary main_arg1 main_v9 ((extractStridedSlice S1x4096x4096 ![1, 0, 0] · slices_S2x4096x4096_S1x4096x4096_1_0_0) : (⟨S2x4096x4096, .f32⟩ : BufTy).Contents (Elt F) → (⟨S1x4096x4096, .f32⟩ : BufTy).Contents (Elt F)),
    reshape main_v9 main_v10 rfl shapeCasts_S1x4096x4096_S4096x4096,
    binary main_v10 main_v8 main_v11 ((fun l r => Host.dotGeneral dot_S4096x4096_S4096x16_S4096x16_1_0_0_1_n_n none l r) : (⟨S4096x4096, .f32⟩ : BufTy).Contents (Elt F) → (⟨S4096x16, .f32⟩ : BufTy).Contents (Elt F) → (⟨S4096x16, .f32⟩ : BufTy).Contents (Elt F)),
    unary main_arg5 main_v12 (broadcastInDim S1x16 ![1] bcast_S16_S1x16_1 : (⟨S16, .f32⟩ : BufTy).Contents (Elt F) → (⟨S1x16, .f32⟩ : BufTy).Contents (Elt F)),
    unary main_v12 main_v13 (broadcastInDim S4096x16 ![0, 1] bcast_S1x16_S4096x16_0_1 : (⟨S1x16, .f32⟩ : BufTy).Contents (Elt F) → (⟨S4096x16, .f32⟩ : BufTy).Contents (Elt F)),
    binary main_v11 main_v13 main_v14 (addf : (⟨S4096x16, .f32⟩ : BufTy).Contents (Elt F) → (⟨S4096x16, .f32⟩ : BufTy).Contents (Elt F) → (⟨S4096x16, .f32⟩ : BufTy).Contents (Elt F)),
    TRef.unary (.of main_v14) main_call1.v0 Host.negf,
    TRef.nullary main_call1.call0.cst (constant S_ .f32 0x00000000#32),
    TRef.unary main_call1.call0.cst main_call1.call0.v0 (broadcastInDim S4096x16 ![] bcast_S_S4096x16),
    TRef.binary main_call1.v0 main_call1.call0.v0 main_call1.call0.v1 maximumf,
    TRef.unary main_call1.call0.cst main_call1.call0.v2 (broadcastInDim S4096x16 ![] bcast_S_S4096x16),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S4096x16 ![] bcast_S_S4096x16),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf ]

-- thirty-three binds re-associated
set_option maxRecDepth 1024 in
/-- The program is that straight line: the three functions' definitions unfolded at their calls, both sides are one
    chain of steps once sequencing is re-associated. -/
theorem main_eq (c : Dev nD) : main (F := F) c = seq ops := by
  simp only [main, fn_relu.body, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., reshape_bufs_sub .., binary_bufs_sub .., unary_bufs_sub .., unary_bufs_sub ..,
    binary_bufs_sub .., nullary_bufs_sub .., unary_bufs_sub .., binary_bufs_sub .., binary_bufs_sub .., unary_bufs_sub ..,
    reshape_bufs_sub .., binary_bufs_sub .., unary_bufs_sub .., unary_bufs_sub .., binary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub ..⟩

/-- From any memory with zero counters every weakly fair execution of the program terminates, and every buffer ends
    at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefValue.lean ====
import proofs.«182081_g1666447311259_cont_sun_c4_429_14_alg».proof.Proof.RefOps
import proofs.«182081_g1666447311259_cont_sun_c4_429_14_alg».proof.Proof.Spec
import proofs.«182081_g1666447311259_cont_sun_c4_429_14_alg».proof.Proof.LibRowLayers
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

/-!
# What the reference's operations compute

The fold of the reference's thirty-three operations at its result buffer is one composed term of the six argument
arrays. Read index by index over the extended reals, that term is the two-layer graph convolution followed by the
logarithm of the logistic function:

* a product of a `[M, K]` array with a `[K, N]` array contracting the middle axis is the rows-by-columns sum;
* a slice of one matrix out of the stack of two, with the unit axis dropped, is that matrix;
* a bias vector made a row and repeated down the rows, then added, adds entry `q` of the bias to column `q`;
* the maximum with an array of zeros is the positive part;
* the reference computes `log σ(o)` as `-(softplus (-o))`, with `softplus y = max y 0 + log (1 + exp (-|y|))` guarded
  by a test `y ≠ y` that no extended real passes. This is `min o 0 - log (1 + exp (-|o|))` for every `o`, the two
  infinities included: the logarithm's argument lies between 1 and 2, so the logarithm is a real number and negation
  distributes over the sum.
-/

noncomputable section

namespace Cert.Proof.Ref

open Cert.ReferenceIdeal Cert.ReferenceIdeal.Gen Idealize.ShloMosaic Idealize.ShloMosaic.TcCoe Idealize.SL.Sem Idealize.ShloMosaic.StableHlo
open Idealize.ShloMosaic.ValueIdx Cert.Layers

/-! ## The log-logistic at one element and on whole arrays -/

/-- No extended real differs from itself. -/
theorem cmp_une_self (x : EReal) : Ideal.cmp .une x x = 0#1 := by
  unfold Ideal.cmp
  simp

/-- `-max (-o) 0 = min o 0`. -/
theorem neg_max_neg_zero (o : EReal) : -(max (-o) 0) = min o 0 := by
  rcases le_total o 0 with h | h
  · have h' : (0 : EReal) ≤ -o := by
      have := EReal.neg_le_neg_iff.mpr h
      rwa [neg_zero] at this
    rw [min_eq_left h, max_eq_left h', neg_neg]
  · have h' : -o ≤ (0 : EReal) := by
      have := EReal.neg_le_neg_iff.mpr h
      rwa [neg_zero] at this
    rw [min_eq_right h, max_eq_right h', neg_zero]

/-- `log (1 + exp (-t))` is a real number for every `t ≥ 0`, `⊤` included. -/
theorem log1p_exp_neg_real (t : EReal) (ht : 0 ≤ t) : ∃ a : ℝ, Ideal.log1p (Ideal.exp (-t)) = (a : EReal) := by
  induction t using EReal.rec with
  | bot => exact absurd ht (by simp)
  | coe r =>
    refine ⟨Real.log (1 + Real.exp (-r)), ?_⟩
    have hpos : ¬ (1 + Real.exp (-r) ≤ 0) := not_le.mpr (by positivity)
    rw [← EReal.coe_neg, Ideal.exp_coe, Ideal.log1p, ← EReal.coe_one, ← EReal.coe_add, Ideal.log_coe, if_neg hpos]
  | top =>
    refine ⟨0, ?_⟩
    have h1 : ¬ ((1 : ℝ) ≤ 0) := by norm_num
    rw [EReal.neg_top, Ideal.exp_bot, Ideal.log1p, add_zero, ← EReal.coe_one, Ideal.log_coe, if_neg h1, Real.log_one]

/-- The absolute value `max o (-o)` is not negative. -/
theorem zero_le_max_neg (o : EReal) : 0 ≤ max o (-o) := by
  rcases le_total 0 o with h | h
  · exact le_max_of_le_left h
  · refine le_max_of_le_right ?_
    have := EReal.neg_le_neg_iff.mpr h
    rwa [neg_zero] at this

/-- The reference's spelling of the log-logistic at one element. -/
theorem logSig_scalar (o : EReal) :
    -(Scalar.select (Ideal.cmp .une (-o - 0) (-o - 0)) (-o + 0)
        (max (-o) 0 + Ideal.log1p (Ideal.exp (-(max (-o - 0) (-(-o - 0))))))) = Cert.Gcn.logSig o := by
  rw [cmp_une_self, select_zero]
  unfold Cert.Gcn.logSig
  have e1 : -o - 0 = -o := by rw [sub_eq_add_neg, neg_zero, add_zero]
  have e2 : (0 : EReal) - max o (-o) = -(max o (-o)) := by rw [sub_eq_add_neg, zero_add]
  rw [e1, neg_neg, max_comm (-o) o, e2]
  obtain ⟨a, ha⟩ := log1p_exp_neg_real (max o (-o)) (zero_le_max_neg o)
  rw [ha, EReal.neg_add (Or.inr (EReal.coe_ne_top a)) (Or.inr (EReal.coe_ne_bot a)), neg_max_neg_zero]

variable {S : Shape}

/-- The same for whole arrays: a negation, the softplus of the negated array over an array of zeros, a negation. -/
theorem logSigmoid_eq (y z : FVec Ideal S .f32) (hz : ∀ i, z i = 0) :
    Host.negf (select (cmpf .une (subf (Host.negf y) z) (subf (Host.negf y) z)) (addf (Host.negf y) z)
        (addf (maximumf (Host.negf y) z) (Host.log1p (Host.exp (Host.negf (Host.absf (subf (Host.negf y) z)))))))
      = fun i => Cert.Gcn.logSig (y i) := by
  funext i
  show -(Scalar.select (Ideal.cmp .une (-(y i) - z i) (-(y i) - z i)) (-(y i) + z i)
        (max (-(y i)) (z i) + Ideal.log1p (Ideal.exp (-(max (-(y i) - z i) (-(-(y i) - z i))))))) = _
  rw [hz i]
  exact logSig_scalar (y i)

/-! ## The layout operations at an index -/

/-- A scalar zero repeated over any shape is zero everywhere. -/
theorem zeros_apply {S : Shape} (h : (⟨0, ![]⟩ : Shape).BroadcastsInDim S (![] : Fin 0 → Fin S.rank)) (i : S.Idx) :
    broadcastInDim S ![] h (constant (F := Ideal) (⟨0, ![]⟩ : Shape) .f32 0x00000000#32) i = 0 := by
  rw [broadcastInDim_apply ![] h _ i ix0 (fun a => a.elim0), constant_apply, Ideal.ofBits_zero_f32]

/-- Matrix `p` of the stack, sliced out at offset `o = p` along the leading axis with the unit axis dropped, reads the
    stack at `(p, r, n)`. -/
theorem adjSlice_apply (o : Nat) (p : Fin 2) (hp : p.val = o) (adj : (⟨3, ![2, 4096, 4096]⟩ : Shape).Idx → EReal)
    (h : (⟨3, ![2, 4096, 4096]⟩ : Shape).Slices ![o, 0, 0] ⟨3, ![1, 4096, 4096]⟩)
    (hc : (⟨3, ![1, 4096, 4096]⟩ : Shape).ShapeCasts ⟨2, ![4096, 4096]⟩) (r n : Fin 4096) :
    shapeCast ⟨2, ![4096, 4096]⟩ (extractStridedSlice ⟨3, ![1, 4096, 4096]⟩ ![o, 0, 0] adj h) hc (ix2 r n) = adj (ix3 p r n) := by
  rw [shapeCast_1ab_ab_apply]
  exact extractStridedSlice_apply _ adj h (ix3 (0 : Fin 1) r n) (ix3 p r n) (fun a => by
    match a with
    | ⟨0, _⟩ => show p.val = o + 0; omega
    | ⟨1, _⟩ => show r.val = 0 + r.val; omega
    | ⟨2, _⟩ => show n.val = 0 + n.val; omega)

/-- So that slice is `Cert.Gcn.adjOf p`. -/
theorem adjSlice_eq (o : Nat) (p : Fin 2) (hp : p.val = o) (adj : (⟨3, ![2, 4096, 4096]⟩ : Shape).Idx → EReal)
    (h : (⟨3, ![2, 4096, 4096]⟩ : Shape).Slices ![o, 0, 0] ⟨3, ![1, 4096, 4096]⟩)
    (hc : (⟨3, ![1, 4096, 4096]⟩ : Shape).ShapeCasts ⟨2, ![4096, 4096]⟩) :
    shapeCast ⟨2, ![4096, 4096]⟩ (extractStridedSlice ⟨3, ![1, 4096, 4096]⟩ ![o, 0, 0] adj h) hc = Cert.Gcn.adjOf p adj := by
  funext i
  obtain ⟨r, n, rfl⟩ : ∃ (r : Fin 4096) (n : Fin 4096), i = ix2 r n := ⟨i 0, i 1, eq_ix2 i⟩
  rw [adjSlice_apply o p hp adj h hc r n]
  rfl

/-! ## The composed term -/

/-- One adjacency matrix cut out of the stack. -/
def adjT (o : Nat) (adj : FVec Ideal S2x4096x4096 .f32) (h : S2x4096x4096.Slices ![o, 0, 0] S1x4096x4096) :
    FVec Ideal S4096x4096 .f32 :=
  shapeCast S4096x4096 (extractStridedSlice S1x4096x4096 ![o, 0, 0] adj h) shapeCasts_S1x4096x4096_S4096x4096

/-- The hidden layer as the operations spell it. -/
def hiddenT (x : FVec Ideal S4096x128 .f32) (adj : FVec Ideal S2x4096x4096 .f32) (w1 : FVec Ideal S128x32 .f32)
    (b1 : FVec Ideal S32 .f32) : FVec Ideal S4096x32 .f32 :=
  maximumf
    (addf
      (Host.dotGeneral dot_S4096x4096_S4096x32_S4096x32_1_0_0_1_n_n none (adjT 0 adj slices_S2x4096x4096_S1x4096x4096_0_0_0)
        (Host.dotGeneral dot_S4096x128_S128x32_S4096x32_1_0_0_1_n_n none x w1))
      (broadcastInDim S4096x32 ![0, 1] bcast_S1x32_S4096x32_0_1 (broadcastInDim S1x32 ![1] bcast_S32_S1x32_1 b1)))
    (broadcastInDim S4096x32 ![] bcast_S_S4096x32 (constant S_ .f32 0x00000000#32))

/-- The second layer before the log-logistic as the operations spell it. -/
def logitsT (x : FVec Ideal S4096x128 .f32) (adj : FVec Ideal S2x4096x4096 .f32) (w1 : FVec Ideal S128x32 .f32)
    (b1 : FVec Ideal S32 .f32) (w2 : FVec Ideal S32x16 .f32) (b2 : FVec Ideal S16 .f32) : FVec Ideal S4096x16 .f32 :=
  addf
    (Host.dotGeneral dot_S4096x4096_S4096x16_S4096x16_1_0_0_1_n_n none (adjT 1 adj slices_S2x4096x4096_S1x4096x4096_1_0_0)
      (Host.dotGeneral dot_S4096x32_S32x16_S4096x16_1_0_0_1_n_n none (hiddenT x adj w1 b1) w2))
    (broadcastInDim S4096x16 ![0, 1] bcast_S1x16_S4096x16_0_1 (broadcastInDim S1x16 ![1] bcast_S16_S1x16_1 b2))

/-- The array of zeros the softplus compares against. -/
def zeros16 : FVec Ideal S4096x16 .f32 := broadcastInDim S4096x16 ![] bcast_S_S4096x16 (constant S_ .f32 0x00000000#32)

/-- The result as the operations spell it. -/
def outT (x : FVec Ideal S4096x128 .f32) (adj : FVec Ideal S2x4096x4096 .f32) (w1 : FVec Ideal S128x32 .f32)
    (b1 : FVec Ideal S32 .f32) (w2 : FVec Ideal S32x16 .f32) (b2 : FVec Ideal S16 .f32) : FVec Ideal S4096x16 .f32 :=
  Host.negf (select
    (cmpf .une (subf (Host.negf (logitsT x adj w1 b1 w2 b2)) zeros16) (subf (Host.negf (logitsT x adj w1 b1 w2 b2)) zeros16))
    (addf (Host.negf (logitsT x adj w1 b1 w2 b2)) zeros16)
    (addf (maximumf (Host.negf (logitsT x adj w1 b1 w2 b2)) zeros16)
      (Host.log1p (Host.exp (Host.negf (Host.absf (subf (Host.negf (logitsT x adj w1 b1 w2 b2)) zeros16)))))))

/-! ## The composed term is the network -/

/-- The host's product with plain dimension numbers is the rows-by-columns sum. -/
theorem hostDot_eq {M K N : Nat} (d : DotDims ⟨2, ![M, K]⟩ ⟨2, ![K, N]⟩ ⟨2, ![M, N]⟩) (h : Cert.LibPlainDot.Plain d)
    (l : FVec Ideal ⟨2, ![M, K]⟩ .f32) (r : FVec Ideal ⟨2, ![K, N]⟩ .f32) :
    Host.dotGeneral (F := Ideal) (φ₁ := .f32) (φ₂ := .f32) d none l r = rowsTimes l r :=
  dotGeneral_eq d h none .single l r

theorem hiddenT_eq (x : (⟨2, ![4096, 128]⟩ : Shape).Idx → EReal) (adj : (⟨3, ![2, 4096, 4096]⟩ : Shape).Idx → EReal)
    (w1 : (⟨2, ![128, 32]⟩ : Shape).Idx → EReal) (b1 : (⟨1, ![32]⟩ : Shape).Idx → EReal) :
    hiddenT x adj w1 b1 = Cert.Gcn.hidden x adj w1 b1 := by
  have hA : adjT 0 adj slices_S2x4096x4096_S1x4096x4096_0_0_0 = Cert.Gcn.adjOf 0 adj :=
    adjSlice_eq 0 0 rfl adj _ _
  unfold hiddenT Cert.Gcn.hidden Cert.Gcn.support1
  rw [hostDot_eq dot_S4096x128_S128x32_S4096x32_1_0_0_1_n_n ⟨rfl, rfl, rfl, rfl, rfl, rfl⟩, hA,
    hostDot_eq dot_S4096x4096_S4096x32_S4096x32_1_0_0_1_n_n ⟨rfl, rfl, rfl, rfl, rfl, rfl⟩]
  exact maximumf_addf_rows_of_vector _ b1 _ _ _ (zeros_apply _)

theorem logitsT_eq (x : (⟨2, ![4096, 128]⟩ : Shape).Idx → EReal) (adj : (⟨3, ![2, 4096, 4096]⟩ : Shape).Idx → EReal)
    (w1 : (⟨2, ![128, 32]⟩ : Shape).Idx → EReal) (b1 : (⟨1, ![32]⟩ : Shape).Idx → EReal)
    (w2 : (⟨2, ![32, 16]⟩ : Shape).Idx → EReal) (b2 : (⟨1, ![16]⟩ : Shape).Idx → EReal) :
    logitsT x adj w1 b1 w2 b2 = Cert.Gcn.logits x adj w1 b1 w2 b2 := by
  have hA : adjT 1 adj slices_S2x4096x4096_S1x4096x4096_1_0_0 = Cert.Gcn.adjOf 1 adj :=
    adjSlice_eq 1 1 rfl adj _ _
  unfold logitsT Cert.Gcn.logits Cert.Gcn.support2
  rw [hiddenT_eq, hA, hostDot_eq dot_S4096x32_S32x16_S4096x16_1_0_0_1_n_n ⟨rfl, rfl, rfl, rfl, rfl, rfl⟩,
    hostDot_eq dot_S4096x4096_S4096x16_S4096x16_1_0_0_1_n_n ⟨rfl, rfl, rfl, rfl, rfl, rfl⟩]
  exact addf_rows_of_vector _ b2 _ _

theorem outT_eq (x : (⟨2, ![4096, 128]⟩ : Shape).Idx → EReal) (adj : (⟨3, ![2, 4096, 4096]⟩ : Shape).Idx → EReal)
    (w1 : (⟨2, ![128, 32]⟩ : Shape).Idx → EReal) (b1 : (⟨1, ![32]⟩ : Shape).Idx → EReal)
    (w2 : (⟨2, ![32, 16]⟩ : Shape).Idx → EReal) (b2 : (⟨1, ![16]⟩ : Shape).Idx → EReal) :
    outT x adj w1 b1 w2 b2 = Cert.Gcn.out x adj w1 b1 w2 b2 := by
  unfold outT
  rw [logSigmoid_eq (logitsT x adj w1 b1 w2 b2) zeros16 (fun i => zeros_apply _ i), logitsT_eq]
  rfl

end Cert.Proof.Ref

end
-- ==== Proof.RefRun.lean ====
import proofs.«182081_g1666447311259_cont_sun_c4_429_14_alg».proof.Proof.RefValue

/-!
# The reference's run

Every weakly fair execution of the reference terminates, its result is the two-layer graph convolution followed by
the logarithm of the logistic function of its six arguments (`Cert.Gcn.out`), and the arguments end unchanged: the
run of the straight line of operations leaves every buffer at the fold of the operations, the fold at the result
buffer is the composed term, and the composed term is the network.
-/

noncomputable section

namespace Cert.Proof.Ref

open Cert.ReferenceIdeal Cert.ReferenceIdeal.Gen Idealize.ShloMosaic Idealize.ShloMosaic.TcCoe Idealize.SL.Sem Idealize.ShloMosaic.StableHlo

set_option maxRecDepth 8192 in
set_option maxHeartbeats 400000 in
/-- The fold at the result buffer is the composed term: each operation's result at its own buffer is its function of
    its operands' contents, and at any other buffer what was there. -/
theorem after_out (V : Valuation τ sig (Elt Ideal)) :
    after (ops (F := Ideal)) V (main_v15 : DevRef τ sig)
      = outT (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [after_cons, after_nil]
  rfl

/-- No operation writes an argument. -/
theorem after_arg0 (V : Valuation τ sig (Elt Ideal)) :
    after (ops (F := Ideal)) V (main_arg0 : DevRef τ sig) = V (main_arg0 : DevRef τ sig) := by
  simp only [after_cons, after_nil]
  rfl

/-- No operation writes an argument. -/
theorem after_arg1 (V : Valuation τ sig (Elt Ideal)) :
    after (ops (F := Ideal)) V (main_arg1 : DevRef τ sig) = V (main_arg1 : DevRef τ sig) := by
  simp only [after_cons, after_nil]
  rfl

/-- No operation writes an argument. -/
theorem after_arg2 (V : Valuation τ sig (Elt Ideal)) :
    after (ops (F := Ideal)) V (main_arg2 : DevRef τ sig) = V (main_arg2 : DevRef τ sig) := by
  simp only [after_cons, after_nil]
  rfl

/-- No operation writes an argument. -/
theorem after_arg3 (V : Valuation τ sig (Elt Ideal)) :
    after (ops (F := Ideal)) V (main_arg3 : DevRef τ sig) = V (main_arg3 : DevRef τ sig) := by
  simp only [after_cons, after_nil]
  rfl

/-- No operation writes an argument. -/
theorem after_arg4 (V : Valuation τ sig (Elt Ideal)) :
    after (ops (F := Ideal)) V (main_arg4 : DevRef τ sig) = V (main_arg4 : DevRef τ sig) := by
  simp only [after_cons, after_nil]
  rfl

/-- No operation writes an argument. -/
theorem after_arg5 (V : Valuation τ sig (Elt Ideal)) :
    after (ops (F := Ideal)) V (main_arg5 : DevRef τ sig) = V (main_arg5 : DevRef τ sig) := by
  simp only [after_cons, after_nil]
  rfl

/-- From any memory with zero counters every weakly fair execution of the reference terminates with its result at
    `Cert.Gcn.out` of the arguments' launch contents, the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v15)
            = Cert.Gcn.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run defs _ _).mono (fun _ h c =>
      ⟨(h c main_v15).trans ((after_out _).trans (outT_eq _ _ _ _ _ _)),
        (h c main_arg0).trans (after_arg0 _), (h c main_arg1).trans (after_arg1 _), (h c main_arg2).trans (after_arg2 _),
        (h c main_arg3).trans (after_arg3 _), (h c main_arg4).trans (after_arg4 _), (h c main_arg5).trans (after_arg5 _)⟩)
    (run_main m ρ)

end Cert.Proof.Ref

end
-- ==== Proof.lean ====
/-
  A two-layer graph convolution followed by the logarithm of the logistic function, as two kernels against its
  plain array reference.  With A₀, A₁ the two [4096, 4096] adjacency matrices,

      s₁ = x · W₁,   h = max (A₀ · s₁ + b₁) 0,   s₂ = h · W₂,   o = A₁ · s₂ + b₂,   out = logσ o.

  The first kernel packs s₁, b₁, b₂ (as a row, padded with zeros to 32 columns) and W₂ (padded with sixteen zero
  columns) into one [4136, 32] array.  The second streams the adjacency stack over a grid of (phase, tile) = 2 × 8
  points, 512 rows per point: phase 0 stores the rows of h into a scratch array, the first point of phase 1 forms
  h times the padded W₂ in a second scratch array, and phase 1 stores 512 rows of the output per point, from the first
  sixteen columns of A₁ times that product.  The padding columns never reach the output, a product with the padded
  weights restricted to its first sixteen columns is the product with W₂ itself, and a product taken 512 rows at a
  time is the product taken whole: at the ideal instance both programs are the same sums in the same order, so no
  finiteness of the inputs is used.  The reference spells logσ o as −(max (−o) 0 + log (1 + exp (−|−o|))) under a
  test for an unordered comparison that is never true of extended reals, the kernel as min o 0 − log (1 + exp (0 − |o|));
  the two agree on every extended real, the infinities included.

  The frames: the kernel program's run is the host's two reshapes followed by the two kernel regions, each region
  entered from what the one before left (the same proof at the word-level and at the ideal instance); the
  reference's is its run as a list of host operations.  The ideal pass rewrote nothing, so there is nothing to
  preserve beyond the program's own text.
-/
import proofs.«182081_g1666447311259_cont_sun_c4_429_14_alg».proof.Defs
import proofs.«182081_g1666447311259_cont_sun_c4_429_14_alg».proof.Proof.Gen.Kernel
import proofs.«182081_g1666447311259_cont_sun_c4_429_14_alg».proof.Proof.Gen.KernelIdeal
import proofs.«182081_g1666447311259_cont_sun_c4_429_14_alg».proof.Proof.Gen.ReferenceIdeal
import proofs.«182081_g1666447311259_cont_sun_c4_429_14_alg».proof.Proof.Gen.Pre_finite_inputs
import proofs.«182081_g1666447311259_cont_sun_c4_429_14_alg».proof.Proof.BitsKernelRun
import proofs.«182081_g1666447311259_cont_sun_c4_429_14_alg».proof.Proof.KernelValue
import proofs.«182081_g1666447311259_cont_sun_c4_429_14_alg».proof.Proof.RefRun

noncomputable section

namespace Cert.Proof

open Idealize.ShloMosaic Idealize.SL.Sem

/-- The word-level kernel program runs to the end and leaves its arguments as launched. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.Proof.Ref.run m ρ)

/-- Both programs end with the network's output of their (equal) arguments. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.HandValue.run_value m ρ, ?_⟩
  refine (θ_run Cert.ReferenceIdeal.defs _ _).mono (fun _ h c => ⟨(h c).1.trans ?_, (h c).2⟩) (Cert.Proof.Ref.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
